-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v75)) (v1 : (c : Dev Cert.KernelIdeal.nD) → Buf (Elt Ideal) ((c.tc : Thread Cert.KernelIdeal.nD Cert.KernelIdeal.τ).loc Cert.KernelIdeal.main_v51_1)) (v2 : (c : Dev Cert.KernelIdeal.nD) → Buf (Elt Ideal) ((c.tc : Thread Cert.KernelIdeal.nD Cert.KernelIdeal.τ).loc Cert.KernelIdeal.main_v51_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_v51_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S128x64 .f32) (main_arg16 : FVec F S64 .f32) (main_v63 : IVec S_ 1) (main_v67 : IVec S_ 1) : IVec S_ 1 :=
  let main_v68 : IVec S_ 1 := andi main_v63 main_v67
  let main_v69 : FVec F S128x64 .f32 := Host.absf main_arg15
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg12 : FVec F S128x128 .f32) (main_arg13 : FVec F S128 .f32) (main_arg14 : FVec F S128x128 .f32) (main_arg15 : FVec F S128x64 .f32) (main_arg16 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_v63 main_v67

def fn_part2 {F : FTy → Type} [FloatOps F] (main_arg8 : FVec F S256x256 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x64 .f32) (main_arg16 : FVec F S64 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_v48 main_v49 main_v50

def fn_part1 {F : FTy → Type} [FloatOps F] (main_arg5 : FVec F S128x256 .f32) (main_arg6 : FVec F S256x256 .f32) (main_arg7 : FVec F S256 .f32) (main_arg8 : FVec F S256x256 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x64 .f32) (main_arg16 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : IVec S2x800000 32) (main_arg2 : FVec F S50000x128 .f32) (main_arg3 : FVec F S128x256 .f32) (main_arg4 : FVec F S256 .f32) (main_arg5 : FVec F S128x256 .f32) (main_arg6 : FVec F S256x256 .f32) (main_arg7 : FVec F S256 .f32) (main_arg8 : FVec F S256x256 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x64 .f32) (main_arg16 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x256 : Shape := ⟨2, ![1, 256]⟩
abbrev S1x128 : Shape := ⟨2, ![1, 128]⟩
abbrev S1x64 : Shape := ⟨2, ![1, 64]⟩
abbrev S800000x128 : Shape := ⟨2, ![800000, 128]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S800000x256 : Shape := ⟨2, ![800000, 256]⟩
abbrev S50000x64 : Shape := ⟨2, ![50000, 64]⟩
abbrev S2000x64 : Shape := ⟨2, ![2000, 64]⟩

abbrev nBuf : Space → Nat
  | .hbm => 111
  | .vmem => 52
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x128, .f32⟩
  | .hbm, ⟨3, _⟩ => ⟨S128x256, .f32⟩
  | .hbm, ⟨4, _⟩ => ⟨S256, .f32⟩
  | .hbm, ⟨5, _⟩ => ⟨S128x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128x64, .f32⟩
  | .hbm, ⟨16, _⟩ => ⟨S64, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S50000x1, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x128, .bf16⟩
  | .hbm, ⟨35, _⟩ => ⟨S1x256, .f32⟩
  | .hbm, ⟨36, _⟩ => ⟨S1x256, .f32⟩
  | .hbm, ⟨37, _⟩ => ⟨S1x128, .f32⟩
  | .hbm, ⟨38, _⟩ => ⟨S1x128, .f32⟩
  | .hbm, ⟨39, _⟩ => ⟨S1x64, .f32⟩
  | .hbm, ⟨40, _⟩ => ⟨S128x256, .bf16⟩
  | .hbm, ⟨41, _⟩ => ⟨S128x256, .bf16⟩
  | .hbm, ⟨42, _⟩ => ⟨S256x256, .bf16⟩
  | .hbm, ⟨43, _⟩ => ⟨S256x256, .bf16⟩
  | .hbm, ⟨44, _⟩ => ⟨S128x128, .bf16⟩
  | .hbm, ⟨45, _⟩ => ⟨S128x128, .bf16⟩
  | .hbm, ⟨46, _⟩ => ⟨S128x128, .bf16⟩
  | .hbm, ⟨47, _⟩ => ⟨S128x128, .bf16⟩
  | .hbm, ⟨48, _⟩ => ⟨S128x64, .bf16⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .bf16⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S50000x256, .bf16⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x256, .bf16⟩
  | .hbm, ⟨73, _⟩ => ⟨S800000x256, .f32⟩
  | .hbm, ⟨74, _⟩ => ⟨S_, .f32⟩
  | .hbm, ⟨75, _⟩ => ⟨S50000x256, .f32⟩
  | .hbm, ⟨76, _⟩ => ⟨S800000x1, .i32⟩
  | .hbm, ⟨77, _⟩ => ⟨S50000x256, .f32⟩
  | .hbm, ⟨78, _⟩ => ⟨S50000x128, .bf16⟩
  | .hbm, ⟨79, _⟩ => ⟨S50000x128, .f32⟩
  | .hbm, ⟨80, _⟩ => ⟨S50000x128, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x128, .bf16⟩
  | .hbm, ⟨90, _⟩ => ⟨S800000x128, .f32⟩
  | .hbm, ⟨91, _⟩ => ⟨S_, .f32⟩
  | .hbm, ⟨92, _⟩ => ⟨S50000x128, .f32⟩
  | .hbm, ⟨93, _⟩ => ⟨S800000x1, .i32⟩
  | .hbm, ⟨94, _⟩ => ⟨S50000x128, .f32⟩
  | .hbm, ⟨95, _⟩ => ⟨S50000x128, .bf16⟩
  | .hbm, ⟨96, _⟩ => ⟨S_, .i32⟩
  | .hbm, ⟨97, _⟩ => ⟨S800000, .i32⟩
  | .hbm, ⟨98, _⟩ => ⟨S800000, .i1⟩
  | .hbm, ⟨99, _⟩ => ⟨S_, .i32⟩
  | .hbm, ⟨100, _⟩ => ⟨S800000, .i32⟩
  | .hbm, ⟨101, _⟩ => ⟨S800000, .i32⟩
  | .hbm, ⟨102, _⟩ => ⟨S800000, .i32⟩
  | .hbm, ⟨103, _⟩ => ⟨S800000x1, .i32⟩
  | .hbm, ⟨104, _⟩ => ⟨S800000x128, .bf16⟩
  | .hbm, ⟨105, _⟩ => ⟨S800000x128, .f32⟩
  | .hbm, ⟨106, _⟩ => ⟨S_, .f32⟩
  | .hbm, ⟨107, _⟩ => ⟨S50000x128, .f32⟩
  | .hbm, ⟨108, _⟩ => ⟨S800000x1, .i32⟩
  | .hbm, ⟨109, _⟩ => ⟨S50000x128, .f32⟩
  | .hbm, ⟨110, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .bf16⟩
  | .local _ .vmem, ⟨3, _⟩ => ⟨S2000x128, .bf16⟩
  | .local _ .vmem, ⟨4, _⟩ => ⟨S128x256, .bf16⟩
  | .local _ .vmem, ⟨5, _⟩ => ⟨S1x256, .f32⟩
  | .local _ .vmem, ⟨6, _⟩ => ⟨S128x256, .bf16⟩
  | .local _ .vmem, ⟨7, _⟩ => ⟨S2000x1, .f32⟩
  | .local _ .vmem, ⟨8, _⟩ => ⟨S2000x1, .f32⟩
  | .local _ .vmem, ⟨9, _⟩ => ⟨S2000x256, .bf16⟩
  | .local _ .vmem, ⟨10, _⟩ => ⟨S2000x256, .bf16⟩
  | .local _ .vmem, ⟨11, _⟩ => ⟨S2000x256, .f32⟩
  | .local _ .vmem, ⟨12, _⟩ => ⟨S2000x256, .f32⟩
  | .local _ .vmem, ⟨13, _⟩ => ⟨S2000x256, .bf16⟩
  | .local _ .vmem, ⟨14, _⟩ => ⟨S2000x256, .bf16⟩
  | .local _ .vmem, ⟨15, _⟩ => ⟨S256x256, .bf16⟩
  | .local _ .vmem, ⟨16, _⟩ => ⟨S1x256, .f32⟩
  | .local _ .vmem, ⟨17, _⟩ => ⟨S256x256, .bf16⟩
  | .local _ .vmem, ⟨18, _⟩ => ⟨S2000x1, .f32⟩
  | .local _ .vmem, ⟨19, _⟩ => ⟨S2000x1, .f32⟩
  | .local _ .vmem, ⟨20, _⟩ => ⟨S2000x128, .f32⟩
  | .local _ .vmem, ⟨21, _⟩ => ⟨S2000x128, .f32⟩
  | .local _ .vmem, ⟨22, _⟩ => ⟨S2000x128, .bf16⟩
  | .local _ .vmem, ⟨23, _⟩ => ⟨S2000x128, .bf16⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .bf16⟩
  | .local _ .vmem, ⟨31, _⟩ => ⟨S2000x128, .bf16⟩
  | .local _ .vmem, ⟨32, _⟩ => ⟨S128x128, .bf16⟩
  | .local _ .vmem, ⟨33, _⟩ => ⟨S1x128, .f32⟩
  | .local _ .vmem, ⟨34, _⟩ => ⟨S128x128, .bf16⟩
  | .local _ .vmem, ⟨35, _⟩ => ⟨S2000x1, .f32⟩
  | .local _ .vmem, ⟨36, _⟩ => ⟨S2000x1, .f32⟩
  | .local _ .vmem, ⟨37, _⟩ => ⟨S2000x128, .bf16⟩
  | .local _ .vmem, ⟨38, _⟩ => ⟨S2000x128, .bf16⟩
  | .local _ .vmem, ⟨39, _⟩ => ⟨S2000x128, .f32⟩
  | .local _ .vmem, ⟨40, _⟩ => ⟨S2000x128, .f32⟩
  | .local _ .vmem, ⟨41, _⟩ => ⟨S2000x128, .bf16⟩
  | .local _ .vmem, ⟨42, _⟩ => ⟨S2000x128, .bf16⟩
  | .local _ .vmem, ⟨43, _⟩ => ⟨S128x128, .bf16⟩
  | .local _ .vmem, ⟨44, _⟩ => ⟨S1x128, .f32⟩
  | .local _ .vmem, ⟨45, _⟩ => ⟨S128x128, .bf16⟩
  | .local _ .vmem, ⟨46, _⟩ => ⟨S2000x1, .f32⟩
  | .local _ .vmem, ⟨47, _⟩ => ⟨S2000x1, .f32⟩
  | .local _ .vmem, ⟨48, _⟩ => ⟨S128x64, .bf16⟩
  | .local _ .vmem, ⟨49, _⟩ => ⟨S1x64, .f32⟩
  | .local _ .vmem, ⟨50, _⟩ => ⟨S2000x64, .f32⟩
  | .local _ .vmem, ⟨51, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c : Ref sig .tc := ⟨.hbm, 49, rfl⟩
abbrev main_v28 : Ref sig .tc := ⟨.hbm, 50, rfl⟩
abbrev main_v29 : Ref sig .tc := ⟨.hbm, 51, rfl⟩
abbrev main_c_3 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_5 : Ref sig .tc := ⟨.hbm, 64, rfl⟩
abbrev main_v40 : Ref sig .tc := ⟨.hbm, 65, rfl⟩
abbrev main_v41 : Ref sig .tc := ⟨.hbm, 66, rfl⟩
abbrev main_c_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51_0 : Ref sig .tc := ⟨.hbm, 78, rfl⟩
abbrev main_v51_1 : Ref sig .tc := ⟨.hbm, 79, rfl⟩
abbrev main_v51_2 : Ref sig .tc := ⟨.hbm, 80, rfl⟩
abbrev main_c_8 : Ref sig .tc := ⟨.hbm, 81, rfl⟩
abbrev main_v52 : Ref sig .tc := ⟨.hbm, 82, rfl⟩
abbrev main_v53 : Ref sig .tc := ⟨.hbm, 83, rfl⟩
abbrev main_c_9 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_11 : Ref sig .tc := ⟨.hbm, 96, rfl⟩
abbrev main_v64 : Ref sig .tc := ⟨.hbm, 97, rfl⟩
abbrev main_v65 : Ref sig .tc := ⟨.hbm, 98, rfl⟩
abbrev main_c_12 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_13 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg5_1 : Ref sig .tc := ⟨.vmem, 36, rfl⟩
abbrev cc2_stg6_0 : Ref sig .tc := ⟨.vmem, 37, rfl⟩
abbrev cc2_stg6_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg5_1 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg8_0 : Ref sig .tc := ⟨.vmem, 50, rfl⟩
abbrev cc3_stg8_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem5_1 : DmaSem sig := 36
abbrev cc2_sem6_0 : DmaSem sig := 37
abbrev cc2_sem6_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem3_0 : DmaSem sig := 44
abbrev cc3_sem4_0 : DmaSem sig := 45
abbrev cc3_sem5_0 : DmaSem sig := 46
abbrev cc3_sem5_1 : DmaSem sig := 47
abbrev cc3_sem6_0 : DmaSem sig := 48
abbrev cc3_sem7_0 : DmaSem sig := 49
abbrev cc3_sem8_0 : DmaSem sig := 50
abbrev cc3_sem8_1 : DmaSem sig := 51

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S128x64 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  bitsLt_bf16_f32 : FTy.bits .bf16 < FTy.bits .f32
  shapeCasts_S256_S1x256 : S256.ShapeCasts S1x256
  shapeCasts_S128_S1x128 : S128.ShapeCasts S1x128
  shapeCasts_S64_S1x64 : S64.ShapeCasts S1x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S2000x256_o0_0_S2000x128 : S2000x256.Slices ![0, 0] S2000x128
  slices_S2000x256_o0_128_S2000x128 : S2000x256.Slices ![0, 128] S2000x128
  packedbf16_S2000x128_S2000x128_0_0 : (Rect.unit (s := S2000x128) ![0, 0] S2000x128.size inb_S2000x128_S2000x128_0_0).PackedRows (EltTy.packing .bf16)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .bf16 = 32 ∨ (Rect.block (s := S50000x128) S2000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S50000x1.size a
  hwx0_5 : ∀ i : grid0.Coords, EltTy.bits .f32 = 32 ∨ (Rect.block (s := S50000x1) S2000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .bf16 = 32 ∨ (Rect.block (s := S50000x256) S2000x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .bf16 = 32 ∨ (Rect.block (s := S50000x256) S2000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S50000x1.size a
  hwx1_5 : ∀ i : grid1.Coords, EltTy.bits .f32 = 32 ∨ (Rect.block (s := S50000x1) S2000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .bf16 = 32 ∨ (Rect.block (s := S50000x128) S2000x128.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .bf16 = 32 ∨ (Rect.block (s := S50000x128) S2000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S50000x1.size a
  hwx2_5 : ∀ i : grid2.Coords, EltTy.bits .f32 = 32 ∨ (Rect.block (s := S50000x1) S2000x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .bf16 = 32 ∨ (Rect.block (s := S50000x128) S2000x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .bf16 = 32 ∨ (Rect.block (s := S50000x128) S2000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .bf16 = 32 ∨ (Rect.block (s := S128x128) S128x128.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x1.size a ≤ S50000x1.size a
  hwx3_5 : ∀ i : grid3.Coords, EltTy.bits .f32 = 32 ∨ (Rect.block (s := S50000x1) S2000x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x64.size a ≤ S128x64.size a
  hwx3_6 : ∀ i : grid3.Coords, EltTy.bits .bf16 = 32 ∨ (Rect.block (s := S128x64) S128x64.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x64.size a ≤ S50000x64.size a
  hwx3_8 : ∀ i : grid3.Coords, EltTy.bits .f32 = 32 ∨ (Rect.block (s := S50000x64) S2000x64.size (cc3_transform_8 i) (hinb3_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v38) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S2000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v39) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v50) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S2000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg2) S2000x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v51_0) S2000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v51_1) S2000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v51_2) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v62) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51_0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S2000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v63) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v74) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v26) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v8) S2000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v27) S128x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v18) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v75) S2000x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩
abbrev S50000x64 : Shape := ⟨2, ![50000, 64]⟩
abbrev S1x64 : Shape := ⟨2, ![1, 64]⟩

abbrev nBuf : Space → Nat
  | .hbm => 178
  | .vmem => 0
  | .smem => 0
  | _ => 0

abbrev hbmTy0_0 (i : Nat) : BufTy := match i % 128 with
  | 0 => ⟨S50000x128, .f32⟩
  | 1 => ⟨S2x800000, .i32⟩
  | 2 => ⟨S50000x128, .f32⟩
  | 3 => ⟨S128x256, .f32⟩
  | 4 => ⟨S256, .f32⟩
  | 5 => ⟨S128x256, .f32⟩
  | 6 => ⟨S256x256, .f32⟩
  | 7 => ⟨S256, .f32⟩
  | 8 => ⟨S256x256, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S128x64, .f32⟩
  | 16 => ⟨S64, .f32⟩
  | 17 => ⟨S1x800000, .i32⟩
  | 18 => ⟨S800000, .i32⟩
  | 19 => ⟨S1x800000, .i32⟩
  | 20 => ⟨S800000, .i32⟩
  | 21 => ⟨S_, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S_, .f32⟩
  | 41 => ⟨S800000, .f32⟩
  | 42 => ⟨S_, .f32⟩
  | 43 => ⟨S50000, .f32⟩
  | 44 => ⟨S800000x1, .i32⟩
  | 45 => ⟨S50000, .f32⟩
  | 46 => ⟨S_, .f32⟩
  | 47 => ⟨S50000, .f32⟩
  | 48 => ⟨S50000, .f32⟩
  | 49 => ⟨S50000x1, .f32⟩
  | 50 => ⟨S50000x128, .f32⟩
  | 51 => ⟨S50000x128, .f32⟩
  | 52 => ⟨S50000x256, .f32⟩
  | 53 => ⟨S1x256, .f32⟩
  | 54 => ⟨S50000x256, .f32⟩
  | 55 => ⟨S50000x256, .f32⟩
  | 56 => ⟨S50000x256, .f32⟩
  | 57 => ⟨S50000x256, .f32⟩
  | 58 => ⟨S50000x256, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x256, .f32⟩
  | 68 => ⟨S_, .f32⟩
  | 69 => ⟨S50000x256, .f32⟩
  | 70 => ⟨S800000x1, .i32⟩
  | 71 => ⟨S50000x256, .f32⟩
  | 72 => ⟨S_, .f32⟩
  | 73 => ⟨S800000, .f32⟩
  | 74 => ⟨S_, .f32⟩
  | 75 => ⟨S50000, .f32⟩
  | 76 => ⟨S800000x1, .i32⟩
  | 77 => ⟨S50000, .f32⟩
  | 78 => ⟨S_, .f32⟩
  | 79 => ⟨S50000, .f32⟩
  | 80 => ⟨S50000, .f32⟩
  | 81 => ⟨S50000x1, .f32⟩
  | 82 => ⟨S50000x256, .f32⟩
  | 83 => ⟨S50000x256, .f32⟩
  | 84 => ⟨S50000x256, .f32⟩
  | 85 => ⟨S1x256, .f32⟩
  | 86 => ⟨S50000x256, .f32⟩
  | 87 => ⟨S50000x256, .f32⟩
  | 88 => ⟨S50000x256, .f32⟩
  | 89 => ⟨S50000x256, .f32⟩
  | 90 => ⟨S50000x128, .f32⟩
  | 91 => ⟨S50000x128, .f32⟩
  | 92 => ⟨S50000x128, .f32⟩
  | 93 => ⟨S50000x128, .f32⟩
  | 94 => ⟨S50000x128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S_, .f32⟩
  | 109 => ⟨S800000, .f32⟩
  | 110 => ⟨S_, .f32⟩
  | 111 => ⟨S50000, .f32⟩
  | 112 => ⟨S800000x1, .i32⟩
  | 113 => ⟨S50000, .f32⟩
  | 114 => ⟨S_, .f32⟩
  | 115 => ⟨S50000, .f32⟩
  | 116 => ⟨S50000, .f32⟩
  | 117 => ⟨S50000x1, .f32⟩
  | 118 => ⟨S50000x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S_, .f32⟩
  | 11 => ⟨S50000x128, .f32⟩
  | 12 => ⟨S800000x1, .i32⟩
  | 13 => ⟨S50000x128, .f32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000x1, .f32⟩
  | 24 => ⟨S50000x128, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S50000x128, .f32⟩
  | 31 => ⟨S50000x128, .f32⟩
  | 32 => ⟨S_, .f32⟩
  | 33 => ⟨S50000x128, .f32⟩
  | 34 => ⟨S50000x128, .f32⟩
  | 35 => ⟨S50000x64, .f32⟩
  | 36 => ⟨S1x64, .f32⟩
  | 37 => ⟨S50000x64, .f32⟩
  | 38 => ⟨S50000x64, .f32⟩
  | 39 => ⟨S50000x64, .f32⟩
  | 40 => ⟨S50000x64, .f32⟩
  | 41 => ⟨S_, .f32⟩
  | 42 => ⟨S50000x64, .f32⟩
  | 43 => ⟨S50000x64, .f32⟩
  | 44 => ⟨S_, .f32⟩
  | 45 => ⟨S50000x64, .f32⟩
  | 46 => ⟨S50000x64, .f32⟩
  | 47 => ⟨S_, .f32⟩
  | 48 => ⟨S50000x64, .f32⟩
  | 49 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_c : Ref sig .tc := ⟨.hbm, 27, rfl⟩
abbrev main_v8 : Ref sig .tc := ⟨.hbm, 28, rfl⟩
abbrev main_v9 : Ref sig .tc := ⟨.hbm, 29, rfl⟩
abbrev main_c_1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_cst_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_6 : Ref sig .tc := ⟨.hbm, 59, rfl⟩
abbrev main_v34 : Ref sig .tc := ⟨.hbm, 60, rfl⟩
abbrev main_v35 : Ref sig .tc := ⟨.hbm, 61, rfl⟩
abbrev main_c_7 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_9 : Ref sig .tc := ⟨.hbm, 72, rfl⟩
abbrev main_v44 : Ref sig .tc := ⟨.hbm, 73, rfl⟩
abbrev main_cst_10 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_11 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_12 : Ref sig .tc := ⟨.hbm, 95, rfl⟩
abbrev main_v64 : Ref sig .tc := ⟨.hbm, 96, rfl⟩
abbrev main_v65 : Ref sig .tc := ⟨.hbm, 97, rfl⟩
abbrev main_c_13 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_15 : Ref sig .tc := ⟨.hbm, 108, rfl⟩
abbrev main_v74 : Ref sig .tc := ⟨.hbm, 109, rfl⟩
abbrev main_cst_16 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_17 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_call0_cst : Ref sig .tc := ⟨.hbm, 126, rfl⟩
abbrev main_call0_v0 : Ref sig .tc := ⟨.hbm, 127, rfl⟩
abbrev main_v89 : Ref sig .tc := ⟨.hbm, 128, rfl⟩
abbrev main_c_18 : Ref sig .tc := ⟨.hbm, 129, rfl⟩
abbrev main_v90 : Ref sig .tc := ⟨.hbm, 130, rfl⟩
abbrev main_v91 : Ref sig .tc := ⟨.hbm, 131, rfl⟩
abbrev main_c_19 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_20 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_21 : Ref sig .tc := ⟨.hbm, 142, rfl⟩
abbrev main_v100 : Ref sig .tc := ⟨.hbm, 143, rfl⟩
abbrev main_cst_22 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_23 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_call1_cst : Ref sig .tc := ⟨.hbm, 160, rfl⟩
abbrev main_call1_v0 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_24 : Ref sig .tc := ⟨.hbm, 169, rfl⟩
abbrev main_v122 : Ref sig .tc := ⟨.hbm, 170, rfl⟩
abbrev main_v123 : Ref sig .tc := ⟨.hbm, 171, rfl⟩
abbrev main_cst_25 : Ref sig .tc := ⟨.hbm, 172, rfl⟩
abbrev main_v124 : Ref sig .tc := ⟨.hbm, 173, rfl⟩
abbrev main_v125 : Ref sig .tc := ⟨.hbm, 174, rfl⟩
abbrev main_cst_26 : Ref sig .tc := ⟨.hbm, 175, rfl⟩
abbrev main_v126 : Ref sig .tc := ⟨.hbm, 176, rfl⟩
abbrev main_v127 : Ref sig .tc := ⟨.hbm, 177, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  slices_S50000x256_S50000x128_0_0 : S50000x256.Slices ![0, 0] S50000x128
  slices_S50000x256_S50000x128_0_128 : S50000x256.Slices ![0, 128] S50000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel's run with its three results named.

  Every weakly fair execution of the program ends with every unscoped buffer at the last boundary's contents: the
  launch memory carried through four stretches of host operations and four regions, each region's arrays replaced by
  what its write-backs leave. The three results are read at those contents; the arguments end as launched.
-/
import proofs.«121309_j7937099563262_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, and ends with the three results at the last boundary's contents and the arguments as launched. -/
theorem run_W8 : θ_run defs (onTc (τ := τ) (main (F := F))) ⟨m, fun _ => 0, ρ⟩ (fun r => ∀ c : Dev nD,
      r.2.mem ((c.tc : Thread nD τ).loc main_v75) = W8 m ρ c (Proc.devRef .tc main_v75)
      ∧ r.2.mem ((c.tc : Thread nD τ).loc main_v51_1) = W8 m ρ c (Proc.devRef .tc main_v51_1)
      ∧ r.2.mem ((c.tc : Thread nD τ).loc main_v51_2) = W8 m ρ c (Proc.devRef .tc main_v51_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v75 (by decide)),
       h c _ (mem_uc main_v51_1 (by decide)),
       h c _ (mem_uc main_v51_2 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c)⟩)

end Cert.KernelIdeal.Run

end
-- ==== Proof.SageSpec.lean ====
/-
  The four graph layers as functions of whole arrays, entry by entry, on the extended reals.

  One layer takes the neighbour sums agg (a row per node), the node features h, the count cnt of incoming edges per
  node, two weight matrices and a bias, and gives at node r and output column q

      sum over k of (agg[r,k] / max(cnt[r], 1)) * Wl[k,q]   +   bl[q]   +   sum over k of h[r,k] * Wr[k,q] ,

  the mean of the neighbours' features projected by Wl, plus the bias, plus the node's own features projected by Wr,
  added in this order. The first layer applies the sine to it; the second splits its 256 columns into a mean (the
  first 128) and a log-variance (the last 128) and draws z = mean + exp(log-variance) * noise; the third clamps it
  below at zero; the fourth clamps it at zero, projects it once more by a 128 x 64 matrix with a bias, applies the
  logistic function 1 / (1 + exp(-x)) and scales by 1000. Nothing here is specific to how either program tiles or
  orders its work: both are shown equal to these functions.
-/
import Idealize.ShloMosaic.PureOps.Ideal.Laws
import Idealize.ShloMosaic.Lib.ValueIdx

noncomputable section

open scoped BigOperators

namespace Cert.Sage

open Idealize.ShloMosaic Idealize.ShloMosaic.ValueIdx

/-- An a x b array of extended reals, indexed as the printed programs index theirs. -/
abbrev Arr2 (a b : ℕ) : Type := (⟨2, ![a, b]⟩ : Shape).Idx → EReal

/-- The single-precision patterns of 1, 0 and 1000, read as extended reals. -/
abbrev one32 : EReal := Ideal.ofBits .f32 0x3F800000#32
abbrev zero32 : EReal := Ideal.ofBits .f32 0x00000000#32
abbrev thousand32 : EReal := Ideal.ofBits .f32 0x447A0000#32

/-- Entry (r, q) of one layer before its activation: the neighbours' mean projected, plus the bias, plus the node's own
    features projected. -/
def linAt {n d e : ℕ} (agg h : Arr2 n d) (Wl Wr : Arr2 d e) (bl : Fin e → EReal) (cnt : Fin n → EReal)
    (r : Fin n) (q : Fin e) : EReal :=
  (∑ k : Fin d, Ideal.div (agg (ix2 r k)) (max (cnt r) one32) * Wl (ix2 k q)) + bl q
    + ∑ k : Fin d, h (ix2 r k) * Wr (ix2 k q)

/-- The first layer: the sine of the layer's entries. -/
def sinLayer {n d e : ℕ} (agg h : Arr2 n d) (Wl Wr : Arr2 d e) (bl : Fin e → EReal) (cnt : Fin n → EReal) : Arr2 n e :=
  fun i => Ideal.sin (linAt agg h Wl Wr bl cnt (i 0) (i 1))

/-- The third layer: the layer's entries clamped below at zero. -/
def reluLayer {n d e : ℕ} (agg h : Arr2 n d) (Wl Wr : Arr2 d e) (bl : Fin e → EReal) (cnt : Fin n → EReal) : Arr2 n e :=
  fun i => max (linAt agg h Wl Wr bl cnt (i 0) (i 1)) zero32

/-- Column j of the first half of 256 columns, and of the second half. -/
abbrev lo128 (j : Fin 128) : Fin 256 := ⟨j.val, by have := j.isLt; omega⟩
abbrev hi128 (j : Fin 128) : Fin 256 := ⟨128 + j.val, by have := j.isLt; omega⟩

/-- The second layer's mean: the first 128 columns of the layer. -/
def meanPart {n d : ℕ} (agg h : Arr2 n d) (Wl Wr : Arr2 d 256) (bl : Fin 256 → EReal) (cnt : Fin n → EReal) : Arr2 n 128 :=
  fun i => linAt agg h Wl Wr bl cnt (i 0) (lo128 (i 1))

/-- The second layer's log-variance: the last 128 columns of the layer. -/
def logvarPart {n d : ℕ} (agg h : Arr2 n d) (Wl Wr : Arr2 d 256) (bl : Fin 256 → EReal) (cnt : Fin n → EReal) : Arr2 n 128 :=
  fun i => linAt agg h Wl Wr bl cnt (i 0) (hi128 (i 1))

/-- The draw: mean + exp(log-variance) * noise. -/
def drawPart {n d : ℕ} (agg h : Arr2 n d) (Wl Wr : Arr2 d 256) (bl : Fin 256 → EReal) (cnt : Fin n → EReal)
    (noise : Arr2 n 128) : Arr2 n 128 :=
  fun i => meanPart agg h Wl Wr bl cnt i + Ideal.exp (logvarPart agg h Wl Wr bl cnt i) * noise i

/-- The fourth layer: clamp at zero, project by a 128 x 64 matrix with a bias, logistic, times 1000. -/
def finalLayer {n : ℕ} (agg h : Arr2 n 128) (Wl Wr : Arr2 128 128) (bl : Fin 128 → EReal) (cnt : Fin n → EReal)
    (Wlin : Arr2 128 64) (blin : Fin 64 → EReal) : Arr2 n 64 :=
  fun i => Ideal.div one32 (one32 + Ideal.exp (-((∑ k : Fin 128, max (linAt agg h Wl Wr bl cnt (i 0) k) zero32 * Wlin (ix2 k (i 1))) + blin (i 1)))) * thousand32

/-! ## The same layers with the bias given as a row [1, e] and the count as a column [n, 1]

The tiled program hands each region its bias as a one-row array and the edge count as a one-column array; these are
the layers above with the bias read off that row and the count off that column. -/

def sinLayerK {n d e : ℕ} (A0 A1 : Arr2 n d) (A2 : Arr2 d e) (A3 : Arr2 1 e) (A4 : Arr2 d e) (A5 : Arr2 n 1) : Arr2 n e :=
  sinLayer A0 A1 A2 A4 (fun j => A3 (ix2 (0 : Fin 1) j)) (fun r => A5 (ix2 r (0 : Fin 1)))

def reluLayerK {n d e : ℕ} (A0 A1 : Arr2 n d) (A2 : Arr2 d e) (A3 : Arr2 1 e) (A4 : Arr2 d e) (A5 : Arr2 n 1) : Arr2 n e :=
  reluLayer A0 A1 A2 A4 (fun j => A3 (ix2 (0 : Fin 1) j)) (fun r => A5 (ix2 r (0 : Fin 1)))

def meanPartK {n d : ℕ} (A0 A1 : Arr2 n d) (A2 : Arr2 d 256) (A3 : Arr2 1 256) (A4 : Arr2 d 256) (A5 : Arr2 n 1) : Arr2 n 128 :=
  meanPart A0 A1 A2 A4 (fun j => A3 (ix2 (0 : Fin 1) j)) (fun r => A5 (ix2 r (0 : Fin 1)))

def logvarPartK {n d : ℕ} (A0 A1 : Arr2 n d) (A2 : Arr2 d 256) (A3 : Arr2 1 256) (A4 : Arr2 d 256) (A5 : Arr2 n 1) : Arr2 n 128 :=
  logvarPart A0 A1 A2 A4 (fun j => A3 (ix2 (0 : Fin 1) j)) (fun r => A5 (ix2 r (0 : Fin 1)))

def drawPartK {n d : ℕ} (A0 A1 : Arr2 n d) (A2 : Arr2 d 256) (A3 : Arr2 1 256) (A4 : Arr2 d 256) (A5 : Arr2 n 1)
    (A6 : Arr2 n 128) : Arr2 n 128 :=
  drawPart A0 A1 A2 A4 (fun j => A3 (ix2 (0 : Fin 1) j)) (fun r => A5 (ix2 r (0 : Fin 1))) A6

def finalLayerK {n : ℕ} (A0 A1 : Arr2 n 128) (A2 : Arr2 128 128) (A3 : Arr2 1 128) (A4 : Arr2 128 128) (A5 : Arr2 n 1)
    (A6 : Arr2 128 64) (A7 : Arr2 1 64) : Arr2 n 64 :=
  finalLayer A0 A1 A2 A4 (fun j => A3 (ix2 (0 : Fin 1) j)) (fun r => A5 (ix2 r (0 : Fin 1))) A6 (fun j => A7 (ix2 (0 : Fin 1) j))

end Cert.Sage

end
-- ==== Proof.KChain.lean ====
/-
  The tiled program's values as functions of its arguments.

  Between the regions the program works on whole arrays: it scales and shifts the input features, counts the incoming
  edges of every node once, and before each region sums, for every node, the feature rows of its incoming edges'
  sources (a gather of rows by the source numbers, negative numbers wrapped by 50000, then a scatter-add by the target
  numbers). Each region then applies one layer (SageSpec) to these sums, the features, the edge counts and its
  weights. This file names each of those arrays as a function of the seventeen arguments, in the program's own
  operations; nothing is proved here.
-/
import proofs.«121309_j7937099563262_2_alg».proof.Proof.Gen.KernelIdeal
import proofs.«121309_j7937099563262_2_alg».proof.Proof.SageSpec

noncomputable section

namespace Cert.KernelIdeal.Chain

open Idealize.ShloMosaic Cert.KernelIdeal Cert.KernelIdeal.Gen Cert.Sage

/-- The edge list [2, 800000] and a vector of 800000 node numbers. -/
abbrev Edges : Type := (⟨S2x800000, .i32⟩ : BufTy).Contents (Elt Ideal)
abbrev NodeVec : Type := (⟨S800000, .i32⟩ : BufTy).Contents (Elt Ideal)

/-- The edges' sources (row 0 of the edge list) and targets (row 1). -/
def srcV (e : Edges) : NodeVec :=
  shapeCast _ (extractStridedSlice S1x800000 ![0, 0] e slices_S2x800000_S1x800000_0_0) shapeCasts_S1x800000_S800000
def dstV (e : Edges) : NodeVec :=
  shapeCast _ (extractStridedSlice S1x800000 ![1, 0] e slices_S2x800000_S1x800000_1_0) shapeCasts_S1x800000_S800000

/-- The sources as a column of row numbers, a negative number wrapped by 50000. -/
def srcCol (s : NodeVec) : (⟨S800000x1, .i32⟩ : BufTy).Contents (Elt Ideal) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)
/-- The targets as a column. -/
def dstCol (d : NodeVec) : (⟨S800000x1, .i32⟩ : BufTy).Contents (Elt Ideal) :=
  broadcastInDim S800000x1 ![0] bcast_S800000_S800000x1_0 d

/-- For every node, the sum of the 128-wide feature rows of its incoming edges' sources. -/
def agg128 (h : FVec Ideal S50000x128 .bf16) (s d : NodeVec) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32)) (dstCol d)
    (extf .f32 (Host.gather gather_S50000x128_S800000x1_S800000x128_1_0_n_n_0_1_1128 h (srcCol s)) bitsLt_bf16_f32)
/-- The same for 256-wide rows. -/
def agg256 (h : FVec Ideal S50000x256 .bf16) (s d : NodeVec) : FVec Ideal S50000x256 .f32 :=
  Host.scatterAdd (F := Ideal) scatter_S50000x256_S800000x1_S800000x256_1_0_0_1
    (broadcastInDim S50000x256 ![] bcast_S_S50000x256 (constant (F := Ideal) S_ .f32 0x00000000#32)) (dstCol d)
    (extf .f32 (Host.gather gather_S50000x256_S800000x1_S800000x256_1_0_n_n_0_1_1256 h (srcCol s)) bitsLt_bf16_f32)

/-- The number of incoming edges of every node, as a column. -/
def cntCol (d : NodeVec) : FVec Ideal S50000x1 .f32 :=
  shapeCast S50000x1 (Host.scatterAdd (F := Ideal) scatter_S50000_S800000x1_S800000_n_0_0_1
    (broadcastInDim S50000 ![] bcast_S_S50000 (constant (F := Ideal) S_ .f32 0x00000000#32)) (dstCol d)
    (broadcastInDim S800000 ![] bcast_S_S800000 (constant (F := Ideal) S_ .f32 0x3F800000#32))) shapeCasts_S50000_S50000x1

/-- The input features divided by 1000, less one half. -/
def feat0 (x0 : FVec Ideal S50000x128 .f32) : FVec Ideal S50000x128 .bf16 :=
  truncf (F := Ideal) .bf16 (subf (Host.divf x0 (broadcastInDim S50000x128 ![] bcast_S_S50000x128 (constant (F := Ideal) S_ .f32 0x447A0000#32)))
    (broadcastInDim S50000x128 ![] bcast_S_S50000x128 (constant (F := Ideal) S_ .f32 0x3F000000#32))) bitsLt_bf16_f32

variable (x0 : FVec Ideal S50000x128 .f32) (e : Edges)
  (x2 : FVec Ideal S50000x128 .f32)
  (x3 : FVec Ideal S128x256 .f32) (x4 : FVec Ideal S256 .f32)
  (x5 : FVec Ideal S128x256 .f32)
  (x6 : FVec Ideal S256x256 .f32) (x7 : FVec Ideal S256 .f32)
  (x8 : FVec Ideal S256x256 .f32)
  (x9 : FVec Ideal S128x128 .f32) (x10 : FVec Ideal S128 .f32)
  (x11 : FVec Ideal S128x128 .f32)
  (x12 : FVec Ideal S128x128 .f32) (x13 : FVec Ideal S128 .f32)
  (x14 : FVec Ideal S128x128 .f32)
  (x15 : FVec Ideal S128x64 .f32) (x16 : FVec Ideal S64 .f32)

/-- The first hidden array: the sine layer of the first neighbour sums. -/
def h1 : S50000x256.Idx → EReal :=
  sinLayerK (n := 50000) (d := 128) (e := 256) (agg128 (feat0 x0) (srcV e) (dstV e)) (feat0 x0)
    (truncf (F := Ideal) .bf16 x3 bitsLt_bf16_f32) (shapeCast S1x256 x4 shapeCasts_S256_S1x256) (truncf (F := Ideal) .bf16 x5 bitsLt_bf16_f32) (cntCol (dstV e))

/-- The second layer's three arrays: the draw, the mean, the log-variance. -/
def draw : S50000x128.Idx → EReal :=
  drawPartK (n := 50000) (d := 256) (agg256 (h1 x0 e x3 x4 x5) (srcV e) (dstV e)) (h1 x0 e x3 x4 x5)
    (truncf (F := Ideal) .bf16 x6 bitsLt_bf16_f32) (shapeCast S1x256 x7 shapeCasts_S256_S1x256) (truncf (F := Ideal) .bf16 x8 bitsLt_bf16_f32) (cntCol (dstV e)) x2
def mean : S50000x128.Idx → EReal :=
  meanPartK (n := 50000) (d := 256) (agg256 (h1 x0 e x3 x4 x5) (srcV e) (dstV e)) (h1 x0 e x3 x4 x5)
    (truncf (F := Ideal) .bf16 x6 bitsLt_bf16_f32) (shapeCast S1x256 x7 shapeCasts_S256_S1x256) (truncf (F := Ideal) .bf16 x8 bitsLt_bf16_f32) (cntCol (dstV e))
def logvar : S50000x128.Idx → EReal :=
  logvarPartK (n := 50000) (d := 256) (agg256 (h1 x0 e x3 x4 x5) (srcV e) (dstV e)) (h1 x0 e x3 x4 x5)
    (truncf (F := Ideal) .bf16 x6 bitsLt_bf16_f32) (shapeCast S1x256 x7 shapeCasts_S256_S1x256) (truncf (F := Ideal) .bf16 x8 bitsLt_bf16_f32) (cntCol (dstV e))

/-- The third hidden array: the clamped layer of the draw's neighbour sums. -/
def h3 : S50000x128.Idx → EReal :=
  reluLayerK (n := 50000) (d := 128) (e := 128) (agg128 (draw x0 e x2 x3 x4 x5 x6 x7 x8) (srcV e) (dstV e)) (draw x0 e x2 x3 x4 x5 x6 x7 x8)
    (truncf (F := Ideal) .bf16 x9 bitsLt_bf16_f32) (shapeCast S1x128 x10 shapeCasts_S128_S1x128) (truncf (F := Ideal) .bf16 x11 bitsLt_bf16_f32) (cntCol (dstV e))

/-- The output: the fourth layer with the last projection, the logistic function and the scale. -/
def out : S50000x64.Idx → EReal :=
  finalLayerK (n := 50000) (agg128 (h3 x0 e x2 x3 x4 x5 x6 x7 x8 x9 x10 x11) (srcV e) (dstV e)) (h3 x0 e x2 x3 x4 x5 x6 x7 x8 x9 x10 x11)
    (truncf (F := Ideal) .bf16 x12 bitsLt_bf16_f32) (shapeCast S1x128 x13 shapeCasts_S128_S1x128) (truncf (F := Ideal) .bf16 x14 bitsLt_bf16_f32) (cntCol (dstV e))
    (truncf (F := Ideal) .bf16 x15 bitsLt_bf16_f32) (shapeCast S1x64 x16 shapeCasts_S64_S1x64)

end Cert.KernelIdeal.Chain

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.LibColBroadcast.lean ====
/-
  A column broadcast along the second axis, and a vector read as a column, at an index given by coordinates.

  A column, an array of shape [a, 1], broadcast along the second axis to [a, b] repeats the column in every one of
  the b columns: at (r, j) it reads the column's entry r, whatever j is. A vector of a entries reshaped to a
  column [a, 1] keeps its entries in order: the column reads, at (r, u), entry r of the vector. (The companions of
  the row forms: [1, b] broadcast to [a, b], and a vector [b] read as a row [1, b].)
-/
import Idealize.ShloMosaic.Lib.Pipeline.Value
import Idealize.ShloMosaic.Lib.ValueIdx

noncomputable section

namespace Cert.ColBroadcast

open Idealize.ShloMosaic Idealize.ShloMosaic.ValueIdx

/-- A column `[a, 1]` broadcast along the second axis to `[a, b]` reads, at `(r, j)`, the column's entry `r`. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- A vector of a entries cast to a column [a, 1] reads, at (r, u), entry r: the two indices have the same
    row-major position. -/
theorem shapeCast_col_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by have := u.isLt; omega
    rw [Shape.rowMajor_val_two, Shape.rowMajor_val_one]
    show r.val = r.val * 1 + u.val
    rw [hu]; omega)

end Cert.ColBroadcast

end
-- ==== Proof.Pay0.lean ====
/-
  What the first region's body stores, read at an entry.

  The body's one store writes, at row p and column q of its 2000 x 256 block, the sine of the layer's entry computed
  from the blocks it loaded. Each product of matrices into the zero accumulator is the sum over the 128 shared
  columns; the count column and the bias row are repeated along the other axis; rounding to a narrower format changes
  nothing on the extended reals.
-/
import proofs.«121309_j7937099563262_2_alg».proof.Proof.Gen.KernelIdeal.Skeleton
import proofs.«121309_j7937099563262_2_alg».proof.Proof.SageSpec
import proofs.«121309_j7937099563262_2_alg».proof.Proof.LibDotRows
import proofs.«121309_j7937099563262_2_alg».proof.Proof.LibRowBroadcast
import proofs.«121309_j7937099563262_2_alg».proof.Proof.LibColBroadcast
import Idealize.ShloMosaic.PureOps.Ideal.Laws
import Idealize.ShloMosaic.Lib.Pipeline.Value
import Idealize.ShloMosaic.Lib.IdealHost

noncomputable section

open scoped BigOperators

namespace Cert.KernelIdeal.Pay0

open Idealize.ShloMosaic Idealize.ShloMosaic.ValueIdx Cert.KernelIdeal Cert.KernelIdeal.Gen Cert.Sage Cert.Hand

/-- A 2000 x 128 by 128 x 256 product into the zero accumulator, at (p, q): the sum over the 128 shared columns. -/
theorem mm (l : FVec Ideal S2000x128 .bf16) (r : FVec Ideal S128x256 .bf16) (p : Fin 2000) (q : Fin 256) :
    matmul dot_S2000x128_S128x256_S2000x256_1_0_0_1_n_n none l r (constant S2000x256 .f32 0x00000000#32) (ix2 p q)
      = ∑ k : Fin 128, l (ix2 p k) * r (ix2 k q) := by
  refine (Ideal.matmul_constant_zero_apply dot_S2000x128_S128x256_S2000x256_1_0_0_1_n_n none l r (ix2 p q)).trans ?_
  dot_rows dot_S2000x128_S128x256_S2000x256_1_0_0_1_n_n S2000x128 S128x256 128

/-- The layer before its activation, as the body computes it from its loaded blocks, at (p, q): the neighbour sums'
    block divided row by row by max(count, 1) and multiplied into the first weight matrix, plus the bias row repeated
    down the rows, plus the features' block multiplied into the second weight matrix. -/
theorem pre_apply (v0 : FVec Ideal S2000x1 .f32) (v4 : FVec Ideal S2000x128 .f32) (v9 : FVec Ideal S2000x128 .bf16)
    (v11 v13 : FVec Ideal S128x256 .bf16) (v16 : FVec Ideal S1x256 .f32) (p : Fin 2000) (q : Fin 256) :
    addf (addf (matmul dot_S2000x128_S128x256_S2000x256_1_0_0_1_n_n none
        (truncf .bf16 (divf v4 (broadcastTo S2000x128 (maximumf v0 (broadcast S2000x1 (Scalar.ofBits .f32 0x3F800000#32))) broadcasts_S2000x1_S2000x128)) bitsLt_bf16_f32)
        v11 (constant S2000x256 .f32 0x00000000#32)) (broadcastTo S2000x256 v16 broadcasts_S1x256_S2000x256))
      (matmul dot_S2000x128_S128x256_S2000x256_1_0_0_1_n_n none v9 v13 (constant S2000x256 .f32 0x00000000#32)) (ix2 p q)
      = linAt v4 v9 v11 v13 (fun j => v16 (ix2 (0 : Fin 1) j)) (fun r => v0 (ix2 r (0 : Fin 1))) p q := by
  unfold linAt
  show matmul dot_S2000x128_S128x256_S2000x256_1_0_0_1_n_n none _ v11 (constant S2000x256 .f32 0x00000000#32) (ix2 p q)
      + broadcastTo S2000x256 v16 broadcasts_S1x256_S2000x256 (ix2 p q)
      + matmul dot_S2000x128_S128x256_S2000x256_1_0_0_1_n_n none v9 v13 (constant S2000x256 .f32 0x00000000#32) (ix2 p q) = _
  rw [mm, mm, Cert.RowBroadcast.broadcastTo_1b_ab_apply]
  refine congrArg (· + _) (congrArg (· + _) (Finset.sum_congr rfl fun k _ => congrArg (· * _) ?_))
  show Ideal.div (v4 (ix2 p k)) (broadcastTo S2000x128 (maximumf v0 (broadcast S2000x1 (Scalar.ofBits .f32 0x3F800000#32))) broadcasts_S2000x1_S2000x128 (ix2 p k)) = _
  rw [Cert.ColBroadcast.broadcastTo_a1_ab_apply]
  rfl

/-- The first region's stored value at (p, q): the sine of the layer's entry of the loaded blocks. -/
theorem pay_apply (v0 : FVec Ideal S2000x1 .f32) (v4 : FVec Ideal S2000x128 .f32) (v9 : FVec Ideal S2000x128 .bf16)
    (v11 v13 : FVec Ideal S128x256 .bf16) (v16 : FVec Ideal S1x256 .f32) (p : Fin 2000) (q : Fin 256) :
    k0_pay1 (F := Ideal) v0 v4 v9 v11 v13 v16 (ix2 p q) = Ideal.sin (linAt v4 v9 v11 v13 (fun j => v16 (ix2 (0 : Fin 1) j)) (fun r => v0 (ix2 r (0 : Fin 1))) p q) := by
  unfold k0_pay1
  simp only [shapeCast_self]
  exact congrArg Ideal.sin (pre_apply v0 v4 v9 v11 v13 v16 p q)

end Cert.KernelIdeal.Pay0

end
-- ==== Proof.Val0.lean ====
/-
  The first region's result array as one function of the arrays the region reads.

  The region walks 25 grid points; point t loads rows 2000 t .. 2000 t + 1999 of the neighbour sums, of the node
  features and of the count column, and the whole of the two weight matrices and of the bias row, and writes back rows
  2000 t .. 2000 t + 1999 of the result. What it writes at row p of its block depends only on row 2000 t + p of the
  row-blocked arrays, so each written block is the block of one whole-array function (the sine layer); the 25 blocks
  tile the 50000 rows, so the array ends holding that function.
-/
import proofs.«121309_j7937099563262_2_alg».proof.Proof.Gen.KernelIdeal.Frame
import proofs.«121309_j7937099563262_2_alg».proof.Proof.Pay0
import Idealize.ShloMosaic.Lib.Pipeline.Value

set_option maxRecDepth 16384

noncomputable section

open scoped BigOperators

namespace Cert.KernelIdeal.Val0

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- Window 0's block index at point t, decided over the grid. -/
theorem idx0 : ∀ t : Fin cfg0.N, win0_0.index t (0 : Fin 2) = t.val ∧ win0_0.index t (1 : Fin 2) = 0 :=
  (by decide +kernel : ∀ t : Fin grid0.N, _)
/-- Window 1's block index at point t, decided over the grid. -/
theorem idx1 : ∀ t : Fin cfg0.N, win0_1.index t (0 : Fin 2) = t.val ∧ win0_1.index t (1 : Fin 2) = 0 :=
  (by decide +kernel : ∀ t : Fin grid0.N, _)
/-- Window 2's block index at point t, decided over the grid. -/
theorem idx2 : ∀ t : Fin cfg0.N, win0_2.index t (0 : Fin 2) = 0 ∧ win0_2.index t (1 : Fin 2) = 0 :=
  (by decide +kernel : ∀ t : Fin grid0.N, _)
/-- Window 3's block index at point t, decided over the grid. -/
theorem idx3 : ∀ t : Fin cfg0.N, win0_3.index t (0 : Fin 2) = 0 ∧ win0_3.index t (1 : Fin 2) = 0 :=
  (by decide +kernel : ∀ t : Fin grid0.N, _)
/-- Window 4's block index at point t, decided over the grid. -/
theorem idx4 : ∀ t : Fin cfg0.N, win0_4.index t (0 : Fin 2) = 0 ∧ win0_4.index t (1 : Fin 2) = 0 :=
  (by decide +kernel : ∀ t : Fin grid0.N, _)
/-- Window 5's block index at point t, decided over the grid. -/
theorem idx5 : ∀ t : Fin cfg0.N, win0_5.index t (0 : Fin 2) = t.val ∧ win0_5.index t (1 : Fin 2) = 0 :=
  (by decide +kernel : ∀ t : Fin grid0.N, _)
/-- Window 6's block index at point t, decided over the grid. -/
theorem idx6 : ∀ t : Fin cfg0.N, win0_6.index t (0 : Fin 2) = t.val ∧ win0_6.index t (1 : Fin 2) = 0 :=
  (by decide +kernel : ∀ t : Fin grid0.N, _)

/-- Row p of window 0's block at point t is row 2000 t + p of its array. -/
theorem blk0 (c : Dev nD) (t : Fin cfg0.N) (p : Fin 2000) (k : Fin 128) (r : Fin 50000) (hr : r.val = t.val * 2000 + p.val) :
    (iblk0 V c 0 t : S2000x128.Idx → EReal) (ix2 p k) = (V c main_v38 : S50000x128.Idx → EReal) (ix2 r k) := by
  obtain ⟨e0, e1⟩ := idx0 t
  unfold iblk0
  rw [View.read_apply]
  show (V c main_v38 : S50000x128.Idx → EReal) _ = _
  refine congrArg _ (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- Row p of window 1's block at point t is row 2000 t + p of its array. -/
theorem blk1 (c : Dev nD) (t : Fin cfg0.N) (p : Fin 2000) (k : Fin 128) (r : Fin 50000) (hr : r.val = t.val * 2000 + p.val) :
    (iblk0 V c 1 t : S2000x128.Idx → EReal) (ix2 p k) = (V c main_v13 : S50000x128.Idx → EReal) (ix2 r k) := by
  obtain ⟨e0, e1⟩ := idx1 t
  unfold iblk0
  rw [View.read_apply]
  show (V c main_v13 : S50000x128.Idx → EReal) _ = _
  refine congrArg _ (funext fun a => Fin.ext ?_)
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

/-- Window 2's block at every point is its whole array. -/
theorem blk2 (c : Dev nD) (t : Fin cfg0.N) (a : Fin 128) (b : Fin 256) :
    (iblk0 V c 2 t : S128x256.Idx → EReal) (ix2 a b) = (V c main_v19 : S128x256.Idx → EReal) (ix2 a b) := by
  obtain ⟨e0, e1⟩ := idx2 t
  unfold iblk0
  rw [View.read_apply]
  show (V c main_v19 : S128x256.Idx → EReal) _ = _
  refine congrArg _ (funext fun ax => Fin.ext ?_)
  match ax with
  | ⟨0, _⟩ => show win0_2.index t (0 : Fin 2) * 128 + 1 * a.val = a.val; rw [e0]; omega
  | ⟨1, _⟩ => show win0_2.index t (1 : Fin 2) * 256 + 1 * b.val = b.val; rw [e1]; omega

/-- Window 3's block at every point is its whole array. -/
theorem blk3 (c : Dev nD) (t : Fin cfg0.N) (a : Fin 1) (b : Fin 256) :
    (iblk0 V c 3 t : S1x256.Idx → EReal) (ix2 a b) = (V c main_v14 : S1x256.Idx → EReal) (ix2 a b) := by
  obtain ⟨e0, e1⟩ := idx3 t
  unfold iblk0
  rw [View.read_apply]
  show (V c main_v14 : S1x256.Idx → EReal) _ = _
  refine congrArg _ (funext fun ax => Fin.ext ?_)
  match ax with
  | ⟨0, _⟩ => show win0_3.index t (0 : Fin 2) * 1 + 1 * a.val = a.val; rw [e0]; omega
  | ⟨1, _⟩ => show win0_3.index t (1 : Fin 2) * 256 + 1 * b.val = b.val; rw [e1]; omega

/-- Window 4's block at every point is its whole array. -/
theorem blk4 (c : Dev nD) (t : Fin cfg0.N) (a : Fin 128) (b : Fin 256) :
    (iblk0 V c 4 t : S128x256.Idx → EReal) (ix2 a b) = (V c main_v20 : S128x256.Idx → EReal) (ix2 a b) := by
  obtain ⟨e0, e1⟩ := idx4 t
  unfold iblk0
  rw [View.read_apply]
  show (V c main_v20 : S128x256.Idx → EReal) _ = _
  refine congrArg _ (funext fun ax => Fin.ext ?_)
  match ax with
  | ⟨0, _⟩ => show win0_4.index t (0 : Fin 2) * 128 + 1 * a.val = a.val; rw [e0]; omega
  | ⟨1, _⟩ => show win0_4.index t (1 : Fin 2) * 256 + 1 * b.val = b.val; rw [e1]; omega

/-- Row p of window 5's block at point t is row 2000 t + p of its array. -/
theorem blk5 (c : Dev nD) (t : Fin cfg0.N) (p : Fin 2000) (k : Fin 1) (r : Fin 50000) (hr : r.val = t.val * 2000 + p.val) :
    (iblk0 V c 5 t : S2000x1.Idx → EReal) (ix2 p k) = (V c main_v8 : S50000x1.Idx → EReal) (ix2 r k) := by
  obtain ⟨e0, e1⟩ := idx5 t
  unfold iblk0
  rw [View.read_apply]
  show (V c main_v8 : S50000x1.Idx → EReal) _ = _
  refine congrArg _ (funext fun a => Fin.ext ?_)
  match a with
  | ⟨0, _⟩ => show win0_5.index t (0 : Fin 2) * 2000 + 1 * p.val = r.val; rw [e0, hr]; omega
  | ⟨1, _⟩ => show win0_5.index t (1 : Fin 2) * 1 + 1 * k.val = k.val; rw [e1]; omega

/-- The layer's entry computed from point t's blocks at row p is the layer's entry of the whole arrays at row 2000 t + p. -/
theorem lin_blk (c : Dev nD) (t : Fin cfg0.N) (p : Fin 2000) (r : Fin 50000) (hr : r.val = t.val * 2000 + p.val) (q : Fin 256) :
    linAt (iblk0 V c 0 t : S2000x128.Idx → EReal) (iblk0 V c 1 t : S2000x128.Idx → EReal) (iblk0 V c 2 t : S128x256.Idx → EReal) (iblk0 V c 4 t : S128x256.Idx → EReal) (fun j => (iblk0 V c 3 t : S1x256.Idx → EReal) (ix2 (0 : Fin 1) j)) (fun r => (iblk0 V c 5 t : S2000x1.Idx → EReal) (ix2 r (0 : Fin 1))) p q
      = linAt (V c main_v38 : S50000x128.Idx → EReal) (V c main_v13 : S50000x128.Idx → EReal) (V c main_v19 : S128x256.Idx → EReal) (V c main_v20 : S128x256.Idx → EReal) (fun j => (V c main_v14 : S1x256.Idx → EReal) (ix2 (0 : Fin 1) j)) (fun r => (V c main_v8 : S50000x1.Idx → EReal) (ix2 r (0 : Fin 1))) r q := by
  unfold linAt
  dsimp only
  refine congrArg₂ (· + ·) (congrArg₂ (· + ·) (Finset.sum_congr rfl fun k _ => ?_) ?_) (Finset.sum_congr rfl fun k _ => ?_)
  · rw [blk0 V c t p k r hr, blk5 V c t p 0 r hr, blk2 V c t k q]
  · exact blk3 V c t 0 q
  · rw [blk1 V c t p k r hr, blk4 V c t k q]

/-- What point t writes back through window 6 is block t of one whole-array function of the arrays as the region finds them. -/
theorem flushed_eq (c : Dev nD) (t : Fin cfg0.N) (_hf : (cfg0.win 6).flush t = true) :
    (dat0 V c).flushed 6 t = ((cfg0.win 6).blk t).view.read (Elt Ideal)
      (sinLayerK (V c main_v38 : S50000x128.Idx → EReal) (V c main_v13 : S50000x128.Idx → EReal) (V c main_v19 : S128x256.Idx → EReal) (V c main_v14 : S1x256.Idx → EReal) (V c main_v20 : S128x256.Idx → EReal) (V c main_v8 : S50000x1.Idx → EReal) : S50000x256.Idx → EReal) := by
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz, View.ld_unit_zero (S := S128x256) hz, View.ld_unit_zero (S := S1x256) hz, View.ld_unit_zero (S := S2000x256) hz]
  funext j
  obtain ⟨p, q, rfl⟩ : ∃ (p : Fin 2000) (q : Fin 256), j = ix2 p q :=
    ⟨⟨(j 0).val, (j 0).isLt⟩, ⟨(j 1).val, (j 1).isLt⟩, funext fun a => by match a with | ⟨0, _⟩ => rfl | ⟨1, _⟩ => rfl⟩
  obtain ⟨e0, e1⟩ := idx6 t
  have hN : t.val < 25 := lt_of_lt_of_eq t.isLt (show cfg0.N = 25 from N_0)
  have hp : p.val < 2000 := p.isLt
  let r : Fin 50000 := ⟨t.val * 2000 + p.val, by omega⟩
  have hr : r.val = t.val * 2000 + p.val := rfl
  rw [View.read_apply]
  have he : ((cfg0.win 6).blk t).view.emb (ix2 p q) = (ix2 r q : S50000x256.Idx) := funext fun a => Fin.ext (by
    match a with
    | ⟨0, _⟩ => show win0_6.index t (0 : Fin 2) * 2000 + 1 * p.val = t.val * 2000 + p.val; rw [e0]; omega
    | ⟨1, _⟩ => show win0_6.index t (1 : Fin 2) * 256 + 1 * q.val = q.val; rw [e1]; omega)
  rw [he]
  refine (Cert.KernelIdeal.Pay0.pay_apply (iblk0 V c 5 t) (iblk0 V c 0 t) (iblk0 V c 1 t) (iblk0 V c 2 t) (iblk0 V c 4 t) (iblk0 V c 3 t) p q).trans ?_
  rw [lin_blk V c t p r hr q]
  rfl

/-- An index of window 6's array is in point t's block iff each coordinate is in the block's range on its axis. -/
theorem mem_blk (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v39).slice (win0_6.rect t)).set ↔ _
  rw [View.set_slice_whole, Rect.mem_set_unit]
  exact Iff.rfl

/-- Every row of window 6's array lies in the block of the point numbered row / 2000. -/
theorem cover (i : S50000x256.Idx) : ∃ t : Fin cfg0.N, (cfg0.win 6).flush t = true ∧ i ∈ ((cfg0.win 6).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  have ht : t.val = (i 0).val / 2000 := rfl
  obtain ⟨e0, e1⟩ := idx6 t
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; rw [e0, ht]; omega
  | ⟨1, _⟩ => show win0_6.index t (1 : Fin 2) * 256 ≤ (i 1).val ∧ (i 1).val < win0_6.index t (1 : Fin 2) * 256 + 256; rw [e1]; omega

/-- Window 6's array after the region. -/
theorem final (c : Dev nD) : (dat0 V c).arrAt 6 cfg0.N
    = (sinLayerK (V c main_v38 : S50000x128.Idx → EReal) (V c main_v13 : S50000x128.Idx → EReal) (V c main_v19 : S128x256.Idx → EReal) (V c main_v14 : S1x256.Idx → EReal) (V c main_v20 : S128x256.Idx → EReal) (V c main_v8 : S50000x1.Idx → EReal) : S50000x256.Idx → EReal) :=
  (dat0 V c).arrAt_eq_of_cover 6 _ (flushed_eq V c) cover

end Cert.KernelIdeal.Val0

end
-- ==== Proof.Pay1.lean ====
/-
  What the second region's body stores, read at an entry.

  The body computes the layer's 2000 x 256 block once and stores three things: its first 128 columns (the mean), its
  last 128 columns (the log-variance), and the draw mean + exp(log-variance) * noise. A slice of columns reads the
  block at the column moved by the slice's offset.
-/
import proofs.«121309_j7937099563262_2_alg».proof.Proof.Gen.KernelIdeal.Skeleton
import proofs.«121309_j7937099563262_2_alg».proof.Proof.SageSpec
import proofs.«121309_j7937099563262_2_alg».proof.Proof.LibDotRows
import proofs.«121309_j7937099563262_2_alg».proof.Proof.LibRowBroadcast
import proofs.«121309_j7937099563262_2_alg».proof.Proof.LibColBroadcast
import Idealize.ShloMosaic.PureOps.Ideal.Laws
import Idealize.ShloMosaic.Lib.Pipeline.Value
import Idealize.ShloMosaic.Lib.IdealHost

noncomputable section

open scoped BigOperators

namespace Cert.KernelIdeal.Pay1

open Idealize.ShloMosaic Idealize.ShloMosaic.ValueIdx Cert.KernelIdeal Cert.KernelIdeal.Gen Cert.Sage Cert.Hand

/-- A 2000 x 256 by 256 x 256 product into the zero accumulator, at (p, q): the sum over the 256 shared columns. -/
theorem mm (l : FVec Ideal S2000x256 .bf16) (r : FVec Ideal S256x256 .bf16) (p : Fin 2000) (q : Fin 256) :
    matmul dot_S2000x256_S256x256_S2000x256_1_0_0_1_n_n none l r (constant S2000x256 .f32 0x00000000#32) (ix2 p q)
      = ∑ k : Fin 256, l (ix2 p k) * r (ix2 k q) := by
  refine (Ideal.matmul_constant_zero_apply dot_S2000x256_S256x256_S2000x256_1_0_0_1_n_n none l r (ix2 p q)).trans ?_
  dot_rows dot_S2000x256_S256x256_S2000x256_1_0_0_1_n_n S2000x256 S256x256 256

/-- The layer before its activation, as the body computes it from its loaded blocks, at (p, q): the neighbour sums'
    block divided row by row by max(count, 1) and multiplied into the first weight matrix, plus the bias row repeated
    down the rows, plus the features' block multiplied into the second weight matrix. -/
theorem pre_apply (v0 : FVec Ideal S2000x1 .f32) (v4 : FVec Ideal S2000x256 .f32) (v9 : FVec Ideal S2000x256 .bf16)
    (v11 v13 : FVec Ideal S256x256 .bf16) (v16 : FVec Ideal S1x256 .f32) (p : Fin 2000) (q : Fin 256) :
    addf (addf (matmul dot_S2000x256_S256x256_S2000x256_1_0_0_1_n_n none
        (truncf .bf16 (divf v4 (broadcastTo S2000x256 (maximumf v0 (broadcast S2000x1 (Scalar.ofBits .f32 0x3F800000#32))) broadcasts_S2000x1_S2000x256)) bitsLt_bf16_f32)
        v11 (constant S2000x256 .f32 0x00000000#32)) (broadcastTo S2000x256 v16 broadcasts_S1x256_S2000x256))
      (matmul dot_S2000x256_S256x256_S2000x256_1_0_0_1_n_n none v9 v13 (constant S2000x256 .f32 0x00000000#32)) (ix2 p q)
      = linAt v4 v9 v11 v13 (fun j => v16 (ix2 (0 : Fin 1) j)) (fun r => v0 (ix2 r (0 : Fin 1))) p q := by
  unfold linAt
  show matmul dot_S2000x256_S256x256_S2000x256_1_0_0_1_n_n none _ v11 (constant S2000x256 .f32 0x00000000#32) (ix2 p q)
      + broadcastTo S2000x256 v16 broadcasts_S1x256_S2000x256 (ix2 p q)
      + matmul dot_S2000x256_S256x256_S2000x256_1_0_0_1_n_n none v9 v13 (constant S2000x256 .f32 0x00000000#32) (ix2 p q) = _
  rw [mm, mm, Cert.RowBroadcast.broadcastTo_1b_ab_apply]
  refine congrArg (· + _) (congrArg (· + _) (Finset.sum_congr rfl fun k _ => congrArg (· * _) ?_))
  show Ideal.div (v4 (ix2 p k)) (broadcastTo S2000x256 (maximumf v0 (broadcast S2000x1 (Scalar.ofBits .f32 0x3F800000#32))) broadcasts_S2000x1_S2000x256 (ix2 p k)) = _
  rw [Cert.ColBroadcast.broadcastTo_a1_ab_apply]
  rfl

/-- The layer's block before the split, at (p, q). -/
theorem pay1_apply (v0 : FVec Ideal S2000x1 .f32) (v4 : FVec Ideal S2000x256 .f32) (v9 : FVec Ideal S2000x256 .bf16)
    (v11 v13 : FVec Ideal S256x256 .bf16) (v16 : FVec Ideal S1x256 .f32) (p : Fin 2000) (q : Fin 256) :
    k1_pay1 (F := Ideal) v0 v4 v9 v11 v13 v16 (ix2 p q) = linAt v4 v9 v11 v13 (fun j => v16 (ix2 (0 : Fin 1) j)) (fun r => v0 (ix2 r (0 : Fin 1))) p q := by
  unfold k1_pay1
  simp only [shapeCast_self]
  exact pre_apply v0 v4 v9 v11 v13 v16 p q

/-- The first 128 of 256 columns of a block, at (p, j): the block at column j. -/
theorem slice_lo (y : FVec Ideal S2000x256 .f32) (p : Fin 2000) (j : Fin 128) :
    extractStridedSlice S2000x128 ![0, 0] y slices_S2000x256_o0_0_S2000x128 (ix2 p j) = y (ix2 p (lo128 j)) :=
  extractStridedSlice_apply ![0, 0] y slices_S2000x256_o0_0_S2000x128 (ix2 p j) (ix2 p (lo128 j)) (fun a => match a with
    | ⟨0, _⟩ => by show p.val = 0 + p.val; omega
    | ⟨1, _⟩ => by show j.val = 0 + j.val; omega)

/-- The last 128 of 256 columns of a block, at (p, j): the block at column 128 + j. -/
theorem slice_hi (y : FVec Ideal S2000x256 .f32) (p : Fin 2000) (j : Fin 128) :
    extractStridedSlice S2000x128 ![0, 128] y slices_S2000x256_o0_128_S2000x128 (ix2 p j) = y (ix2 p (hi128 j)) :=
  extractStridedSlice_apply ![0, 128] y slices_S2000x256_o0_128_S2000x128 (ix2 p j) (ix2 p (hi128 j)) (fun a => match a with
    | ⟨0, _⟩ => by show p.val = 0 + p.val; omega
    | ⟨1, _⟩ => by show 128 + j.val = 128 + j.val; rfl)

/-- The stored mean at (p, j): the layer's entry at column j. -/
theorem pay2_apply (v0 : FVec Ideal S2000x1 .f32) (v4 : FVec Ideal S2000x256 .f32) (v9 : FVec Ideal S2000x256 .bf16)
    (v11 v13 : FVec Ideal S256x256 .bf16) (v16 : FVec Ideal S1x256 .f32) (p : Fin 2000) (j : Fin 128) :
    k1_pay2 (F := Ideal) v0 v4 v9 v11 v13 v16 (ix2 p j) = linAt v4 v9 v11 v13 (fun j => v16 (ix2 (0 : Fin 1) j)) (fun r => v0 (ix2 r (0 : Fin 1))) p (lo128 j) := by
  unfold k1_pay2
  show extractStridedSlice S2000x128 ![0, 0] (k1_pay1 (F := Ideal) v0 v4 v9 v11 v13 v16) slices_S2000x256_o0_0_S2000x128 (ix2 p j) = _
  rw [slice_lo, pay1_apply]

/-- The stored log-variance at (p, j): the layer's entry at column 128 + j. -/
theorem pay3_apply (v0 : FVec Ideal S2000x1 .f32) (v4 : FVec Ideal S2000x256 .f32) (v9 : FVec Ideal S2000x256 .bf16)
    (v11 v13 : FVec Ideal S256x256 .bf16) (v16 : FVec Ideal S1x256 .f32) (p : Fin 2000) (j : Fin 128) :
    k1_pay3 (F := Ideal) v0 v4 v9 v11 v13 v16 (ix2 p j) = linAt v4 v9 v11 v13 (fun j => v16 (ix2 (0 : Fin 1) j)) (fun r => v0 (ix2 r (0 : Fin 1))) p (hi128 j) := by
  unfold k1_pay3
  show extractStridedSlice S2000x128 ![0, 128] (k1_pay1 (F := Ideal) v0 v4 v9 v11 v13 v16) slices_S2000x256_o0_128_S2000x128 (ix2 p j) = _
  rw [slice_hi, pay1_apply]

/-- The stored draw at (p, j): mean + exp(log-variance) * noise. -/
theorem pay4_apply (v0 : FVec Ideal S2000x1 .f32) (v4 : FVec Ideal S2000x256 .f32) (v9 : FVec Ideal S2000x256 .bf16)
    (v11 v13 : FVec Ideal S256x256 .bf16) (v16 : FVec Ideal S1x256 .f32) (v25 : FVec Ideal S2000x128 .f32) (p : Fin 2000) (j : Fin 128) :
    k1_pay4 (F := Ideal) v0 v4 v9 v11 v13 v16 v25 (ix2 p j)
      = linAt v4 v9 v11 v13 (fun j => v16 (ix2 (0 : Fin 1) j)) (fun r => v0 (ix2 r (0 : Fin 1))) p (lo128 j) + Ideal.exp (linAt v4 v9 v11 v13 (fun j => v16 (ix2 (0 : Fin 1) j)) (fun r => v0 (ix2 r (0 : Fin 1))) p (hi128 j)) * v25 (ix2 p j) := by
  unfold k1_pay4
  show k1_pay2 (F := Ideal) v0 v4 v9 v11 v13 v16 (ix2 p j) + Ideal.exp (k1_pay3 (F := Ideal) v0 v4 v9 v11 v13 v16 (ix2 p j)) * v25 (ix2 p j) = _
  rw [pay2_apply, pay3_apply]

end Cert.KernelIdeal.Pay1

end
-- ==== Proof.Val1.lean ====
/-
  The second region's three result arrays as functions of the arrays the region reads.

  As in the first region, point t of 25 works on rows 2000 t .. 2000 t + 1999: it loads those rows of the neighbour
  sums, of the features, of the count column and of the noise, and the whole weight matrices and bias row, and writes
  back those rows of the draw, of the mean and of the log-variance. Each written block is the block of one whole-array
  function and the blocks tile the rows.
-/
import proofs.«121309_j7937099563262_2_alg».proof.Proof.Gen.KernelIdeal.Frame
import proofs.«121309_j7937099563262_2_alg».proof.Proof.Pay1
import Idealize.ShloMosaic.Lib.Pipeline.Value

set_option maxRecDepth 16384

noncomputable section

open scoped BigOperators

namespace Cert.KernelIdeal.Val1

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- Window 0's block index at point t, decided over the grid. -/
theorem idx0 : ∀ t : Fin cfg1.N, win1_0.index t (0 : Fin 2) = t.val ∧ win1_0.index t (1 : Fin 2) = 0 :=
  (by decide +kernel : ∀ t : Fin grid1.N, _)
/-- Window 1's block index at point t, decided over the grid. -/
theorem idx1 : ∀ t : Fin cfg1.N, win1_1.index t (0 : Fin 2) = t.val ∧ win1_1.index t (1 : Fin 2) = 0 :=
  (by decide +kernel : ∀ t : Fin grid1.N, _)
/-- Window 2's block index at point t, decided over the grid. -/
theorem idx2 : ∀ t : Fin cfg1.N, win1_2.index t (0 : Fin 2) = 0 ∧ win1_2.index t (1 : Fin 2) = 0 :=
  (by decide +kernel : ∀ t : Fin grid1.N, _)
/-- Window 3's block index at point t, decided over the grid. -/
theorem idx3 : ∀ t : Fin cfg1.N, win1_3.index t (0 : Fin 2) = 0 ∧ win1_3.index t (1 : Fin 2) = 0 :=
  (by decide +kernel : ∀ t : Fin grid1.N, _)
/-- Window 4's block index at point t, decided over the grid. -/
theorem idx4 : ∀ t : Fin cfg1.N, win1_4.index t (0 : Fin 2) = 0 ∧ win1_4.index t (1 : Fin 2) = 0 :=
  (by decide +kernel : ∀ t : Fin grid1.N, _)
/-- Window 5's block index at point t, decided over the grid. -/
theorem idx5 : ∀ t : Fin cfg1.N, win1_5.index t (0 : Fin 2) = t.val ∧ win1_5.index t (1 : Fin 2) = 0 :=
  (by decide +kernel : ∀ t : Fin grid1.N, _)
/-- Window 6's block index at point t, decided over the grid. -/
theorem idx6 : ∀ t : Fin cfg1.N, win1_6.index t (0 : Fin 2) = t.val ∧ win1_6.index t (1 : Fin 2) = 0 :=
  (by decide +kernel : ∀ t : Fin grid1.N, _)
/-- Window 7's block index at point t, decided over the grid. -/
theorem idx7 : ∀ t : Fin cfg1.N, win1_7.index t (0 : Fin 2) = t.val ∧ win1_7.index t (1 : Fin 2) = 0 :=
  (by decide +kernel : ∀ t : Fin grid1.N, _)
/-- Window 8's block index at point t, decided over the grid. -/
theorem idx8 : ∀ t : Fin cfg1.N, win1_8.index t (0 : Fin 2) = t.val ∧ win1_8.index t (1 : Fin 2) = 0 :=
  (by decide +kernel : ∀ t : Fin grid1.N, _)
/-- Window 9's block index at point t, decided over the grid. -/
theorem idx9 : ∀ t : Fin cfg1.N, win1_9.index t (0 : Fin 2) = t.val ∧ win1_9.index t (1 : Fin 2) = 0 :=
  (by decide +kernel : ∀ t : Fin grid1.N, _)

/-- Row p of window 0's block at point t is row 2000 t + p of its array. -/
theorem blk0 (c : Dev nD) (t : Fin cfg1.N) (p : Fin 2000) (k : Fin 256) (r : Fin 50000) (hr : r.val = t.val * 2000 + p.val) :
    (iblk1 V c 0 t : S2000x256.Idx → EReal) (ix2 p k) = (V c main_v50 : S50000x256.Idx → EReal) (ix2 r k) := by
  obtain ⟨e0, e1⟩ := idx0 t
  unfold iblk1
  rw [View.read_apply]
  show (V c main_v50 : S50000x256.Idx → EReal) _ = _
  refine congrArg _ (funext fun a => Fin.ext ?_)
  match a with
  | ⟨0, _⟩ => show win1_0.index t (0 : Fin 2) * 2000 + 1 * p.val = r.val; rw [e0, hr]; omega
  | ⟨1, _⟩ => show win1_0.index t (1 : Fin 2) * 256 + 1 * k.val = k.val; rw [e1]; omega

/-- Row p of window 1's block at point t is row 2000 t + p of its array. -/
theorem blk1 (c : Dev nD) (t : Fin cfg1.N) (p : Fin 2000) (k : Fin 256) (r : Fin 50000) (hr : r.val = t.val * 2000 + p.val) :
    (iblk1 V c 1 t : S2000x256.Idx → EReal) (ix2 p k) = (V c main_v39 : S50000x256.Idx → EReal) (ix2 r k) := by
  obtain ⟨e0, e1⟩ := idx1 t
  unfold iblk1
  rw [View.read_apply]
  show (V c main_v39 : S50000x256.Idx → EReal) _ = _
  refine congrArg _ (funext fun a => Fin.ext ?_)
  match a with
  | ⟨0, _⟩ => show win1_1.index t (0 : Fin 2) * 2000 + 1 * p.val = r.val; rw [e0, hr]; omega
  | ⟨1, _⟩ => show win1_1.index t (1 : Fin 2) * 256 + 1 * k.val = k.val; rw [e1]; omega

/-- Window 2's block at every point is its whole array. -/
theorem blk2 (c : Dev nD) (t : Fin cfg1.N) (a : Fin 256) (b : Fin 256) :
    (iblk1 V c 2 t : S256x256.Idx → EReal) (ix2 a b) = (V c main_v21 : S256x256.Idx → EReal) (ix2 a b) := by
  obtain ⟨e0, e1⟩ := idx2 t
  unfold iblk1
  rw [View.read_apply]
  show (V c main_v21 : S256x256.Idx → EReal) _ = _
  refine congrArg _ (funext fun ax => Fin.ext ?_)
  match ax with
  | ⟨0, _⟩ => show win1_2.index t (0 : Fin 2) * 256 + 1 * a.val = a.val; rw [e0]; omega
  | ⟨1, _⟩ => show win1_2.index t (1 : Fin 2) * 256 + 1 * b.val = b.val; rw [e1]; omega

/-- Window 3's block at every point is its whole array. -/
theorem blk3 (c : Dev nD) (t : Fin cfg1.N) (a : Fin 1) (b : Fin 256) :
    (iblk1 V c 3 t : S1x256.Idx → EReal) (ix2 a b) = (V c main_v15 : S1x256.Idx → EReal) (ix2 a b) := by
  obtain ⟨e0, e1⟩ := idx3 t
  unfold iblk1
  rw [View.read_apply]
  show (V c main_v15 : S1x256.Idx → EReal) _ = _
  refine congrArg _ (funext fun ax => Fin.ext ?_)
  match ax with
  | ⟨0, _⟩ => show win1_3.index t (0 : Fin 2) * 1 + 1 * a.val = a.val; rw [e0]; omega
  | ⟨1, _⟩ => show win1_3.index t (1 : Fin 2) * 256 + 1 * b.val = b.val; rw [e1]; omega

/-- Window 4's block at every point is its whole array. -/
theorem blk4 (c : Dev nD) (t : Fin cfg1.N) (a : Fin 256) (b : Fin 256) :
    (iblk1 V c 4 t : S256x256.Idx → EReal) (ix2 a b) = (V c main_v22 : S256x256.Idx → EReal) (ix2 a b) := by
  obtain ⟨e0, e1⟩ := idx4 t
  unfold iblk1
  rw [View.read_apply]
  show (V c main_v22 : S256x256.Idx → EReal) _ = _
  refine congrArg _ (funext fun ax => Fin.ext ?_)
  match ax with
  | ⟨0, _⟩ => show win1_4.index t (0 : Fin 2) * 256 + 1 * a.val = a.val; rw [e0]; omega
  | ⟨1, _⟩ => show win1_4.index t (1 : Fin 2) * 256 + 1 * b.val = b.val; rw [e1]; omega

/-- Row p of window 5's block at point t is row 2000 t + p of its array. -/
theorem blk5 (c : Dev nD) (t : Fin cfg1.N) (p : Fin 2000) (k : Fin 1) (r : Fin 50000) (hr : r.val = t.val * 2000 + p.val) :
    (iblk1 V c 5 t : S2000x1.Idx → EReal) (ix2 p k) = (V c main_v8 : S50000x1.Idx → EReal) (ix2 r k) := by
  obtain ⟨e0, e1⟩ := idx5 t
  unfold iblk1
  rw [View.read_apply]
  show (V c main_v8 : S50000x1.Idx → EReal) _ = _
  refine congrArg _ (funext fun a => Fin.ext ?_)
  match a with
  | ⟨0, _⟩ => show win1_5.index t (0 : Fin 2) * 2000 + 1 * p.val = r.val; rw [e0, hr]; omega
  | ⟨1, _⟩ => show win1_5.index t (1 : Fin 2) * 1 + 1 * k.val = k.val; rw [e1]; omega

/-- Row p of window 6's block at point t is row 2000 t + p of its array. -/
theorem blk6 (c : Dev nD) (t : Fin cfg1.N) (p : Fin 2000) (k : Fin 128) (r : Fin 50000) (hr : r.val = t.val * 2000 + p.val) :
    (iblk1 V c 6 t : S2000x128.Idx → EReal) (ix2 p k) = (V c main_arg2 : S50000x128.Idx → EReal) (ix2 r k) := by
  obtain ⟨e0, e1⟩ := idx6 t
  unfold iblk1
  rw [View.read_apply]
  show (V c main_arg2 : S50000x128.Idx → EReal) _ = _
  refine congrArg _ (funext fun a => Fin.ext ?_)
  match a with
  | ⟨0, _⟩ => show win1_6.index t (0 : Fin 2) * 2000 + 1 * p.val = r.val; rw [e0, hr]; omega
  | ⟨1, _⟩ => show win1_6.index t (1 : Fin 2) * 128 + 1 * k.val = k.val; rw [e1]; omega

/-- The layer's entry computed from point t's blocks at row p is the layer's entry of the whole arrays at row 2000 t + p. -/
theorem lin_blk (c : Dev nD) (t : Fin cfg1.N) (p : Fin 2000) (r : Fin 50000) (hr : r.val = t.val * 2000 + p.val) (q : Fin 256) :
    linAt (iblk1 V c 0 t : S2000x256.Idx → EReal) (iblk1 V c 1 t : S2000x256.Idx → EReal) (iblk1 V c 2 t : S256x256.Idx → EReal) (iblk1 V c 4 t : S256x256.Idx → EReal) (fun j => (iblk1 V c 3 t : S1x256.Idx → EReal) (ix2 (0 : Fin 1) j)) (fun r => (iblk1 V c 5 t : S2000x1.Idx → EReal) (ix2 r (0 : Fin 1))) p q
      = linAt (V c main_v50 : S50000x256.Idx → EReal) (V c main_v39 : S50000x256.Idx → EReal) (V c main_v21 : S256x256.Idx → EReal) (V c main_v22 : S256x256.Idx → EReal) (fun j => (V c main_v15 : S1x256.Idx → EReal) (ix2 (0 : Fin 1) j)) (fun r => (V c main_v8 : S50000x1.Idx → EReal) (ix2 r (0 : Fin 1))) r q := by
  unfold linAt
  dsimp only
  refine congrArg₂ (· + ·) (congrArg₂ (· + ·) (Finset.sum_congr rfl fun k _ => ?_) ?_) (Finset.sum_congr rfl fun k _ => ?_)
  · rw [blk0 V c t p k r hr, blk5 V c t p 0 r hr, blk2 V c t k q]
  · exact blk3 V c t 0 q
  · rw [blk1 V c t p k r hr, blk4 V c t k q]

/-- What point t writes back through window 7 is block t of one whole-array function of the arrays as the region finds them. -/
theorem flushed_eq7 (c : Dev nD) (t : Fin cfg1.N) (_hf : (cfg1.win 7).flush t = true) :
    (dat1 V c).flushed 7 t = ((cfg1.win 7).blk t).view.read (Elt Ideal)
      (drawPartK (V c main_v50 : S50000x256.Idx → EReal) (V c main_v39 : S50000x256.Idx → EReal) (V c main_v21 : S256x256.Idx → EReal) (V c main_v15 : S1x256.Idx → EReal) (V c main_v22 : S256x256.Idx → EReal) (V c main_v8 : S50000x1.Idx → EReal) (V c main_arg2 : S50000x128.Idx → EReal) : S50000x128.Idx → EReal) := by
  show (cfg1.win 7).cut (grid1.coords t) ((dat1 V c).after 7 t) = _
  rw [after1_7]
  unfold out1_7
  rw [View.canon_unit_zero hz]
  simp only [View.ld_unit_zero (S := S2000x256) hz, View.ld_unit_zero (S := S2000x1) hz, View.ld_unit_zero (S := S256x256) hz, View.ld_unit_zero (S := S1x256) hz, View.ld_unit_zero (S := S2000x128) hz]
  funext j
  obtain ⟨p, q, rfl⟩ : ∃ (p : Fin 2000) (q : Fin 128), j = ix2 p q :=
    ⟨⟨(j 0).val, (j 0).isLt⟩, ⟨(j 1).val, (j 1).isLt⟩, funext fun a => by match a with | ⟨0, _⟩ => rfl | ⟨1, _⟩ => rfl⟩
  obtain ⟨e0, e1⟩ := idx7 t
  have hN : t.val < 25 := lt_of_lt_of_eq t.isLt (show cfg1.N = 25 from N_1)
  have hp : p.val < 2000 := p.isLt
  let r : Fin 50000 := ⟨t.val * 2000 + p.val, by omega⟩
  have hr : r.val = t.val * 2000 + p.val := rfl
  rw [View.read_apply]
  have he : ((cfg1.win 7).blk t).view.emb (ix2 p q) = (ix2 r q : S50000x128.Idx) := funext fun a => Fin.ext (by
    match a with
    | ⟨0, _⟩ => show win1_7.index t (0 : Fin 2) * 2000 + 1 * p.val = t.val * 2000 + p.val; rw [e0]; omega
    | ⟨1, _⟩ => show win1_7.index t (1 : Fin 2) * 128 + 1 * q.val = q.val; rw [e1]; omega)
  rw [he]
  refine (Cert.KernelIdeal.Pay1.pay4_apply (iblk1 V c 5 t) (iblk1 V c 0 t) (iblk1 V c 1 t) (iblk1 V c 2 t) (iblk1 V c 4 t) (iblk1 V c 3 t) (iblk1 V c 6 t) p q).trans ?_
  rw [lin_blk V c t p r hr (lo128 q), lin_blk V c t p r hr (hi128 q), blk6 V c t p q r hr]
  rfl

/-- An index of window 7's array is in point t's block iff each coordinate is in the block's range on its axis. -/
theorem mem_blk7 (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v51_0).slice (win1_7.rect t)).set ↔ _
  rw [View.set_slice_whole, Rect.mem_set_unit]
  exact Iff.rfl

/-- Every row of window 7's array lies in the block of the point numbered row / 2000. -/
theorem cover7 (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  have ht : t.val = (i 0).val / 2000 := rfl
  obtain ⟨e0, e1⟩ := idx7 t
  refine ⟨t, flush1_7 t, ?_⟩
  rw [mem_blk7]
  intro a
  match a with
  | ⟨0, _⟩ => show win1_7.index t (0 : Fin 2) * 2000 ≤ (i 0).val ∧ (i 0).val < win1_7.index t (0 : Fin 2) * 2000 + 2000; rw [e0, ht]; omega
  | ⟨1, _⟩ => show win1_7.index t (1 : Fin 2) * 128 ≤ (i 1).val ∧ (i 1).val < win1_7.index t (1 : Fin 2) * 128 + 128; rw [e1]; omega

/-- Window 7's array after the region. -/
theorem final7 (c : Dev nD) : (dat1 V c).arrAt 7 cfg1.N
    = (drawPartK (V c main_v50 : S50000x256.Idx → EReal) (V c main_v39 : S50000x256.Idx → EReal) (V c main_v21 : S256x256.Idx → EReal) (V c main_v15 : S1x256.Idx → EReal) (V c main_v22 : S256x256.Idx → EReal) (V c main_v8 : S50000x1.Idx → EReal) (V c main_arg2 : S50000x128.Idx → EReal) : S50000x128.Idx → EReal) :=
  (dat1 V c).arrAt_eq_of_cover 7 _ (flushed_eq7 V c) cover7

/-- What point t writes back through window 8 is block t of one whole-array function of the arrays as the region finds them. -/
theorem flushed_eq8 (c : Dev nD) (t : Fin cfg1.N) (_hf : (cfg1.win 8).flush t = true) :
    (dat1 V c).flushed 8 t = ((cfg1.win 8).blk t).view.read (Elt Ideal)
      (meanPartK (V c main_v50 : S50000x256.Idx → EReal) (V c main_v39 : S50000x256.Idx → EReal) (V c main_v21 : S256x256.Idx → EReal) (V c main_v15 : S1x256.Idx → EReal) (V c main_v22 : S256x256.Idx → EReal) (V c main_v8 : S50000x1.Idx → EReal) : S50000x128.Idx → EReal) := by
  show (cfg1.win 8).cut (grid1.coords t) ((dat1 V c).after 8 t) = _
  rw [after1_8]
  unfold out1_8
  rw [View.canon_unit_zero hz]
  simp only [View.ld_unit_zero (S := S2000x256) hz, View.ld_unit_zero (S := S2000x1) hz, View.ld_unit_zero (S := S256x256) hz, View.ld_unit_zero (S := S1x256) hz, View.ld_unit_zero (S := S2000x128) hz]
  funext j
  obtain ⟨p, q, rfl⟩ : ∃ (p : Fin 2000) (q : Fin 128), j = ix2 p q :=
    ⟨⟨(j 0).val, (j 0).isLt⟩, ⟨(j 1).val, (j 1).isLt⟩, funext fun a => by match a with | ⟨0, _⟩ => rfl | ⟨1, _⟩ => rfl⟩
  obtain ⟨e0, e1⟩ := idx8 t
  have hN : t.val < 25 := lt_of_lt_of_eq t.isLt (show cfg1.N = 25 from N_1)
  have hp : p.val < 2000 := p.isLt
  let r : Fin 50000 := ⟨t.val * 2000 + p.val, by omega⟩
  have hr : r.val = t.val * 2000 + p.val := rfl
  rw [View.read_apply]
  have he : ((cfg1.win 8).blk t).view.emb (ix2 p q) = (ix2 r q : S50000x128.Idx) := funext fun a => Fin.ext (by
    match a with
    | ⟨0, _⟩ => show win1_8.index t (0 : Fin 2) * 2000 + 1 * p.val = t.val * 2000 + p.val; rw [e0]; omega
    | ⟨1, _⟩ => show win1_8.index t (1 : Fin 2) * 128 + 1 * q.val = q.val; rw [e1]; omega)
  rw [he]
  refine (Cert.KernelIdeal.Pay1.pay2_apply (iblk1 V c 5 t) (iblk1 V c 0 t) (iblk1 V c 1 t) (iblk1 V c 2 t) (iblk1 V c 4 t) (iblk1 V c 3 t) p q).trans ?_
  rw [lin_blk V c t p r hr (lo128 q)]
  rfl

/-- An index of window 8's array is in point t's block iff each coordinate is in the block's range on its axis. -/
theorem mem_blk8 (t : Fin cfg1.N) (i : S50000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v51_1).slice (win1_8.rect t)).set ↔ _
  rw [View.set_slice_whole, Rect.mem_set_unit]
  exact Iff.rfl

/-- Every row of window 8's array lies in the block of the point numbered row / 2000. -/
theorem cover8 (i : S50000x128.Idx) : ∃ t : Fin cfg1.N, (cfg1.win 8).flush t = true ∧ i ∈ ((cfg1.win 8).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  have ht : t.val = (i 0).val / 2000 := rfl
  obtain ⟨e0, e1⟩ := idx8 t
  refine ⟨t, flush1_8 t, ?_⟩
  rw [mem_blk8]
  intro a
  match a with
  | ⟨0, _⟩ => show win1_8.index t (0 : Fin 2) * 2000 ≤ (i 0).val ∧ (i 0).val < win1_8.index t (0 : Fin 2) * 2000 + 2000; rw [e0, ht]; omega
  | ⟨1, _⟩ => show win1_8.index t (1 : Fin 2) * 128 ≤ (i 1).val ∧ (i 1).val < win1_8.index t (1 : Fin 2) * 128 + 128; rw [e1]; omega

/-- Window 8's array after the region. -/
theorem final8 (c : Dev nD) : (dat1 V c).arrAt 8 cfg1.N
    = (meanPartK (V c main_v50 : S50000x256.Idx → EReal) (V c main_v39 : S50000x256.Idx → EReal) (V c main_v21 : S256x256.Idx → EReal) (V c main_v15 : S1x256.Idx → EReal) (V c main_v22 : S256x256.Idx → EReal) (V c main_v8 : S50000x1.Idx → EReal) : S50000x128.Idx → EReal) :=
  (dat1 V c).arrAt_eq_of_cover 8 _ (flushed_eq8 V c) cover8

/-- What point t writes back through window 9 is block t of one whole-array function of the arrays as the region finds them. -/
theorem flushed_eq9 (c : Dev nD) (t : Fin cfg1.N) (_hf : (cfg1.win 9).flush t = true) :
    (dat1 V c).flushed 9 t = ((cfg1.win 9).blk t).view.read (Elt Ideal)
      (logvarPartK (V c main_v50 : S50000x256.Idx → EReal) (V c main_v39 : S50000x256.Idx → EReal) (V c main_v21 : S256x256.Idx → EReal) (V c main_v15 : S1x256.Idx → EReal) (V c main_v22 : S256x256.Idx → EReal) (V c main_v8 : S50000x1.Idx → EReal) : S50000x128.Idx → EReal) := by
  show (cfg1.win 9).cut (grid1.coords t) ((dat1 V c).after 9 t) = _
  rw [after1_9]
  unfold out1_9
  rw [View.canon_unit_zero hz]
  simp only [View.ld_unit_zero (S := S2000x256) hz, View.ld_unit_zero (S := S2000x1) hz, View.ld_unit_zero (S := S256x256) hz, View.ld_unit_zero (S := S1x256) hz, View.ld_unit_zero (S := S2000x128) hz]
  funext j
  obtain ⟨p, q, rfl⟩ : ∃ (p : Fin 2000) (q : Fin 128), j = ix2 p q :=
    ⟨⟨(j 0).val, (j 0).isLt⟩, ⟨(j 1).val, (j 1).isLt⟩, funext fun a => by match a with | ⟨0, _⟩ => rfl | ⟨1, _⟩ => rfl⟩
  obtain ⟨e0, e1⟩ := idx9 t
  have hN : t.val < 25 := lt_of_lt_of_eq t.isLt (show cfg1.N = 25 from N_1)
  have hp : p.val < 2000 := p.isLt
  let r : Fin 50000 := ⟨t.val * 2000 + p.val, by omega⟩
  have hr : r.val = t.val * 2000 + p.val := rfl
  rw [View.read_apply]
  have he : ((cfg1.win 9).blk t).view.emb (ix2 p q) = (ix2 r q : S50000x128.Idx) := funext fun a => Fin.ext (by
    match a with
    | ⟨0, _⟩ => show win1_9.index t (0 : Fin 2) * 2000 + 1 * p.val = t.val * 2000 + p.val; rw [e0]; omega
    | ⟨1, _⟩ => show win1_9.index t (1 : Fin 2) * 128 + 1 * q.val = q.val; rw [e1]; omega)
  rw [he]
  refine (Cert.KernelIdeal.Pay1.pay3_apply (iblk1 V c 5 t) (iblk1 V c 0 t) (iblk1 V c 1 t) (iblk1 V c 2 t) (iblk1 V c 4 t) (iblk1 V c 3 t) p q).trans ?_
  rw [lin_blk V c t p r hr (hi128 q)]
  rfl

/-- An index of window 9's array is in point t's block iff each coordinate is in the block's range on its axis. -/
theorem mem_blk9 (t : Fin cfg1.N) (i : S50000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v51_2).slice (win1_9.rect t)).set ↔ _
  rw [View.set_slice_whole, Rect.mem_set_unit]
  exact Iff.rfl

/-- Every row of window 9's array lies in the block of the point numbered row / 2000. -/
theorem cover9 (i : S50000x128.Idx) : ∃ t : Fin cfg1.N, (cfg1.win 9).flush t = true ∧ i ∈ ((cfg1.win 9).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  have ht : t.val = (i 0).val / 2000 := rfl
  obtain ⟨e0, e1⟩ := idx9 t
  refine ⟨t, flush1_9 t, ?_⟩
  rw [mem_blk9]
  intro a
  match a with
  | ⟨0, _⟩ => show win1_9.index t (0 : Fin 2) * 2000 ≤ (i 0).val ∧ (i 0).val < win1_9.index t (0 : Fin 2) * 2000 + 2000; rw [e0, ht]; omega
  | ⟨1, _⟩ => show win1_9.index t (1 : Fin 2) * 128 ≤ (i 1).val ∧ (i 1).val < win1_9.index t (1 : Fin 2) * 128 + 128; rw [e1]; omega

/-- Window 9's array after the region. -/
theorem final9 (c : Dev nD) : (dat1 V c).arrAt 9 cfg1.N
    = (logvarPartK (V c main_v50 : S50000x256.Idx → EReal) (V c main_v39 : S50000x256.Idx → EReal) (V c main_v21 : S256x256.Idx → EReal) (V c main_v15 : S1x256.Idx → EReal) (V c main_v22 : S256x256.Idx → EReal) (V c main_v8 : S50000x1.Idx → EReal) : S50000x128.Idx → EReal) :=
  (dat1 V c).arrAt_eq_of_cover 9 _ (flushed_eq9 V c) cover9

end Cert.KernelIdeal.Val1

end
-- ==== Proof.Pay2.lean ====
/-
  What the third region's body stores, read at an entry.

  The body's one store writes, at row p and column q of its 2000 x 128 block, the layer's entry clamped below at
  zero.
-/
import proofs.«121309_j7937099563262_2_alg».proof.Proof.Gen.KernelIdeal.Skeleton
import proofs.«121309_j7937099563262_2_alg».proof.Proof.SageSpec
import proofs.«121309_j7937099563262_2_alg».proof.Proof.LibDotRows
import proofs.«121309_j7937099563262_2_alg».proof.Proof.LibRowBroadcast
import proofs.«121309_j7937099563262_2_alg».proof.Proof.LibColBroadcast
import Idealize.ShloMosaic.PureOps.Ideal.Laws
import Idealize.ShloMosaic.Lib.Pipeline.Value
import Idealize.ShloMosaic.Lib.IdealHost

noncomputable section

open scoped BigOperators

namespace Cert.KernelIdeal.Pay2

open Idealize.ShloMosaic Idealize.ShloMosaic.ValueIdx Cert.KernelIdeal Cert.KernelIdeal.Gen Cert.Sage Cert.Hand

/-- A 2000 x 128 by 128 x 128 product into the zero accumulator, at (p, q): the sum over the 128 shared columns. -/
theorem mm (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  dot_rows dot_S2000x128_S128x128_S2000x128_1_0_0_1_n_n S2000x128 S128x128 128

/-- The layer before its activation, as the body computes it from its loaded blocks, at (p, q): the neighbour sums'
    block divided row by row by max(count, 1) and multiplied into the first weight matrix, plus the bias row repeated
    down the rows, plus the features' block multiplied into the second weight matrix. -/
theorem pre_apply (v0 : FVec Ideal S2000x1 .f32) (v4 : FVec Ideal S2000x128 .f32) (v9 : FVec Ideal S2000x128 .bf16)
    (v11 v13 : FVec Ideal S128x128 .bf16) (v16 : FVec Ideal S1x128 .f32) (p : Fin 2000) (q : Fin 128) :
    addf (addf (matmul dot_S2000x128_S128x128_S2000x128_1_0_0_1_n_n none
        (truncf .bf16 (divf v4 (broadcastTo S2000x128 (maximumf v0 (broadcast S2000x1 (Scalar.ofBits .f32 0x3F800000#32))) broadcasts_S2000x1_S2000x128)) bitsLt_bf16_f32)
        v11 (constant S2000x128 .f32 0x00000000#32)) (broadcastTo S2000x128 v16 broadcasts_S1x128_S2000x128))
      (matmul dot_S2000x128_S128x128_S2000x128_1_0_0_1_n_n none v9 v13 (constant S2000x128 .f32 0x00000000#32)) (ix2 p q)
      = linAt v4 v9 v11 v13 (fun j => v16 (ix2 (0 : Fin 1) j)) (fun r => v0 (ix2 r (0 : Fin 1))) p q := by
  unfold linAt
  show matmul dot_S2000x128_S128x128_S2000x128_1_0_0_1_n_n none _ v11 (constant S2000x128 .f32 0x00000000#32) (ix2 p q)
      + broadcastTo S2000x128 v16 broadcasts_S1x128_S2000x128 (ix2 p q)
      + matmul dot_S2000x128_S128x128_S2000x128_1_0_0_1_n_n none v9 v13 (constant S2000x128 .f32 0x00000000#32) (ix2 p q) = _
  rw [mm, mm, Cert.RowBroadcast.broadcastTo_1b_ab_apply]
  refine congrArg (· + _) (congrArg (· + _) (Finset.sum_congr rfl fun k _ => congrArg (· * _) ?_))
  show Ideal.div (v4 (ix2 p k)) (broadcastTo S2000x128 (maximumf v0 (broadcast S2000x1 (Scalar.ofBits .f32 0x3F800000#32))) broadcasts_S2000x1_S2000x128 (ix2 p k)) = _
  rw [Cert.ColBroadcast.broadcastTo_a1_ab_apply]
  rfl

/-- The third region's stored value at (p, q): the layer's entry of the loaded blocks, clamped below at zero. -/
theorem pay_apply (v0 : FVec Ideal S2000x1 .f32) (v4 : FVec Ideal S2000x128 .f32) (v9 : FVec Ideal S2000x128 .bf16)
    (v11 v13 : FVec Ideal S128x128 .bf16) (v16 : FVec Ideal S1x128 .f32) (p : Fin 2000) (q : Fin 128) :
    k2_pay1 (F := Ideal) v0 v4 v9 v11 v13 v16 (ix2 p q) = max (linAt v4 v9 v11 v13 (fun j => v16 (ix2 (0 : Fin 1) j)) (fun r => v0 (ix2 r (0 : Fin 1))) p q) zero32 := by
  unfold k2_pay1
  simp only [shapeCast_self]
  exact congrArg (max · zero32) (pre_apply v0 v4 v9 v11 v13 v16 p q)

end Cert.KernelIdeal.Pay2

end
-- ==== Proof.Val2.lean ====
/-
  The third region's result array as one function of the arrays the region reads: the layer clamped below at zero,
  row block by row block, 25 blocks of 2000 rows tiling the 50000 rows.
-/
import proofs.«121309_j7937099563262_2_alg».proof.Proof.Gen.KernelIdeal.Frame
import proofs.«121309_j7937099563262_2_alg».proof.Proof.Pay2
import Idealize.ShloMosaic.Lib.Pipeline.Value

set_option maxRecDepth 16384

noncomputable section

open scoped BigOperators

namespace Cert.KernelIdeal.Val2

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- Window 0's block index at point t, decided over the grid. -/
theorem idx0 : ∀ t : Fin cfg2.N, win2_0.index t (0 : Fin 2) = t.val ∧ win2_0.index t (1 : Fin 2) = 0 :=
  (by decide +kernel : ∀ t : Fin grid2.N, _)
/-- Window 1's block index at point t, decided over the grid. -/
theorem idx1 : ∀ t : Fin cfg2.N, win2_1.index t (0 : Fin 2) = t.val ∧ win2_1.index t (1 : Fin 2) = 0 :=
  (by decide +kernel : ∀ t : Fin grid2.N, _)
/-- Window 2's block index at point t, decided over the grid. -/
theorem idx2 : ∀ t : Fin cfg2.N, win2_2.index t (0 : Fin 2) = 0 ∧ win2_2.index t (1 : Fin 2) = 0 :=
  (by decide +kernel : ∀ t : Fin grid2.N, _)
/-- Window 3's block index at point t, decided over the grid. -/
theorem idx3 : ∀ t : Fin cfg2.N, win2_3.index t (0 : Fin 2) = 0 ∧ win2_3.index t (1 : Fin 2) = 0 :=
  (by decide +kernel : ∀ t : Fin grid2.N, _)
/-- Window 4's block index at point t, decided over the grid. -/
theorem idx4 : ∀ t : Fin cfg2.N, win2_4.index t (0 : Fin 2) = 0 ∧ win2_4.index t (1 : Fin 2) = 0 :=
  (by decide +kernel : ∀ t : Fin grid2.N, _)
/-- Window 5's block index at point t, decided over the grid. -/
theorem idx5 : ∀ t : Fin cfg2.N, win2_5.index t (0 : Fin 2) = t.val ∧ win2_5.index t (1 : Fin 2) = 0 :=
  (by decide +kernel : ∀ t : Fin grid2.N, _)
/-- Window 6's block index at point t, decided over the grid. -/
theorem idx6 : ∀ t : Fin cfg2.N, win2_6.index t (0 : Fin 2) = t.val ∧ win2_6.index t (1 : Fin 2) = 0 :=
  (by decide +kernel : ∀ t : Fin grid2.N, _)

/-- Row p of window 0's block at point t is row 2000 t + p of its array. -/
theorem blk0 (c : Dev nD) (t : Fin cfg2.N) (p : Fin 2000) (k : Fin 128) (r : Fin 50000) (hr : r.val = t.val * 2000 + p.val) :
    (iblk2 V c 0 t : S2000x128.Idx → EReal) (ix2 p k) = (V c main_v62 : S50000x128.Idx → EReal) (ix2 r k) := by
  obtain ⟨e0, e1⟩ := idx0 t
  unfold iblk2
  rw [View.read_apply]
  show (V c main_v62 : S50000x128.Idx → EReal) _ = _
  refine congrArg _ (funext fun a => Fin.ext ?_)
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

/-- Row p of window 1's block at point t is row 2000 t + p of its array. -/
theorem blk1 (c : Dev nD) (t : Fin cfg2.N) (p : Fin 2000) (k : Fin 128) (r : Fin 50000) (hr : r.val = t.val * 2000 + p.val) :
    (iblk2 V c 1 t : S2000x128.Idx → EReal) (ix2 p k) = (V c main_v51_0 : S50000x128.Idx → EReal) (ix2 r k) := by
  obtain ⟨e0, e1⟩ := idx1 t
  unfold iblk2
  rw [View.read_apply]
  show (V c main_v51_0 : S50000x128.Idx → EReal) _ = _
  refine congrArg _ (funext fun a => Fin.ext ?_)
  match a with
  | ⟨0, _⟩ => show win2_1.index t (0 : Fin 2) * 2000 + 1 * p.val = r.val; rw [e0, hr]; omega
  | ⟨1, _⟩ => show win2_1.index t (1 : Fin 2) * 128 + 1 * k.val = k.val; rw [e1]; omega

/-- Window 2's block at every point is its whole array. -/
theorem blk2 (c : Dev nD) (t : Fin cfg2.N) (a : Fin 128) (b : Fin 128) :
    (iblk2 V c 2 t : S128x128.Idx → EReal) (ix2 a b) = (V c main_v23 : S128x128.Idx → EReal) (ix2 a b) := by
  obtain ⟨e0, e1⟩ := idx2 t
  unfold iblk2
  rw [View.read_apply]
  show (V c main_v23 : S128x128.Idx → EReal) _ = _
  refine congrArg _ (funext fun ax => Fin.ext ?_)
  match ax with
  | ⟨0, _⟩ => show win2_2.index t (0 : Fin 2) * 128 + 1 * a.val = a.val; rw [e0]; omega
  | ⟨1, _⟩ => show win2_2.index t (1 : Fin 2) * 128 + 1 * b.val = b.val; rw [e1]; omega

/-- Window 3's block at every point is its whole array. -/
theorem blk3 (c : Dev nD) (t : Fin cfg2.N) (a : Fin 1) (b : Fin 128) :
    (iblk2 V c 3 t : S1x128.Idx → EReal) (ix2 a b) = (V c main_v16 : S1x128.Idx → EReal) (ix2 a b) := by
  obtain ⟨e0, e1⟩ := idx3 t
  unfold iblk2
  rw [View.read_apply]
  show (V c main_v16 : S1x128.Idx → EReal) _ = _
  refine congrArg _ (funext fun ax => Fin.ext ?_)
  match ax with
  | ⟨0, _⟩ => show win2_3.index t (0 : Fin 2) * 1 + 1 * a.val = a.val; rw [e0]; omega
  | ⟨1, _⟩ => show win2_3.index t (1 : Fin 2) * 128 + 1 * b.val = b.val; rw [e1]; omega

/-- Window 4's block at every point is its whole array. -/
theorem blk4 (c : Dev nD) (t : Fin cfg2.N) (a : Fin 128) (b : Fin 128) :
    (iblk2 V c 4 t : S128x128.Idx → EReal) (ix2 a b) = (V c main_v24 : S128x128.Idx → EReal) (ix2 a b) := by
  obtain ⟨e0, e1⟩ := idx4 t
  unfold iblk2
  rw [View.read_apply]
  show (V c main_v24 : S128x128.Idx → EReal) _ = _
  refine congrArg _ (funext fun ax => Fin.ext ?_)
  match ax with
  | ⟨0, _⟩ => show win2_4.index t (0 : Fin 2) * 128 + 1 * a.val = a.val; rw [e0]; omega
  | ⟨1, _⟩ => show win2_4.index t (1 : Fin 2) * 128 + 1 * b.val = b.val; rw [e1]; omega

/-- Row p of window 5's block at point t is row 2000 t + p of its array. -/
theorem blk5 (c : Dev nD) (t : Fin cfg2.N) (p : Fin 2000) (k : Fin 1) (r : Fin 50000) (hr : r.val = t.val * 2000 + p.val) :
    (iblk2 V c 5 t : S2000x1.Idx → EReal) (ix2 p k) = (V c main_v8 : S50000x1.Idx → EReal) (ix2 r k) := by
  obtain ⟨e0, e1⟩ := idx5 t
  unfold iblk2
  rw [View.read_apply]
  show (V c main_v8 : S50000x1.Idx → EReal) _ = _
  refine congrArg _ (funext fun a => Fin.ext ?_)
  match a with
  | ⟨0, _⟩ => show win2_5.index t (0 : Fin 2) * 2000 + 1 * p.val = r.val; rw [e0, hr]; omega
  | ⟨1, _⟩ => show win2_5.index t (1 : Fin 2) * 1 + 1 * k.val = k.val; rw [e1]; omega

/-- The layer's entry computed from point t's blocks at row p is the layer's entry of the whole arrays at row 2000 t + p. -/
theorem lin_blk (c : Dev nD) (t : Fin cfg2.N) (p : Fin 2000) (r : Fin 50000) (hr : r.val = t.val * 2000 + p.val) (q : Fin 128) :
    linAt (iblk2 V c 0 t : S2000x128.Idx → EReal) (iblk2 V c 1 t : S2000x128.Idx → EReal) (iblk2 V c 2 t : S128x128.Idx → EReal) (iblk2 V c 4 t : S128x128.Idx → EReal) (fun j => (iblk2 V c 3 t : S1x128.Idx → EReal) (ix2 (0 : Fin 1) j)) (fun r => (iblk2 V c 5 t : S2000x1.Idx → EReal) (ix2 r (0 : Fin 1))) p q
      = linAt (V c main_v62 : S50000x128.Idx → EReal) (V c main_v51_0 : S50000x128.Idx → EReal) (V c main_v23 : S128x128.Idx → EReal) (V c main_v24 : S128x128.Idx → EReal) (fun j => (V c main_v16 : S1x128.Idx → EReal) (ix2 (0 : Fin 1) j)) (fun r => (V c main_v8 : S50000x1.Idx → EReal) (ix2 r (0 : Fin 1))) r q := by
  unfold linAt
  dsimp only
  refine congrArg₂ (· + ·) (congrArg₂ (· + ·) (Finset.sum_congr rfl fun k _ => ?_) ?_) (Finset.sum_congr rfl fun k _ => ?_)
  · rw [blk0 V c t p k r hr, blk5 V c t p 0 r hr, blk2 V c t k q]
  · exact blk3 V c t 0 q
  · rw [blk1 V c t p k r hr, blk4 V c t k q]

/-- What point t writes back through window 6 is block t of one whole-array function of the arrays as the region finds them. -/
theorem flushed_eq (c : Dev nD) (t : Fin cfg2.N) (_hf : (cfg2.win 6).flush t = true) :
    (dat2 V c).flushed 6 t = ((cfg2.win 6).blk t).view.read (Elt Ideal)
      (reluLayerK (V c main_v62 : S50000x128.Idx → EReal) (V c main_v51_0 : S50000x128.Idx → EReal) (V c main_v23 : S128x128.Idx → EReal) (V c main_v16 : S1x128.Idx → EReal) (V c main_v24 : S128x128.Idx → EReal) (V c main_v8 : S50000x1.Idx → EReal) : S50000x128.Idx → EReal) := by
  show (cfg2.win 6).cut (grid2.coords t) ((dat2 V c).after 6 t) = _
  rw [after2_6]
  unfold out2_6
  rw [View.canon_unit_zero hz]
  simp only [View.ld_unit_zero (S := S2000x128) hz, View.ld_unit_zero (S := S2000x1) hz, View.ld_unit_zero (S := S128x128) hz, View.ld_unit_zero (S := S1x128) hz]
  funext j
  obtain ⟨p, q, rfl⟩ : ∃ (p : Fin 2000) (q : Fin 128), j = ix2 p q :=
    ⟨⟨(j 0).val, (j 0).isLt⟩, ⟨(j 1).val, (j 1).isLt⟩, funext fun a => by match a with | ⟨0, _⟩ => rfl | ⟨1, _⟩ => rfl⟩
  obtain ⟨e0, e1⟩ := idx6 t
  have hN : t.val < 25 := lt_of_lt_of_eq t.isLt (show cfg2.N = 25 from N_2)
  have hp : p.val < 2000 := p.isLt
  let r : Fin 50000 := ⟨t.val * 2000 + p.val, by omega⟩
  have hr : r.val = t.val * 2000 + p.val := rfl
  rw [View.read_apply]
  have he : ((cfg2.win 6).blk t).view.emb (ix2 p q) = (ix2 r q : S50000x128.Idx) := funext fun a => Fin.ext (by
    match a with
    | ⟨0, _⟩ => show win2_6.index t (0 : Fin 2) * 2000 + 1 * p.val = t.val * 2000 + p.val; rw [e0]; omega
    | ⟨1, _⟩ => show win2_6.index t (1 : Fin 2) * 128 + 1 * q.val = q.val; rw [e1]; omega)
  rw [he]
  refine (Cert.KernelIdeal.Pay2.pay_apply (iblk2 V c 5 t) (iblk2 V c 0 t) (iblk2 V c 1 t) (iblk2 V c 2 t) (iblk2 V c 4 t) (iblk2 V c 3 t) p q).trans ?_
  rw [lin_blk V c t p r hr q]
  rfl

/-- An index of window 6's array is in point t's block iff each coordinate is in the block's range on its axis. -/
theorem mem_blk (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v63).slice (win2_6.rect t)).set ↔ _
  rw [View.set_slice_whole, Rect.mem_set_unit]
  exact Iff.rfl

/-- Every row of window 6's array lies in the block of the point numbered row / 2000. -/
theorem cover (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  have ht : t.val = (i 0).val / 2000 := rfl
  obtain ⟨e0, e1⟩ := idx6 t
  refine ⟨t, flush2_6 t, ?_⟩
  rw [mem_blk]
  intro a
  match a with
  | ⟨0, _⟩ => show win2_6.index t (0 : Fin 2) * 2000 ≤ (i 0).val ∧ (i 0).val < win2_6.index t (0 : Fin 2) * 2000 + 2000; rw [e0, ht]; omega
  | ⟨1, _⟩ => show win2_6.index t (1 : Fin 2) * 128 ≤ (i 1).val ∧ (i 1).val < win2_6.index t (1 : Fin 2) * 128 + 128; rw [e1]; omega

/-- Window 6's array after the region. -/
theorem final (c : Dev nD) : (dat2 V c).arrAt 6 cfg2.N
    = (reluLayerK (V c main_v62 : S50000x128.Idx → EReal) (V c main_v51_0 : S50000x128.Idx → EReal) (V c main_v23 : S128x128.Idx → EReal) (V c main_v16 : S1x128.Idx → EReal) (V c main_v24 : S128x128.Idx → EReal) (V c main_v8 : S50000x1.Idx → EReal) : S50000x128.Idx → EReal) :=
  (dat2 V c).arrAt_eq_of_cover 6 _ (flushed_eq V c) cover

end Cert.KernelIdeal.Val2

end
-- ==== Proof.Pay3.lean ====
/-
  What the fourth region's body stores, read at an entry.

  The body clamps the layer's 2000 x 128 block below at zero, multiplies it into the 128 x 64 output matrix, adds the
  output bias row, applies the logistic function and scales by 1000. The logistic function of x is 1 / (1 + exp(-x)),
  and the single-precision pattern of one is the extended real one.
-/
import proofs.«121309_j7937099563262_2_alg».proof.Proof.Gen.KernelIdeal.Skeleton
import proofs.«121309_j7937099563262_2_alg».proof.Proof.SageSpec
import proofs.«121309_j7937099563262_2_alg».proof.Proof.LibDotRows
import proofs.«121309_j7937099563262_2_alg».proof.Proof.LibRowBroadcast
import proofs.«121309_j7937099563262_2_alg».proof.Proof.LibColBroadcast
import Idealize.ShloMosaic.PureOps.Ideal.Laws
import Idealize.ShloMosaic.Lib.Pipeline.Value
import Idealize.ShloMosaic.Lib.IdealHost

noncomputable section

open scoped BigOperators

namespace Cert.KernelIdeal.Pay3

open Idealize.ShloMosaic Idealize.ShloMosaic.ValueIdx Cert.KernelIdeal Cert.KernelIdeal.Gen Cert.Sage Cert.Hand

/-- A 2000 x 128 by 128 x 128 product into the zero accumulator, at (p, q): the sum over the 128 shared columns. -/
theorem mm (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  dot_rows dot_S2000x128_S128x128_S2000x128_1_0_0_1_n_n S2000x128 S128x128 128

/-- The layer before its activation, as the body computes it from its loaded blocks, at (p, q): the neighbour sums'
    block divided row by row by max(count, 1) and multiplied into the first weight matrix, plus the bias row repeated
    down the rows, plus the features' block multiplied into the second weight matrix. -/
theorem pre_apply (v0 : FVec Ideal S2000x1 .f32) (v4 : FVec Ideal S2000x128 .f32) (v9 : FVec Ideal S2000x128 .bf16)
    (v11 v13 : FVec Ideal S128x128 .bf16) (v16 : FVec Ideal S1x128 .f32) (p : Fin 2000) (q : Fin 128) :
    addf (addf (matmul dot_S2000x128_S128x128_S2000x128_1_0_0_1_n_n none
        (truncf .bf16 (divf v4 (broadcastTo S2000x128 (maximumf v0 (broadcast S2000x1 (Scalar.ofBits .f32 0x3F800000#32))) broadcasts_S2000x1_S2000x128)) bitsLt_bf16_f32)
        v11 (constant S2000x128 .f32 0x00000000#32)) (broadcastTo S2000x128 v16 broadcasts_S1x128_S2000x128))
      (matmul dot_S2000x128_S128x128_S2000x128_1_0_0_1_n_n none v9 v13 (constant S2000x128 .f32 0x00000000#32)) (ix2 p q)
      = linAt v4 v9 v11 v13 (fun j => v16 (ix2 (0 : Fin 1) j)) (fun r => v0 (ix2 r (0 : Fin 1))) p q := by
  unfold linAt
  show matmul dot_S2000x128_S128x128_S2000x128_1_0_0_1_n_n none _ v11 (constant S2000x128 .f32 0x00000000#32) (ix2 p q)
      + broadcastTo S2000x128 v16 broadcasts_S1x128_S2000x128 (ix2 p q)
      + matmul dot_S2000x128_S128x128_S2000x128_1_0_0_1_n_n none v9 v13 (constant S2000x128 .f32 0x00000000#32) (ix2 p q) = _
  rw [mm, mm, Cert.RowBroadcast.broadcastTo_1b_ab_apply]
  refine congrArg (· + _) (congrArg (· + _) (Finset.sum_congr rfl fun k _ => congrArg (· * _) ?_))
  show Ideal.div (v4 (ix2 p k)) (broadcastTo S2000x128 (maximumf v0 (broadcast S2000x1 (Scalar.ofBits .f32 0x3F800000#32))) broadcasts_S2000x1_S2000x128 (ix2 p k)) = _
  rw [Cert.ColBroadcast.broadcastTo_a1_ab_apply]
  rfl

/-- A 2000 x 128 by 128 x 64 product into the zero accumulator, at (p, q): the sum over the 128 shared columns. -/
theorem mm64 (l : FVec Ideal S2000x128 .bf16) (r : FVec Ideal S128x64 .bf16) (p : Fin 2000) (q : Fin 64) :
    matmul dot_S2000x128_S128x64_S2000x64_1_0_0_1_n_n none l r (constant S2000x64 .f32 0x00000000#32) (ix2 p q)
      = ∑ k : Fin 128, l (ix2 p k) * r (ix2 k q) := by
  refine (Ideal.matmul_constant_zero_apply dot_S2000x128_S128x64_S2000x64_1_0_0_1_n_n none l r (ix2 p q)).trans ?_
  dot_rows dot_S2000x128_S128x64_S2000x64_1_0_0_1_n_n S2000x128 S128x64 128

/-- The logistic function in the host's spelling, with the pattern of one for the extended real one. -/
theorem logistic_eq (x : EReal) : Ideal.logistic x = Ideal.div one32 (one32 + Ideal.exp (-x)) := by
  show Ideal.div 1 (1 + Ideal.exp (-x)) = Ideal.div (Ideal.ofBits .f32 0x3F800000#32) (Ideal.ofBits .f32 0x3F800000#32 + Ideal.exp (-x))
  rw [Ideal.ofBits_one_f32]

/-- The fourth region's stored value at (p, q). -/
theorem pay_apply (v0 : FVec Ideal S2000x1 .f32) (v4 : FVec Ideal S2000x128 .f32) (v9 : FVec Ideal S2000x128 .bf16)
    (v11 v13 : FVec Ideal S128x128 .bf16) (v16 : FVec Ideal S1x128 .f32) (v25 : FVec Ideal S128x64 .bf16) (v28 : FVec Ideal S1x64 .f32) (p : Fin 2000) (q : Fin 64) :
    k3_pay1 (F := Ideal) v0 v4 v9 v11 v13 v16 v25 v28 (ix2 p q)
      = Ideal.div one32 (one32 + Ideal.exp (-((∑ k : Fin 128, max (linAt v4 v9 v11 v13 (fun j => v16 (ix2 (0 : Fin 1) j)) (fun r => v0 (ix2 r (0 : Fin 1))) p k) zero32 * v25 (ix2 k q)) + v28 (ix2 (0 : Fin 1) q)))) * thousand32 := by
  unfold k3_pay1
  simp only [shapeCast_self]
  show Ideal.logistic (matmul dot_S2000x128_S128x64_S2000x64_1_0_0_1_n_n none _ v25 (constant S2000x64 .f32 0x00000000#32) (ix2 p q)
      + broadcastTo S2000x64 v28 broadcasts_S1x64_S2000x64 (ix2 p q)) * thousand32 = _
  rw [logistic_eq, mm64, Cert.RowBroadcast.broadcastTo_1b_ab_apply]
  refine congrArg (fun s => Ideal.div one32 (one32 + Ideal.exp (-(s + _))) * thousand32) (Finset.sum_congr rfl fun k _ => congrArg (· * _) ?_)
  exact congrArg (max · zero32) (pre_apply v0 v4 v9 v11 v13 v16 p k)

end Cert.KernelIdeal.Pay3

end
-- ==== Proof.Val3.lean ====
/-
  The fourth region's result array as one function of the arrays the region reads: the clamped layer, projected by
  the 128 x 64 output matrix with its bias, through the logistic function, times 1000 -- row block by row block, 25
  blocks of 2000 rows tiling the 50000 rows.
-/
import proofs.«121309_j7937099563262_2_alg».proof.Proof.Gen.KernelIdeal.Frame
import proofs.«121309_j7937099563262_2_alg».proof.Proof.Pay3
import Idealize.ShloMosaic.Lib.Pipeline.Value

set_option maxRecDepth 16384

noncomputable section

open scoped BigOperators

namespace Cert.KernelIdeal.Val3

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- Window 0's block index at point t, decided over the grid. -/
theorem idx0 : ∀ t : Fin cfg3.N, win3_0.index t (0 : Fin 2) = t.val ∧ win3_0.index t (1 : Fin 2) = 0 :=
  (by decide +kernel : ∀ t : Fin grid3.N, _)
/-- Window 1's block index at point t, decided over the grid. -/
theorem idx1 : ∀ t : Fin cfg3.N, win3_1.index t (0 : Fin 2) = t.val ∧ win3_1.index t (1 : Fin 2) = 0 :=
  (by decide +kernel : ∀ t : Fin grid3.N, _)
/-- Window 2's block index at point t, decided over the grid. -/
theorem idx2 : ∀ t : Fin cfg3.N, win3_2.index t (0 : Fin 2) = 0 ∧ win3_2.index t (1 : Fin 2) = 0 :=
  (by decide +kernel : ∀ t : Fin grid3.N, _)
/-- Window 3's block index at point t, decided over the grid. -/
theorem idx3 : ∀ t : Fin cfg3.N, win3_3.index t (0 : Fin 2) = 0 ∧ win3_3.index t (1 : Fin 2) = 0 :=
  (by decide +kernel : ∀ t : Fin grid3.N, _)
/-- Window 4's block index at point t, decided over the grid. -/
theorem idx4 : ∀ t : Fin cfg3.N, win3_4.index t (0 : Fin 2) = 0 ∧ win3_4.index t (1 : Fin 2) = 0 :=
  (by decide +kernel : ∀ t : Fin grid3.N, _)
/-- Window 5's block index at point t, decided over the grid. -/
theorem idx5 : ∀ t : Fin cfg3.N, win3_5.index t (0 : Fin 2) = t.val ∧ win3_5.index t (1 : Fin 2) = 0 :=
  (by decide +kernel : ∀ t : Fin grid3.N, _)
/-- Window 6's block index at point t, decided over the grid. -/
theorem idx6 : ∀ t : Fin cfg3.N, win3_6.index t (0 : Fin 2) = 0 ∧ win3_6.index t (1 : Fin 2) = 0 :=
  (by decide +kernel : ∀ t : Fin grid3.N, _)
/-- Window 7's block index at point t, decided over the grid. -/
theorem idx7 : ∀ t : Fin cfg3.N, win3_7.index t (0 : Fin 2) = 0 ∧ win3_7.index t (1 : Fin 2) = 0 :=
  (by decide +kernel : ∀ t : Fin grid3.N, _)
/-- Window 8's block index at point t, decided over the grid. -/
theorem idx8 : ∀ t : Fin cfg3.N, win3_8.index t (0 : Fin 2) = t.val ∧ win3_8.index t (1 : Fin 2) = 0 :=
  (by decide +kernel : ∀ t : Fin grid3.N, _)

/-- Row p of window 0's block at point t is row 2000 t + p of its array. -/
theorem blk0 (c : Dev nD) (t : Fin cfg3.N) (p : Fin 2000) (k : Fin 128) (r : Fin 50000) (hr : r.val = t.val * 2000 + p.val) :
    (iblk3 V c 0 t : S2000x128.Idx → EReal) (ix2 p k) = (V c main_v74 : S50000x128.Idx → EReal) (ix2 r k) := by
  obtain ⟨e0, e1⟩ := idx0 t
  unfold iblk3
  rw [View.read_apply]
  show (V c main_v74 : S50000x128.Idx → EReal) _ = _
  refine congrArg _ (funext fun a => Fin.ext ?_)
  match a with
  | ⟨0, _⟩ => show win3_0.index t (0 : Fin 2) * 2000 + 1 * p.val = r.val; rw [e0, hr]; omega
  | ⟨1, _⟩ => show win3_0.index t (1 : Fin 2) * 128 + 1 * k.val = k.val; rw [e1]; omega

/-- Row p of window 1's block at point t is row 2000 t + p of its array. -/
theorem blk1 (c : Dev nD) (t : Fin cfg3.N) (p : Fin 2000) (k : Fin 128) (r : Fin 50000) (hr : r.val = t.val * 2000 + p.val) :
    (iblk3 V c 1 t : S2000x128.Idx → EReal) (ix2 p k) = (V c main_v63 : S50000x128.Idx → EReal) (ix2 r k) := by
  obtain ⟨e0, e1⟩ := idx1 t
  unfold iblk3
  rw [View.read_apply]
  show (V c main_v63 : S50000x128.Idx → EReal) _ = _
  refine congrArg _ (funext fun a => Fin.ext ?_)
  match a with
  | ⟨0, _⟩ => show win3_1.index t (0 : Fin 2) * 2000 + 1 * p.val = r.val; rw [e0, hr]; omega
  | ⟨1, _⟩ => show win3_1.index t (1 : Fin 2) * 128 + 1 * k.val = k.val; rw [e1]; omega

/-- Window 2's block at every point is its whole array. -/
theorem blk2 (c : Dev nD) (t : Fin cfg3.N) (a : Fin 128) (b : Fin 128) :
    (iblk3 V c 2 t : S128x128.Idx → EReal) (ix2 a b) = (V c main_v25 : S128x128.Idx → EReal) (ix2 a b) := by
  obtain ⟨e0, e1⟩ := idx2 t
  unfold iblk3
  rw [View.read_apply]
  show (V c main_v25 : S128x128.Idx → EReal) _ = _
  refine congrArg _ (funext fun ax => Fin.ext ?_)
  match ax with
  | ⟨0, _⟩ => show win3_2.index t (0 : Fin 2) * 128 + 1 * a.val = a.val; rw [e0]; omega
  | ⟨1, _⟩ => show win3_2.index t (1 : Fin 2) * 128 + 1 * b.val = b.val; rw [e1]; omega

/-- Window 3's block at every point is its whole array. -/
theorem blk3 (c : Dev nD) (t : Fin cfg3.N) (a : Fin 1) (b : Fin 128) :
    (iblk3 V c 3 t : S1x128.Idx → EReal) (ix2 a b) = (V c main_v17 : S1x128.Idx → EReal) (ix2 a b) := by
  obtain ⟨e0, e1⟩ := idx3 t
  unfold iblk3
  rw [View.read_apply]
  show (V c main_v17 : S1x128.Idx → EReal) _ = _
  refine congrArg _ (funext fun ax => Fin.ext ?_)
  match ax with
  | ⟨0, _⟩ => show win3_3.index t (0 : Fin 2) * 1 + 1 * a.val = a.val; rw [e0]; omega
  | ⟨1, _⟩ => show win3_3.index t (1 : Fin 2) * 128 + 1 * b.val = b.val; rw [e1]; omega

/-- Window 4's block at every point is its whole array. -/
theorem blk4 (c : Dev nD) (t : Fin cfg3.N) (a : Fin 128) (b : Fin 128) :
    (iblk3 V c 4 t : S128x128.Idx → EReal) (ix2 a b) = (V c main_v26 : S128x128.Idx → EReal) (ix2 a b) := by
  obtain ⟨e0, e1⟩ := idx4 t
  unfold iblk3
  rw [View.read_apply]
  show (V c main_v26 : S128x128.Idx → EReal) _ = _
  refine congrArg _ (funext fun ax => Fin.ext ?_)
  match ax with
  | ⟨0, _⟩ => show win3_4.index t (0 : Fin 2) * 128 + 1 * a.val = a.val; rw [e0]; omega
  | ⟨1, _⟩ => show win3_4.index t (1 : Fin 2) * 128 + 1 * b.val = b.val; rw [e1]; omega

/-- Row p of window 5's block at point t is row 2000 t + p of its array. -/
theorem blk5 (c : Dev nD) (t : Fin cfg3.N) (p : Fin 2000) (k : Fin 1) (r : Fin 50000) (hr : r.val = t.val * 2000 + p.val) :
    (iblk3 V c 5 t : S2000x1.Idx → EReal) (ix2 p k) = (V c main_v8 : S50000x1.Idx → EReal) (ix2 r k) := by
  obtain ⟨e0, e1⟩ := idx5 t
  unfold iblk3
  rw [View.read_apply]
  show (V c main_v8 : S50000x1.Idx → EReal) _ = _
  refine congrArg _ (funext fun a => Fin.ext ?_)
  match a with
  | ⟨0, _⟩ => show win3_5.index t (0 : Fin 2) * 2000 + 1 * p.val = r.val; rw [e0, hr]; omega
  | ⟨1, _⟩ => show win3_5.index t (1 : Fin 2) * 1 + 1 * k.val = k.val; rw [e1]; omega

/-- Window 6's block at every point is its whole array. -/
theorem blk6 (c : Dev nD) (t : Fin cfg3.N) (a : Fin 128) (b : Fin 64) :
    (iblk3 V c 6 t : S128x64.Idx → EReal) (ix2 a b) = (V c main_v27 : S128x64.Idx → EReal) (ix2 a b) := by
  obtain ⟨e0, e1⟩ := idx6 t
  unfold iblk3
  rw [View.read_apply]
  show (V c main_v27 : S128x64.Idx → EReal) _ = _
  refine congrArg _ (funext fun ax => Fin.ext ?_)
  match ax with
  | ⟨0, _⟩ => show win3_6.index t (0 : Fin 2) * 128 + 1 * a.val = a.val; rw [e0]; omega
  | ⟨1, _⟩ => show win3_6.index t (1 : Fin 2) * 64 + 1 * b.val = b.val; rw [e1]; omega

/-- Window 7's block at every point is its whole array. -/
theorem blk7 (c : Dev nD) (t : Fin cfg3.N) (a : Fin 1) (b : Fin 64) :
    (iblk3 V c 7 t : S1x64.Idx → EReal) (ix2 a b) = (V c main_v18 : S1x64.Idx → EReal) (ix2 a b) := by
  obtain ⟨e0, e1⟩ := idx7 t
  unfold iblk3
  rw [View.read_apply]
  show (V c main_v18 : S1x64.Idx → EReal) _ = _
  refine congrArg _ (funext fun ax => Fin.ext ?_)
  match ax with
  | ⟨0, _⟩ => show win3_7.index t (0 : Fin 2) * 1 + 1 * a.val = a.val; rw [e0]; omega
  | ⟨1, _⟩ => show win3_7.index t (1 : Fin 2) * 64 + 1 * b.val = b.val; rw [e1]; omega

/-- The layer's entry computed from point t's blocks at row p is the layer's entry of the whole arrays at row 2000 t + p. -/
theorem lin_blk (c : Dev nD) (t : Fin cfg3.N) (p : Fin 2000) (r : Fin 50000) (hr : r.val = t.val * 2000 + p.val) (q : Fin 128) :
    linAt (iblk3 V c 0 t : S2000x128.Idx → EReal) (iblk3 V c 1 t : S2000x128.Idx → EReal) (iblk3 V c 2 t : S128x128.Idx → EReal) (iblk3 V c 4 t : S128x128.Idx → EReal) (fun j => (iblk3 V c 3 t : S1x128.Idx → EReal) (ix2 (0 : Fin 1) j)) (fun r => (iblk3 V c 5 t : S2000x1.Idx → EReal) (ix2 r (0 : Fin 1))) p q
      = linAt (V c main_v74 : S50000x128.Idx → EReal) (V c main_v63 : S50000x128.Idx → EReal) (V c main_v25 : S128x128.Idx → EReal) (V c main_v26 : S128x128.Idx → EReal) (fun j => (V c main_v17 : S1x128.Idx → EReal) (ix2 (0 : Fin 1) j)) (fun r => (V c main_v8 : S50000x1.Idx → EReal) (ix2 r (0 : Fin 1))) r q := by
  unfold linAt
  dsimp only
  refine congrArg₂ (· + ·) (congrArg₂ (· + ·) (Finset.sum_congr rfl fun k _ => ?_) ?_) (Finset.sum_congr rfl fun k _ => ?_)
  · rw [blk0 V c t p k r hr, blk5 V c t p 0 r hr, blk2 V c t k q]
  · exact blk3 V c t 0 q
  · rw [blk1 V c t p k r hr, blk4 V c t k q]

/-- What point t writes back through window 8 is block t of one whole-array function of the arrays as the region finds them. -/
theorem flushed_eq (c : Dev nD) (t : Fin cfg3.N) (_hf : (cfg3.win 8).flush t = true) :
    (dat3 V c).flushed 8 t = ((cfg3.win 8).blk t).view.read (Elt Ideal)
      (finalLayerK (V c main_v74 : S50000x128.Idx → EReal) (V c main_v63 : S50000x128.Idx → EReal) (V c main_v25 : S128x128.Idx → EReal) (V c main_v17 : S1x128.Idx → EReal) (V c main_v26 : S128x128.Idx → EReal) (V c main_v8 : S50000x1.Idx → EReal) (V c main_v27 : S128x64.Idx → EReal) (V c main_v18 : S1x64.Idx → EReal) : S50000x64.Idx → EReal) := by
  show (cfg3.win 8).cut (grid3.coords t) ((dat3 V c).after 8 t) = _
  rw [after3_8]
  unfold out3_8
  rw [View.canon_unit_zero hz]
  simp only [View.ld_unit_zero (S := S2000x128) hz, View.ld_unit_zero (S := S2000x1) hz, View.ld_unit_zero (S := S128x128) hz, View.ld_unit_zero (S := S1x128) hz, View.ld_unit_zero (S := S128x64) hz, View.ld_unit_zero (S := S1x64) hz, View.ld_unit_zero (S := S2000x64) hz]
  funext j
  obtain ⟨p, q, rfl⟩ : ∃ (p : Fin 2000) (q : Fin 64), j = ix2 p q :=
    ⟨⟨(j 0).val, (j 0).isLt⟩, ⟨(j 1).val, (j 1).isLt⟩, funext fun a => by match a with | ⟨0, _⟩ => rfl | ⟨1, _⟩ => rfl⟩
  obtain ⟨e0, e1⟩ := idx8 t
  have hN : t.val < 25 := lt_of_lt_of_eq t.isLt (show cfg3.N = 25 from N_3)
  have hp : p.val < 2000 := p.isLt
  let r : Fin 50000 := ⟨t.val * 2000 + p.val, by omega⟩
  have hr : r.val = t.val * 2000 + p.val := rfl
  rw [View.read_apply]
  have he : ((cfg3.win 8).blk t).view.emb (ix2 p q) = (ix2 r q : S50000x64.Idx) := funext fun a => Fin.ext (by
    match a with
    | ⟨0, _⟩ => show win3_8.index t (0 : Fin 2) * 2000 + 1 * p.val = t.val * 2000 + p.val; rw [e0]; omega
    | ⟨1, _⟩ => show win3_8.index t (1 : Fin 2) * 64 + 1 * q.val = q.val; rw [e1]; omega)
  rw [he]
  refine (Cert.KernelIdeal.Pay3.pay_apply (iblk3 V c 5 t) (iblk3 V c 0 t) (iblk3 V c 1 t) (iblk3 V c 2 t) (iblk3 V c 4 t) (iblk3 V c 3 t) (iblk3 V c 6 t) (iblk3 V c 7 t) p q).trans ?_
  have hs : (∑ k : Fin 128, max (linAt (iblk3 V c 0 t : S2000x128.Idx → EReal) (iblk3 V c 1 t : S2000x128.Idx → EReal) (iblk3 V c 2 t : S128x128.Idx → EReal) (iblk3 V c 4 t : S128x128.Idx → EReal) (fun j => (iblk3 V c 3 t : S1x128.Idx → EReal) (ix2 (0 : Fin 1) j)) (fun r => (iblk3 V c 5 t : S2000x1.Idx → EReal) (ix2 r (0 : Fin 1))) p k) zero32 * (iblk3 V c 6 t : S128x64.Idx → EReal) (ix2 k q))
      = ∑ k : Fin 128, max (linAt (V c main_v74 : S50000x128.Idx → EReal) (V c main_v63 : S50000x128.Idx → EReal) (V c main_v25 : S128x128.Idx → EReal) (V c main_v26 : S128x128.Idx → EReal) (fun j => (V c main_v17 : S1x128.Idx → EReal) (ix2 (0 : Fin 1) j)) (fun r => (V c main_v8 : S50000x1.Idx → EReal) (ix2 r (0 : Fin 1))) r k) zero32 * (V c main_v27 : S128x64.Idx → EReal) (ix2 k q) :=
    Finset.sum_congr rfl fun k _ => by rw [lin_blk V c t p r hr k, blk6 V c t k q]
  rw [hs, blk7 V c t 0 q]
  rfl

/-- An index of window 8's array is in point t's block iff each coordinate is in the block's range on its axis. -/
theorem mem_blk (t : Fin cfg3.N) (i : S50000x64.Idx) :
    i ∈ ((cfg3.win 8).blk t).view.set ↔ ∀ a : Fin 2, win3_8.index t a * S2000x64.size a ≤ (i a).val ∧ (i a).val < win3_8.index t a * S2000x64.size a + S2000x64.size a := by
  show i ∈ ((View.whole main_v75).slice (win3_8.rect t)).set ↔ _
  rw [View.set_slice_whole, Rect.mem_set_unit]
  exact Iff.rfl

/-- Every row of window 8's array lies in the block of the point numbered row / 2000. -/
theorem cover (i : S50000x64.Idx) : ∃ t : Fin cfg3.N, (cfg3.win 8).flush t = true ∧ i ∈ ((cfg3.win 8).blk t).view.set := by
  have hi0 : (i 0).val < 50000 := (i 0).isLt
  have hi1 : (i 1).val < 64 := (i 1).isLt
  have hN : cfg3.N = 25 := N_3
  let t : Fin cfg3.N := ⟨(i 0).val / 2000, by rw [hN]; omega⟩
  have ht : t.val = (i 0).val / 2000 := rfl
  obtain ⟨e0, e1⟩ := idx8 t
  refine ⟨t, flush3_8 t, ?_⟩
  rw [mem_blk]
  intro a
  match a with
  | ⟨0, _⟩ => show win3_8.index t (0 : Fin 2) * 2000 ≤ (i 0).val ∧ (i 0).val < win3_8.index t (0 : Fin 2) * 2000 + 2000; rw [e0, ht]; omega
  | ⟨1, _⟩ => show win3_8.index t (1 : Fin 2) * 64 ≤ (i 1).val ∧ (i 1).val < win3_8.index t (1 : Fin 2) * 64 + 64; rw [e1]; omega

/-- Window 8's array after the region. -/
theorem final (c : Dev nD) : (dat3 V c).arrAt 8 cfg3.N
    = (finalLayerK (V c main_v74 : S50000x128.Idx → EReal) (V c main_v63 : S50000x128.Idx → EReal) (V c main_v25 : S128x128.Idx → EReal) (V c main_v17 : S1x128.Idx → EReal) (V c main_v26 : S128x128.Idx → EReal) (V c main_v8 : S50000x1.Idx → EReal) (V c main_v27 : S128x64.Idx → EReal) (V c main_v18 : S1x64.Idx → EReal) : S50000x64.Idx → EReal) :=
  (dat3 V c).arrAt_eq_of_cover 8 _ (flushed_eq V c) cover

end Cert.KernelIdeal.Val3

end
-- ==== Proof.KHost.lean ====
/-
  The tiled program's three results as functions of its arguments.

  The program's buffers are followed from the launch to the return, boundary by boundary: a stretch of host
  operations computes new arrays from the ones before it and leaves every other buffer alone; a region replaces its
  result arrays by one layer of the arrays it finds (the four blocks-to-array theorems) and leaves every other buffer
  alone. A buffer nothing writes on the way is carried unchanged, so each region finds the weights, biases, edge
  counts and node numbers the first stretch computed. At the return the output, the mean and the log-variance hold the
  chain of layers of KChain.
-/
import proofs.«121309_j7937099563262_2_alg».proof.Proof.Gen.KernelIdeal.Frame
import proofs.«121309_j7937099563262_2_alg».proof.Proof.KChain
import proofs.«121309_j7937099563262_2_alg».proof.Proof.Val0
import proofs.«121309_j7937099563262_2_alg».proof.Proof.Val1
import proofs.«121309_j7937099563262_2_alg».proof.Proof.Val2
import proofs.«121309_j7937099563262_2_alg».proof.Proof.Val3
import Idealize.ShloMosaic.Lib.StableHlo.Run

set_option maxRecDepth 16384

noncomputable section

namespace Cert.KernelIdeal.Host

open Cert.KernelIdeal Cert.KernelIdeal.Gen Cert.KernelIdeal.Chain Cert.Sage
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- No operation of the named stretch writes the buffer: its writes are single buffers, each another one. -/
macro "host_keeps " ops:ident : tactic => `(tactic| (
  refine List.forall_iff_forall_mem.mp ?_
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## What a stretch or a region leaves alone -/

theorem keep0 (b : Ref sig .tc) (h : ∀ op ∈ (hostOps0 : List (HloOp τ sig (Elt Ideal))), Proc.devRef .tc b ∉ op.writes) :
    W1 m ρ c (Proc.devRef .tc b) = W0 m ρ c (Proc.devRef .tc b) := StableHlo.after_of_forall_not_mem (b := Proc.devRef .tc b) _ _ h
theorem keep1 (b : Ref sig .tc) (h : ∀ op ∈ (hostOps1 : List (HloOp τ sig (Elt Ideal))), Proc.devRef .tc b ∉ op.writes) :
    W3 m ρ c (Proc.devRef .tc b) = W2 m ρ c (Proc.devRef .tc b) := StableHlo.after_of_forall_not_mem (b := Proc.devRef .tc b) _ _ h
theorem keep2 (b : Ref sig .tc) (h : ∀ op ∈ (hostOps2 : List (HloOp τ sig (Elt Ideal))), Proc.devRef .tc b ∉ op.writes) :
    W5 m ρ c (Proc.devRef .tc b) = W4 m ρ c (Proc.devRef .tc b) := StableHlo.after_of_forall_not_mem (b := Proc.devRef .tc b) _ _ h
theorem keep3 (b : Ref sig .tc) (h : ∀ op ∈ (hostOps3 : List (HloOp τ sig (Elt Ideal))), Proc.devRef .tc b ∉ op.writes) :
    W7 m ρ c (Proc.devRef .tc b) = W6 m ρ c (Proc.devRef .tc b) := StableHlo.after_of_forall_not_mem (b := Proc.devRef .tc b) _ _ h

/-- A buffer that is no array of regions 0, 1, 2 and that stretches 1, 2, 3 do not write: region k + 1's entry holds
    what the first boundary held. -/
theorem carry13 (b : Ref sig .tc) (r0 : ∀ w, Pipeline.arrRef spec0 w ≠ b)
    (h1 : ∀ op ∈ (hostOps1 : List (HloOp τ sig (Elt Ideal))), Proc.devRef .tc b ∉ op.writes) :
    W3 m ρ c (Proc.devRef .tc b) = W1 m ρ c (Proc.devRef .tc b) :=
  (keep1 m ρ c b h1).trans (W2_of_ne m ρ c b r0)
theorem carry15 (b : Ref sig .tc) (r0 : ∀ w, Pipeline.arrRef spec0 w ≠ b)
    (h1 : ∀ op ∈ (hostOps1 : List (HloOp τ sig (Elt Ideal))), Proc.devRef .tc b ∉ op.writes)
    (r1 : ∀ w, Pipeline.arrRef spec1 w ≠ b)
    (h2 : ∀ op ∈ (hostOps2 : List (HloOp τ sig (Elt Ideal))), Proc.devRef .tc b ∉ op.writes) :
    W5 m ρ c (Proc.devRef .tc b) = W1 m ρ c (Proc.devRef .tc b) :=
  (keep2 m ρ c b h2).trans ((W4_of_ne m ρ c b r1).trans (carry13 m ρ c b r0 h1))
theorem carry17 (b : Ref sig .tc) (r0 : ∀ w, Pipeline.arrRef spec0 w ≠ b)
    (h1 : ∀ op ∈ (hostOps1 : List (HloOp τ sig (Elt Ideal))), Proc.devRef .tc b ∉ op.writes)
    (r1 : ∀ w, Pipeline.arrRef spec1 w ≠ b)
    (h2 : ∀ op ∈ (hostOps2 : List (HloOp τ sig (Elt Ideal))), Proc.devRef .tc b ∉ op.writes)
    (r2 : ∀ w, Pipeline.arrRef spec2 w ≠ b)
    (h3 : ∀ op ∈ (hostOps3 : List (HloOp τ sig (Elt Ideal))), Proc.devRef .tc b ∉ op.writes) :
    W7 m ρ c (Proc.devRef .tc b) = W1 m ρ c (Proc.devRef .tc b) :=
  (keep3 m ρ c b h3).trans ((W6_of_ne m ρ c b r2).trans (carry15 m ρ c b r0 h1 r1 h2))

/-- An input window's array is as the region found it. -/
theorem in0 (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin cfg0.N).trans (A_eq0 (V1 m ρ) c w))
theorem in1 (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin cfg1.N).trans (A_eq1 (V3 m ρ) c w))
theorem in2 (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin cfg2.N).trans (A_eq2 (V5 m ρ) c w))

/-! ## The first boundary: what the first stretch computes -/

theorem V1_v1 : (V1 m ρ c main_v1 : S800000.Idx → BitVec 32) = srcV (m ((c : Thread nD τ).loc main_arg1)) := by
  show StableHlo.after hostOps0 (W0 m ρ c) (Proc.devRef .tc main_v1) = _
  dsimp only [hostOps0]
  after_results_simp <;> rfl
theorem V1_v3 : (V1 m ρ c main_v3 : S800000.Idx → BitVec 32) = dstV (m ((c : Thread nD τ).loc main_arg1)) := by
  show StableHlo.after hostOps0 (W0 m ρ c) (Proc.devRef .tc main_v3) = _
  dsimp only [hostOps0]
  after_results_simp <;> rfl
theorem V1_v8 : (V1 m ρ c main_v8 : S50000x1.Idx → EReal) = cntCol (dstV (m ((c : Thread nD τ).loc main_arg1))) := by
  show StableHlo.after hostOps0 (W0 m ρ c) (Proc.devRef .tc main_v8) = _
  dsimp only [hostOps0]
  after_results_simp <;> rfl
theorem V1_v13 : (V1 m ρ c main_v13 : S50000x128.Idx → EReal) = feat0 (m ((c : Thread nD τ).loc main_arg0)) := by
  show StableHlo.after hostOps0 (W0 m ρ c) (Proc.devRef .tc main_v13) = _
  dsimp only [hostOps0]
  after_results_simp <;> rfl
theorem V1_v38 : (V1 m ρ c main_v38 : S50000x128.Idx → EReal) = agg128 (feat0 (m ((c : Thread nD τ).loc main_arg0))) (srcV (m ((c : Thread nD τ).loc main_arg1))) (dstV (m ((c : Thread nD τ).loc main_arg1))) := by
  show StableHlo.after hostOps0 (W0 m ρ c) (Proc.devRef .tc main_v38) = _
  dsimp only [hostOps0]
  after_results_simp <;> rfl
theorem V1_v14 : (V1 m ρ c main_v14 : S1x256.Idx → EReal) = shapeCast _ (m ((c : Thread nD τ).loc main_arg4)) shapeCasts_S256_S1x256 := by
  show StableHlo.after hostOps0 (W0 m ρ c) (Proc.devRef .tc main_v14) = _
  dsimp only [hostOps0]
  after_results_simp <;> rfl
theorem V1_v15 : (V1 m ρ c main_v15 : S1x256.Idx → EReal) = shapeCast _ (m ((c : Thread nD τ).loc main_arg7)) shapeCasts_S256_S1x256 := by
  show StableHlo.after hostOps0 (W0 m ρ c) (Proc.devRef .tc main_v15) = _
  dsimp only [hostOps0]
  after_results_simp <;> rfl
theorem V1_v16 : (V1 m ρ c main_v16 : S1x128.Idx → EReal) = shapeCast _ (m ((c : Thread nD τ).loc main_arg10)) shapeCasts_S128_S1x128 := by
  show StableHlo.after hostOps0 (W0 m ρ c) (Proc.devRef .tc main_v16) = _
  dsimp only [hostOps0]
  after_results_simp <;> rfl
theorem V1_v17 : (V1 m ρ c main_v17 : S1x128.Idx → EReal) = shapeCast _ (m ((c : Thread nD τ).loc main_arg13)) shapeCasts_S128_S1x128 := by
  show StableHlo.after hostOps0 (W0 m ρ c) (Proc.devRef .tc main_v17) = _
  dsimp only [hostOps0]
  after_results_simp <;> rfl
theorem V1_v18 : (V1 m ρ c main_v18 : S1x64.Idx → EReal) = shapeCast _ (m ((c : Thread nD τ).loc main_arg16)) shapeCasts_S64_S1x64 := by
  show StableHlo.after hostOps0 (W0 m ρ c) (Proc.devRef .tc main_v18) = _
  dsimp only [hostOps0]
  after_results_simp <;> rfl
theorem V1_v19 : (V1 m ρ c main_v19 : S128x256.Idx → EReal) = (truncf (F := Ideal) .bf16 ((m ((c : Thread nD τ).loc main_arg3)) : FVec Ideal S128x256 .f32) bitsLt_bf16_f32 : S128x256.Idx → EReal) := by
  show StableHlo.after hostOps0 (W0 m ρ c) (Proc.devRef .tc main_v19) = _
  dsimp only [hostOps0]
  after_results_simp <;> rfl
theorem V1_v20 : (V1 m ρ c main_v20 : S128x256.Idx → EReal) = (truncf (F := Ideal) .bf16 ((m ((c : Thread nD τ).loc main_arg5)) : FVec Ideal S128x256 .f32) bitsLt_bf16_f32 : S128x256.Idx → EReal) := by
  show StableHlo.after hostOps0 (W0 m ρ c) (Proc.devRef .tc main_v20) = _
  dsimp only [hostOps0]
  after_results_simp <;> rfl
theorem V1_v21 : (V1 m ρ c main_v21 : S256x256.Idx → EReal) = (truncf (F := Ideal) .bf16 ((m ((c : Thread nD τ).loc main_arg6)) : FVec Ideal S256x256 .f32) bitsLt_bf16_f32 : S256x256.Idx → EReal) := by
  show StableHlo.after hostOps0 (W0 m ρ c) (Proc.devRef .tc main_v21) = _
  dsimp only [hostOps0]
  after_results_simp <;> rfl
theorem V1_v22 : (V1 m ρ c main_v22 : S256x256.Idx → EReal) = (truncf (F := Ideal) .bf16 ((m ((c : Thread nD τ).loc main_arg8)) : FVec Ideal S256x256 .f32) bitsLt_bf16_f32 : S256x256.Idx → EReal) := by
  show StableHlo.after hostOps0 (W0 m ρ c) (Proc.devRef .tc main_v22) = _
  dsimp only [hostOps0]
  after_results_simp <;> rfl
theorem V1_v23 : (V1 m ρ c main_v23 : S128x128.Idx → EReal) = (truncf (F := Ideal) .bf16 ((m ((c : Thread nD τ).loc main_arg9)) : FVec Ideal S128x128 .f32) bitsLt_bf16_f32 : S128x128.Idx → EReal) := by
  show StableHlo.after hostOps0 (W0 m ρ c) (Proc.devRef .tc main_v23) = _
  dsimp only [hostOps0]
  after_results_simp <;> rfl
theorem V1_v24 : (V1 m ρ c main_v24 : S128x128.Idx → EReal) = (truncf (F := Ideal) .bf16 ((m ((c : Thread nD τ).loc main_arg11)) : FVec Ideal S128x128 .f32) bitsLt_bf16_f32 : S128x128.Idx → EReal) := by
  show StableHlo.after hostOps0 (W0 m ρ c) (Proc.devRef .tc main_v24) = _
  dsimp only [hostOps0]
  after_results_simp <;> rfl
theorem V1_v25 : (V1 m ρ c main_v25 : S128x128.Idx → EReal) = (truncf (F := Ideal) .bf16 ((m ((c : Thread nD τ).loc main_arg12)) : FVec Ideal S128x128 .f32) bitsLt_bf16_f32 : S128x128.Idx → EReal) := by
  show StableHlo.after hostOps0 (W0 m ρ c) (Proc.devRef .tc main_v25) = _
  dsimp only [hostOps0]
  after_results_simp <;> rfl
theorem V1_v26 : (V1 m ρ c main_v26 : S128x128.Idx → EReal) = (truncf (F := Ideal) .bf16 ((m ((c : Thread nD τ).loc main_arg14)) : FVec Ideal S128x128 .f32) bitsLt_bf16_f32 : S128x128.Idx → EReal) := by
  show StableHlo.after hostOps0 (W0 m ρ c) (Proc.devRef .tc main_v26) = _
  dsimp only [hostOps0]
  after_results_simp <;> rfl
theorem V1_v27 : (V1 m ρ c main_v27 : S128x64.Idx → EReal) = (truncf (F := Ideal) .bf16 ((m ((c : Thread nD τ).loc main_arg15)) : FVec Ideal S128x64 .f32) bitsLt_bf16_f32 : S128x64.Idx → EReal) := by
  show StableHlo.after hostOps0 (W0 m ρ c) (Proc.devRef .tc main_v27) = _
  dsimp only [hostOps0]
  after_results_simp <;> rfl
theorem V1_arg2 : (V1 m ρ c main_arg2 : S50000x128.Idx → EReal) = (m ((c : Thread nD τ).loc main_arg2)) :=
  keep0 m ρ c main_arg2 (by host_keeps hostOps0)

/-! ## The node numbers and the edge counts at every later boundary -/

theorem W2_v1 : W2 m ρ c (Proc.devRef .tc main_v1) = srcV (m ((c : Thread nD τ).loc main_arg1)) := (W2_of_ne m ρ c main_v1 (by decide)).trans (V1_v1 m ρ c)
theorem W2_v3 : W2 m ρ c (Proc.devRef .tc main_v3) = dstV (m ((c : Thread nD τ).loc main_arg1)) := (W2_of_ne m ρ c main_v3 (by decide)).trans (V1_v3 m ρ c)
theorem W4_v1 : W4 m ρ c (Proc.devRef .tc main_v1) = srcV (m ((c : Thread nD τ).loc main_arg1)) :=
  (W4_of_ne m ρ c main_v1 (by decide)).trans ((keep1 m ρ c main_v1 (by host_keeps hostOps1)).trans (W2_v1 m ρ c))
theorem W4_v3 : W4 m ρ c (Proc.devRef .tc main_v3) = dstV (m ((c : Thread nD τ).loc main_arg1)) :=
  (W4_of_ne m ρ c main_v3 (by decide)).trans ((keep1 m ρ c main_v3 (by host_keeps hostOps1)).trans (W2_v3 m ρ c))
theorem W6_v1 : W6 m ρ c (Proc.devRef .tc main_v1) = srcV (m ((c : Thread nD τ).loc main_arg1)) :=
  (W6_of_ne m ρ c main_v1 (by decide)).trans ((keep2 m ρ c main_v1 (by host_keeps hostOps2)).trans (W4_v1 m ρ c))
theorem W6_v3 : W6 m ρ c (Proc.devRef .tc main_v3) = dstV (m ((c : Thread nD τ).loc main_arg1)) :=
  (W6_of_ne m ρ c main_v3 (by decide)).trans ((keep2 m ρ c main_v3 (by host_keeps hostOps2)).trans (W4_v3 m ρ c))

theorem V3_v8 : (V3 m ρ c main_v8 : S50000x1.Idx → EReal) = cntCol (dstV (m ((c : Thread nD τ).loc main_arg1))) :=
  (keep1 m ρ c main_v8 (by host_keeps hostOps1)).trans ((in0 m ρ c 5 rfl).trans (V1_v8 m ρ c))
theorem V5_v8 : (V5 m ρ c main_v8 : S50000x1.Idx → EReal) = cntCol (dstV (m ((c : Thread nD τ).loc main_arg1))) :=
  (keep2 m ρ c main_v8 (by host_keeps hostOps2)).trans ((in1 m ρ c 5 rfl).trans (V3_v8 m ρ c))
theorem V7_v8 : (V7 m ρ c main_v8 : S50000x1.Idx → EReal) = cntCol (dstV (m ((c : Thread nD τ).loc main_arg1))) :=
  (keep3 m ρ c main_v8 (by host_keeps hostOps3)).trans ((in2 m ρ c 5 rfl).trans (V5_v8 m ρ c))

/-! ## Region 0 and the second stretch -/

theorem V2_v39 : (V2 m ρ c main_v39 : S50000x256.Idx → EReal) = (h1 (m ((c : Thread nD τ).loc main_arg0)) (m ((c : Thread nD τ).loc main_arg1)) (m ((c : Thread nD τ).loc main_arg3)) (m ((c : Thread nD τ).loc main_arg4)) (m ((c : Thread nD τ).loc main_arg5))) := by
  refine (hF0 m ρ c 6).symm.trans ?_
  rw [Val0.final (V1 m ρ) c, V1_v38, V1_v13, V1_v19, V1_v14, V1_v20, V1_v8]
  rfl

theorem V3_v39 : (V3 m ρ c main_v39 : S50000x256.Idx → EReal) = (h1 (m ((c : Thread nD τ).loc main_arg0)) (m ((c : Thread nD τ).loc main_arg1)) (m ((c : Thread nD τ).loc main_arg3)) (m ((c : Thread nD τ).loc main_arg4)) (m ((c : Thread nD τ).loc main_arg5))) :=
  (keep1 m ρ c main_v39 (by host_keeps hostOps1)).trans (V2_v39 m ρ c)

theorem V3_v50 : (V3 m ρ c main_v50 : S50000x256.Idx → EReal) = agg256 (h1 (m ((c : Thread nD τ).loc main_arg0)) (m ((c : Thread nD τ).loc main_arg1)) (m ((c : Thread nD τ).loc main_arg3)) (m ((c : Thread nD τ).loc main_arg4)) (m ((c : Thread nD τ).loc main_arg5))) (srcV (m ((c : Thread nD τ).loc main_arg1))) (dstV (m ((c : Thread nD τ).loc main_arg1))) := by
  have e : (V3 m ρ c main_v50 : S50000x256.Idx → EReal)
      = agg256 (W2 m ρ c (Proc.devRef .tc main_v39)) (W2 m ρ c (Proc.devRef .tc main_v1)) (W2 m ρ c (Proc.devRef .tc main_v3)) := by
    show StableHlo.after hostOps1 (W2 m ρ c) (Proc.devRef .tc main_v50) = _
    dsimp only [hostOps1]
    after_results <;> rfl
  rw [e, W2_v1, W2_v3]
  exact congrArg (fun h => agg256 h _ _) (V2_v39 m ρ c)

theorem V3_v21 : (V3 m ρ c main_v21 : S256x256.Idx → EReal) = (truncf (F := Ideal) .bf16 ((m ((c : Thread nD τ).loc main_arg6)) : FVec Ideal S256x256 .f32) bitsLt_bf16_f32 : S256x256.Idx → EReal) :=
  (carry13 m ρ c main_v21 (by decide) (by host_keeps hostOps1)).trans (V1_v21 m ρ c)
theorem V3_v15 : (V3 m ρ c main_v15 : S1x256.Idx → EReal) = shapeCast _ (m ((c : Thread nD τ).loc main_arg7)) shapeCasts_S256_S1x256 :=
  (carry13 m ρ c main_v15 (by decide) (by host_keeps hostOps1)).trans (V1_v15 m ρ c)
theorem V3_v22 : (V3 m ρ c main_v22 : S256x256.Idx → EReal) = (truncf (F := Ideal) .bf16 ((m ((c : Thread nD τ).loc main_arg8)) : FVec Ideal S256x256 .f32) bitsLt_bf16_f32 : S256x256.Idx → EReal) :=
  (carry13 m ρ c main_v22 (by decide) (by host_keeps hostOps1)).trans (V1_v22 m ρ c)
theorem V3_arg2 : (V3 m ρ c main_arg2 : S50000x128.Idx → EReal) = (m ((c : Thread nD τ).loc main_arg2)) :=
  (carry13 m ρ c main_arg2 (by decide) (by host_keeps hostOps1)).trans (V1_arg2 m ρ c)

/-! ## Region 1 and the third stretch -/

theorem V4_v51_0 : (V4 m ρ c main_v51_0 : S50000x128.Idx → EReal) = (draw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (hF1 m ρ c 7).symm.trans ?_
  rw [Val1.final7 (V3 m ρ) c, V3_v50, V3_v39, V3_v21, V3_v15, V3_v22, V3_v8, V3_arg2]
  rfl
theorem V4_v51_1 : (V4 m ρ c main_v51_1 : S50000x128.Idx → EReal)
    = mean (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (hF1 m ρ c 8).symm.trans ?_
  rw [Val1.final8 (V3 m ρ) c, V3_v50, V3_v39, V3_v21, V3_v15, V3_v22, V3_v8]
  rfl
theorem V4_v51_2 : (V4 m ρ c main_v51_2 : S50000x128.Idx → EReal)
    = logvar (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (hF1 m ρ c 9).symm.trans ?_
  rw [Val1.final9 (V3 m ρ) c, V3_v50, V3_v39, V3_v21, V3_v15, V3_v22, V3_v8]
  rfl

theorem V5_v51_0 : (V5 m ρ c main_v51_0 : S50000x128.Idx → EReal) = (draw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (keep2 m ρ c main_v51_0 (by host_keeps hostOps2)).trans (V4_v51_0 m ρ c)

theorem V5_v62 : (V5 m ρ c main_v62 : S50000x128.Idx → EReal) = agg128 (draw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (srcV (m ((c : Thread nD τ).loc main_arg1))) (dstV (m ((c : Thread nD τ).loc main_arg1))) := by
  have e : (V5 m ρ c main_v62 : S50000x128.Idx → EReal)
      = agg128 (W4 m ρ c (Proc.devRef .tc main_v51_0)) (W4 m ρ c (Proc.devRef .tc main_v1)) (W4 m ρ c (Proc.devRef .tc main_v3)) := by
    show StableHlo.after hostOps2 (W4 m ρ c) (Proc.devRef .tc main_v62) = _
    dsimp only [hostOps2]
    after_results <;> rfl
  rw [e, W4_v1, W4_v3]
  exact congrArg (fun h => agg128 h _ _) (V4_v51_0 m ρ c)

theorem V5_v23 : (V5 m ρ c main_v23 : S128x128.Idx → EReal) = (truncf (F := Ideal) .bf16 ((m ((c : Thread nD τ).loc main_arg9)) : FVec Ideal S128x128 .f32) bitsLt_bf16_f32 : S128x128.Idx → EReal) :=
  (carry15 m ρ c main_v23 (by decide) (by host_keeps hostOps1) (by decide) (by host_keeps hostOps2)).trans (V1_v23 m ρ c)
theorem V5_v16 : (V5 m ρ c main_v16 : S1x128.Idx → EReal) = shapeCast _ (m ((c : Thread nD τ).loc main_arg10)) shapeCasts_S128_S1x128 :=
  (carry15 m ρ c main_v16 (by decide) (by host_keeps hostOps1) (by decide) (by host_keeps hostOps2)).trans (V1_v16 m ρ c)
theorem V5_v24 : (V5 m ρ c main_v24 : S128x128.Idx → EReal) = (truncf (F := Ideal) .bf16 ((m ((c : Thread nD τ).loc main_arg11)) : FVec Ideal S128x128 .f32) bitsLt_bf16_f32 : S128x128.Idx → EReal) :=
  (carry15 m ρ c main_v24 (by decide) (by host_keeps hostOps1) (by decide) (by host_keeps hostOps2)).trans (V1_v24 m ρ c)

/-! ## Region 2 and the fourth stretch -/

theorem V6_v63 : (V6 m ρ c main_v63 : S50000x128.Idx → EReal) = (h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  refine (hF2 m ρ c 6).symm.trans ?_
  rw [Val2.final (V5 m ρ) c, V5_v62, V5_v51_0, V5_v23, V5_v16, V5_v24, V5_v8]
  rfl

theorem V7_v63 : (V7 m ρ c main_v63 : S50000x128.Idx → EReal) = (h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :=
  (keep3 m ρ c main_v63 (by host_keeps hostOps3)).trans (V6_v63 m ρ c)

theorem V7_v74 : (V7 m ρ c main_v74 : S50000x128.Idx → EReal) = agg128 (h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (srcV (m ((c : Thread nD τ).loc main_arg1))) (dstV (m ((c : Thread nD τ).loc main_arg1))) := by
  have e : (V7 m ρ c main_v74 : S50000x128.Idx → EReal)
      = agg128 (W6 m ρ c (Proc.devRef .tc main_v63)) (W6 m ρ c (Proc.devRef .tc main_v1)) (W6 m ρ c (Proc.devRef .tc main_v3)) := by
    show StableHlo.after hostOps3 (W6 m ρ c) (Proc.devRef .tc main_v74) = _
    dsimp only [hostOps3]
    after_results <;> rfl
  rw [e, W6_v1, W6_v3]
  exact congrArg (fun h => agg128 h _ _) (V6_v63 m ρ c)

theorem V7_v25 : (V7 m ρ c main_v25 : S128x128.Idx → EReal) = (truncf (F := Ideal) .bf16 ((m ((c : Thread nD τ).loc main_arg12)) : FVec Ideal S128x128 .f32) bitsLt_bf16_f32 : S128x128.Idx → EReal) :=
  (carry17 m ρ c main_v25 (by decide) (by host_keeps hostOps1) (by decide) (by host_keeps hostOps2) (by decide) (by host_keeps hostOps3)).trans (V1_v25 m ρ c)
theorem V7_v17 : (V7 m ρ c main_v17 : S1x128.Idx → EReal) = shapeCast _ (m ((c : Thread nD τ).loc main_arg13)) shapeCasts_S128_S1x128 :=
  (carry17 m ρ c main_v17 (by decide) (by host_keeps hostOps1) (by decide) (by host_keeps hostOps2) (by decide) (by host_keeps hostOps3)).trans (V1_v17 m ρ c)
theorem V7_v26 : (V7 m ρ c main_v26 : S128x128.Idx → EReal) = (truncf (F := Ideal) .bf16 ((m ((c : Thread nD τ).loc main_arg14)) : FVec Ideal S128x128 .f32) bitsLt_bf16_f32 : S128x128.Idx → EReal) :=
  (carry17 m ρ c main_v26 (by decide) (by host_keeps hostOps1) (by decide) (by host_keeps hostOps2) (by decide) (by host_keeps hostOps3)).trans (V1_v26 m ρ c)
theorem V7_v27 : (V7 m ρ c main_v27 : S128x64.Idx → EReal) = (truncf (F := Ideal) .bf16 ((m ((c : Thread nD τ).loc main_arg15)) : FVec Ideal S128x64 .f32) bitsLt_bf16_f32 : S128x64.Idx → EReal) :=
  (carry17 m ρ c main_v27 (by decide) (by host_keeps hostOps1) (by decide) (by host_keeps hostOps2) (by decide) (by host_keeps hostOps3)).trans (V1_v27 m ρ c)
theorem V7_v18 : (V7 m ρ c main_v18 : S1x64.Idx → EReal) = shapeCast _ (m ((c : Thread nD τ).loc main_arg16)) shapeCasts_S64_S1x64 :=
  (carry17 m ρ c main_v18 (by decide) (by host_keeps hostOps1) (by decide) (by host_keeps hostOps2) (by decide) (by host_keeps hostOps3)).trans (V1_v18 m ρ c)

/-! ## Region 3, and the three results at the return -/

set_option maxHeartbeats 1000000 in
/-- The output array at the return. -/
theorem out_eq : (W8 m ρ c (Proc.devRef .tc main_v75) : S50000x64.Idx → EReal)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (hF3 m ρ c 8).symm.trans ?_
  rw [Val3.final (V7 m ρ) c, V7_v74 m ρ c, V7_v63 m ρ c, V7_v25 m ρ c, V7_v17 m ρ c, V7_v26 m ρ c, V7_v8 m ρ c, V7_v27 m ρ c, V7_v18 m ρ c]
  rfl

/-- The mean at the return: region 1 wrote it and nothing after touches it. -/
theorem mean_eq : (W8 m ρ c (Proc.devRef .tc main_v51_1) : S50000x128.Idx → EReal)
    = mean (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W8_of_ne m ρ c main_v51_1 (by decide)).trans ((keep3 m ρ c main_v51_1 (by host_keeps hostOps3)).trans
    ((W6_of_ne m ρ c main_v51_1 (by decide)).trans ((keep2 m ρ c main_v51_1 (by host_keeps hostOps2)).trans (V4_v51_1 m ρ c))))

/-- The log-variance at the return. -/
theorem logvar_eq : (W8 m ρ c (Proc.devRef .tc main_v51_2) : S50000x128.Idx → EReal)
    = logvar (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W8_of_ne m ρ c main_v51_2 (by decide)).trans ((keep3 m ρ c main_v51_2 (by host_keeps hostOps3)).trans
    ((W6_of_ne m ρ c main_v51_2 (by decide)).trans ((keep2 m ρ c main_v51_2 (by host_keeps hostOps2)).trans (V4_v51_2 m ρ c))))

end Cert.KernelIdeal.Host

end
-- ==== Proof.Ref1.lean ====
/-
  The reference's first layer is the sine layer of its own neighbour sums, features and edge counts, read one
  operation at a time.
-/
import proofs.«121309_j7937099563262_2_alg».proof.Proof.Gen.ReferenceIdeal.Read
import proofs.«121309_j7937099563262_2_alg».proof.Proof.SageSpec

noncomputable section

open scoped BigOperators

namespace Cert.ReferenceIdeal.Layer1

open Idealize.ShloMosaic Idealize.ShloMosaic.ValueIdx Cert.ReferenceIdeal Cert.ReferenceIdeal.Read Cert.Sage

/-- Entry (r, q) of the reference's layer 1 before its activation: the layer's entry of the reference's own neighbour
    sums, features and edge counts. The maximum of the count with 1 is taken on the count vector and then repeated
    along the columns; the bias vector is repeated down the rows. -/
theorem pre (x0 : S50000x128.Idx → EReal) (x1 : (⟨S2x800000, .i32⟩ : BufTy).Contents (Elt Ideal)) (x3 : S128x256.Idx → EReal) (x4 : S256.Idx → EReal) (x5 : S128x256.Idx → EReal) (r : Fin 50000) (q : Fin 256) :
    val_main_v32 (F := Ideal) x0 x1 x3 x4 x5 (ix2 r q) = linAt (val_main_v17 (F := Ideal) x0 x1) (val_main_v7 (F := Ideal) x0) x3 x5 (fun j => x4 (ix1 j)) (fun r => val_main_v21 (F := Ideal) x1 (ix1 r)) r q := by
  rw [val_main_v32_apply, val_main_v30_apply, val_main_v27_apply, val_main_v31_apply,
    val_main_v29_apply, val_main_v28_apply]
  unfold linAt
  refine congrArg₂ (· + ·) (congrArg₂ (· + ·) (Finset.sum_congr rfl fun k _ => ?_) ?_) (Finset.sum_congr rfl fun k _ => ?_)
  · have e1 : lidx_main_v27 (ix2 r q) k = ix2 r k := funext fun a => by match a with | ⟨0, _⟩ => rfl | ⟨1, _⟩ => rfl
    have e2 : ridx_main_v27 (ix2 r q) k = ix2 k q := funext fun a => by match a with | ⟨0, _⟩ => rfl | ⟨1, _⟩ => rfl
    have e3 : idx_main_v24 (idx_main_v25 (ix2 r k)) = ix1 r := funext fun a => by match a with | ⟨0, _⟩ => rfl
    rw [e1, e2, val_main_v26_apply, val_main_v25_apply, val_main_v24_apply, val_main_v23_apply, e3]
    try rfl
  · have e4 : idx_main_v28 (idx_main_v29 (ix2 r q)) = ix1 q := funext fun a => by match a with | ⟨0, _⟩ => rfl
    rw [e4]
    try rfl
  · have e1 : lidx_main_v31 (ix2 r q) k = ix2 r k := funext fun a => by match a with | ⟨0, _⟩ => rfl | ⟨1, _⟩ => rfl
    have e2 : ridx_main_v31 (ix2 r q) k = ix2 k q := funext fun a => by match a with | ⟨0, _⟩ => rfl | ⟨1, _⟩ => rfl
    rw [e1, e2]
    try rfl

/-- The reference's first hidden array is the sine layer. -/
theorem layer (x0 : S50000x128.Idx → EReal) (x1 : (⟨S2x800000, .i32⟩ : BufTy).Contents (Elt Ideal)) (x3 : S128x256.Idx → EReal) (x4 : S256.Idx → EReal) (x5 : S128x256.Idx → EReal) :
    val_main_v33 (F := Ideal) x0 x1 x3 x4 x5 = sinLayer (val_main_v17 (F := Ideal) x0 x1) (val_main_v7 (F := Ideal) x0) x3 x5 (fun j => x4 (ix1 j)) (fun r => val_main_v21 (F := Ideal) x1 (ix1 r)) := by
  funext i
  obtain ⟨r, q, rfl⟩ : ∃ (r : Fin 50000) (q : Fin 256), i = ix2 r q := ⟨i 0, i 1, eq_ix2 i⟩
  rw [val_main_v33_apply, Ideal.hostUnary_sin_def]
  unfold sinLayer
  exact congrArg Ideal.sin (pre x0 x1 x3 x4 x5 r q)

end Cert.ReferenceIdeal.Layer1

end
-- ==== Proof.Ref2.lean ====
/-
  The reference's second layer, read one operation at a time: its mean is the first 128 columns of the layer of its
  own neighbour sums, features and edge counts, its log-variance the last 128 columns, and its draw is
  mean + exp(log-variance) * noise.
-/
import proofs.«121309_j7937099563262_2_alg».proof.Proof.Gen.ReferenceIdeal.Read
import proofs.«121309_j7937099563262_2_alg».proof.Proof.SageSpec

noncomputable section

open scoped BigOperators

namespace Cert.ReferenceIdeal.Layer2

open Idealize.ShloMosaic Idealize.ShloMosaic.ValueIdx Cert.ReferenceIdeal Cert.ReferenceIdeal.Read Cert.Sage

/-- Entry (r, q) of the reference's layer 2 before its activation: the layer's entry of the reference's own neighbour
    sums, features and edge counts. The maximum of the count with 1 is taken on the count vector and then repeated
    along the columns; the bias vector is repeated down the rows. -/
theorem pre (x0 : S50000x128.Idx → EReal) (x1 : (⟨S2x800000, .i32⟩ : BufTy).Contents (Elt Ideal)) (x3 : S128x256.Idx → EReal) (x4 : S256.Idx → EReal) (x5 : S128x256.Idx → EReal) (x6 : S256x256.Idx → EReal) (x7 : S256.Idx → EReal) (x8 : S256x256.Idx → EReal) (r : Fin 50000) (q : Fin 256) :
    val_main_v58 (F := Ideal) x0 x1 x3 x4 x5 x6 x7 x8 (ix2 r q) = linAt (val_main_v43 (F := Ideal) x0 x1 x3 x4 x5) (val_main_v33 (F := Ideal) x0 x1 x3 x4 x5) x6 x8 (fun j => x7 (ix1 j)) (fun r => val_main_v47 (F := Ideal) x1 (ix1 r)) r q := by
  rw [val_main_v58_apply, val_main_v56_apply, val_main_v53_apply, val_main_v57_apply,
    val_main_v55_apply, val_main_v54_apply]
  unfold linAt
  refine congrArg₂ (· + ·) (congrArg₂ (· + ·) (Finset.sum_congr rfl fun k _ => ?_) ?_) (Finset.sum_congr rfl fun k _ => ?_)
  · have e1 : lidx_main_v53 (ix2 r q) k = ix2 r k := funext fun a => by match a with | ⟨0, _⟩ => rfl | ⟨1, _⟩ => rfl
    have e2 : ridx_main_v53 (ix2 r q) k = ix2 k q := funext fun a => by match a with | ⟨0, _⟩ => rfl | ⟨1, _⟩ => rfl
    have e3 : idx_main_v50 (idx_main_v51 (ix2 r k)) = ix1 r := funext fun a => by match a with | ⟨0, _⟩ => rfl
    rw [e1, e2, val_main_v52_apply, val_main_v51_apply, val_main_v50_apply, val_main_v49_apply, e3]
    try rfl
  · have e4 : idx_main_v54 (idx_main_v55 (ix2 r q)) = ix1 q := funext fun a => by match a with | ⟨0, _⟩ => rfl
    rw [e4]
    try rfl
  · have e1 : lidx_main_v57 (ix2 r q) k = ix2 r k := funext fun a => by match a with | ⟨0, _⟩ => rfl | ⟨1, _⟩ => rfl
    have e2 : ridx_main_v57 (ix2 r q) k = ix2 k q := funext fun a => by match a with | ⟨0, _⟩ => rfl | ⟨1, _⟩ => rfl
    rw [e1, e2]
    try rfl

/-- The reference's mean: the layer's first 128 columns. -/
theorem mean_eq (x0 : S50000x128.Idx → EReal) (x1 : (⟨S2x800000, .i32⟩ : BufTy).Contents (Elt Ideal)) (x3 : S128x256.Idx → EReal) (x4 : S256.Idx → EReal) (x5 : S128x256.Idx → EReal) (x6 : S256x256.Idx → EReal) (x7 : S256.Idx → EReal) (x8 : S256x256.Idx → EReal) : val_main_v59 (F := Ideal) x0 x1 x3 x4 x5 x6 x7 x8 = meanPart (val_main_v43 (F := Ideal) x0 x1 x3 x4 x5) (val_main_v33 (F := Ideal) x0 x1 x3 x4 x5) x6 x8 (fun j => x7 (ix1 j)) (fun r => val_main_v47 (F := Ideal) x1 (ix1 r)) := by
  funext i
  obtain ⟨r, j, rfl⟩ : ∃ (r : Fin 50000) (j : Fin 128), i = ix2 r j := ⟨i 0, i 1, eq_ix2 i⟩
  rw [val_main_v59_apply]
  have e : idx_main_v59 (ix2 r j) = ix2 r (lo128 j) := funext fun a => by match a with | ⟨0, _⟩ => rfl | ⟨1, _⟩ => rfl
  rw [e]
  exact pre x0 x1 x3 x4 x5 x6 x7 x8 r (lo128 j)

/-- The reference's log-variance: the layer's last 128 columns. -/
theorem logvar_eq (x0 : S50000x128.Idx → EReal) (x1 : (⟨S2x800000, .i32⟩ : BufTy).Contents (Elt Ideal)) (x3 : S128x256.Idx → EReal) (x4 : S256.Idx → EReal) (x5 : S128x256.Idx → EReal) (x6 : S256x256.Idx → EReal) (x7 : S256.Idx → EReal) (x8 : S256x256.Idx → EReal) : val_main_v60 (F := Ideal) x0 x1 x3 x4 x5 x6 x7 x8 = logvarPart (val_main_v43 (F := Ideal) x0 x1 x3 x4 x5) (val_main_v33 (F := Ideal) x0 x1 x3 x4 x5) x6 x8 (fun j => x7 (ix1 j)) (fun r => val_main_v47 (F := Ideal) x1 (ix1 r)) := by
  funext i
  obtain ⟨r, j, rfl⟩ : ∃ (r : Fin 50000) (j : Fin 128), i = ix2 r j := ⟨i 0, i 1, eq_ix2 i⟩
  rw [val_main_v60_apply]
  have e : idx_main_v60 (ix2 r j) = ix2 r (hi128 j) := funext fun a => by match a with | ⟨0, _⟩ => rfl | ⟨1, _⟩ => rfl
  rw [e]
  exact pre x0 x1 x3 x4 x5 x6 x7 x8 r (hi128 j)

/-- The reference's draw: mean + exp(log-variance) * noise. -/
theorem draw_eq (x0 : S50000x128.Idx → EReal) (x1 : (⟨S2x800000, .i32⟩ : BufTy).Contents (Elt Ideal)) (x2 : S50000x128.Idx → EReal) (x3 : S128x256.Idx → EReal) (x4 : S256.Idx → EReal) (x5 : S128x256.Idx → EReal) (x6 : S256x256.Idx → EReal) (x7 : S256.Idx → EReal) (x8 : S256x256.Idx → EReal) : val_main_v63 (F := Ideal) x0 x1 x2 x3 x4 x5 x6 x7 x8 = drawPart (val_main_v43 (F := Ideal) x0 x1 x3 x4 x5) (val_main_v33 (F := Ideal) x0 x1 x3 x4 x5) x6 x8 (fun j => x7 (ix1 j)) (fun r => val_main_v47 (F := Ideal) x1 (ix1 r)) x2 := by
  funext i
  rw [val_main_v63_apply, val_main_v62_apply, val_main_v61_apply, Ideal.hostUnary_exp_def, mean_eq, logvar_eq]
  unfold drawPart
  rfl

end Cert.ReferenceIdeal.Layer2

end
-- ==== Proof.Ref3.lean ====
/-
  The reference's third layer is the layer of its own neighbour sums of the draw, the draw and the edge counts,
  clamped below at zero, read one operation at a time.
-/
import proofs.«121309_j7937099563262_2_alg».proof.Proof.Gen.ReferenceIdeal.Read
import proofs.«121309_j7937099563262_2_alg».proof.Proof.SageSpec

noncomputable section

open scoped BigOperators

namespace Cert.ReferenceIdeal.Layer3

open Idealize.ShloMosaic Idealize.ShloMosaic.ValueIdx Cert.ReferenceIdeal Cert.ReferenceIdeal.Read Cert.Sage

/-- Entry (r, q) of the reference's layer 3 before its activation: the layer's entry of the reference's own neighbour
    sums, features and edge counts. The maximum of the count with 1 is taken on the count vector and then repeated
    along the columns; the bias vector is repeated down the rows. -/
theorem pre (x0 : S50000x128.Idx → EReal) (x1 : (⟨S2x800000, .i32⟩ : BufTy).Contents (Elt Ideal)) (x2 : S50000x128.Idx → EReal) (x3 : S128x256.Idx → EReal) (x4 : S256.Idx → EReal) (x5 : S128x256.Idx → EReal) (x6 : S256x256.Idx → EReal) (x7 : S256.Idx → EReal) (x8 : S256x256.Idx → EReal) (x9 : S128x128.Idx → EReal) (x10 : S128.Idx → EReal) (x11 : S128x128.Idx → EReal) (r : Fin 50000) (q : Fin 128) :
    val_main_v88 (F := Ideal) x0 x1 x2 x3 x4 x5 x6 x7 x8 x9 x10 x11 (ix2 r q) = linAt (val_main_v73 (F := Ideal) x0 x1 x2 x3 x4 x5 x6 x7 x8) (val_main_v63 (F := Ideal) x0 x1 x2 x3 x4 x5 x6 x7 x8) x9 x11 (fun j => x10 (ix1 j)) (fun r => val_main_v77 (F := Ideal) x1 (ix1 r)) r q := by
  rw [val_main_v88_apply, val_main_v86_apply, val_main_v83_apply, val_main_v87_apply,
    val_main_v85_apply, val_main_v84_apply]
  unfold linAt
  refine congrArg₂ (· + ·) (congrArg₂ (· + ·) (Finset.sum_congr rfl fun k _ => ?_) ?_) (Finset.sum_congr rfl fun k _ => ?_)
  · have e1 : lidx_main_v83 (ix2 r q) k = ix2 r k := funext fun a => by match a with | ⟨0, _⟩ => rfl | ⟨1, _⟩ => rfl
    have e2 : ridx_main_v83 (ix2 r q) k = ix2 k q := funext fun a => by match a with | ⟨0, _⟩ => rfl | ⟨1, _⟩ => rfl
    have e3 : idx_main_v80 (idx_main_v81 (ix2 r k)) = ix1 r := funext fun a => by match a with | ⟨0, _⟩ => rfl
    rw [e1, e2, val_main_v82_apply, val_main_v81_apply, val_main_v80_apply, val_main_v79_apply, e3]
    try rfl
  · have e4 : idx_main_v84 (idx_main_v85 (ix2 r q)) = ix1 q := funext fun a => by match a with | ⟨0, _⟩ => rfl
    rw [e4]
    try rfl
  · have e1 : lidx_main_v87 (ix2 r q) k = ix2 r k := funext fun a => by match a with | ⟨0, _⟩ => rfl | ⟨1, _⟩ => rfl
    have e2 : ridx_main_v87 (ix2 r q) k = ix2 k q := funext fun a => by match a with | ⟨0, _⟩ => rfl | ⟨1, _⟩ => rfl
    rw [e1, e2]
    try rfl

/-- The reference's third hidden array is the clamped layer. -/
theorem layer (x0 : S50000x128.Idx → EReal) (x1 : (⟨S2x800000, .i32⟩ : BufTy).Contents (Elt Ideal)) (x2 : S50000x128.Idx → EReal) (x3 : S128x256.Idx → EReal) (x4 : S256.Idx → EReal) (x5 : S128x256.Idx → EReal) (x6 : S256x256.Idx → EReal) (x7 : S256.Idx → EReal) (x8 : S256x256.Idx → EReal) (x9 : S128x128.Idx → EReal) (x10 : S128.Idx → EReal) (x11 : S128x128.Idx → EReal) :
    val_main_v89 (F := Ideal) x0 x1 x2 x3 x4 x5 x6 x7 x8 x9 x10 x11 = reluLayer (val_main_v73 (F := Ideal) x0 x1 x2 x3 x4 x5 x6 x7 x8) (val_main_v63 (F := Ideal) x0 x1 x2 x3 x4 x5 x6 x7 x8) x9 x11 (fun j => x10 (ix1 j)) (fun r => val_main_v77 (F := Ideal) x1 (ix1 r)) := by
  funext i
  obtain ⟨r, q, rfl⟩ : ∃ (r : Fin 50000) (q : Fin 128), i = ix2 r q := ⟨i 0, i 1, eq_ix2 i⟩
  rw [val_main_v89_apply, val_main_call0_v0_apply]
  unfold reluLayer
  exact congrArg (max · zero32) (pre x0 x1 x2 x3 x4 x5 x6 x7 x8 x9 x10 x11 r q)

end Cert.ReferenceIdeal.Layer3

end
-- ==== Proof.Ref4.lean ====
/-
  The reference's output, read one operation at a time: the fourth layer of its own neighbour sums, features and edge
  counts, clamped below at zero, projected by the 128 x 64 output matrix with its bias, through
  1 / (1 + exp(-x)), times 1000.
-/
import proofs.«121309_j7937099563262_2_alg».proof.Proof.Gen.ReferenceIdeal.Read
import proofs.«121309_j7937099563262_2_alg».proof.Proof.SageSpec

noncomputable section

open scoped BigOperators

namespace Cert.ReferenceIdeal.Layer4

open Idealize.ShloMosaic Idealize.ShloMosaic.ValueIdx Cert.ReferenceIdeal Cert.ReferenceIdeal.Read Cert.Sage

/-- Entry (r, q) of the reference's layer 4 before its activation: the layer's entry of the reference's own neighbour
    sums, features and edge counts. The maximum of the count with 1 is taken on the count vector and then repeated
    along the columns; the bias vector is repeated down the rows. -/
theorem pre (x0 : S50000x128.Idx → EReal) (x1 : (⟨S2x800000, .i32⟩ : BufTy).Contents (Elt Ideal)) (x2 : S50000x128.Idx → EReal) (x3 : S128x256.Idx → EReal) (x4 : S256.Idx → EReal) (x5 : S128x256.Idx → EReal) (x6 : S256x256.Idx → EReal) (x7 : S256.Idx → EReal) (x8 : S256x256.Idx → EReal) (x9 : S128x128.Idx → EReal) (x10 : S128.Idx → EReal) (x11 : S128x128.Idx → EReal) (x12 : S128x128.Idx → EReal) (x13 : S128.Idx → EReal) (x14 : S128x128.Idx → EReal) (r : Fin 50000) (q : Fin 128) :
    val_main_v114 (F := Ideal) x0 x1 x2 x3 x4 x5 x6 x7 x8 x9 x10 x11 x12 x13 x14 (ix2 r q) = linAt (val_main_v99 (F := Ideal) x0 x1 x2 x3 x4 x5 x6 x7 x8 x9 x10 x11) (val_main_v89 (F := Ideal) x0 x1 x2 x3 x4 x5 x6 x7 x8 x9 x10 x11) x12 x14 (fun j => x13 (ix1 j)) (fun r => val_main_v103 (F := Ideal) x1 (ix1 r)) r q := by
  rw [val_main_v114_apply, val_main_v112_apply, val_main_v109_apply, val_main_v113_apply,
    val_main_v111_apply, val_main_v110_apply]
  unfold linAt
  refine congrArg₂ (· + ·) (congrArg₂ (· + ·) (Finset.sum_congr rfl fun k _ => ?_) ?_) (Finset.sum_congr rfl fun k _ => ?_)
  · have e1 : lidx_main_v109 (ix2 r q) k = ix2 r k := funext fun a => by match a with | ⟨0, _⟩ => rfl | ⟨1, _⟩ => rfl
    have e2 : ridx_main_v109 (ix2 r q) k = ix2 k q := funext fun a => by match a with | ⟨0, _⟩ => rfl | ⟨1, _⟩ => rfl
    have e3 : idx_main_v106 (idx_main_v107 (ix2 r k)) = ix1 r := funext fun a => by match a with | ⟨0, _⟩ => rfl
    rw [e1, e2, val_main_v108_apply, val_main_v107_apply, val_main_v106_apply, val_main_v105_apply, e3]
    try rfl
  · have e4 : idx_main_v110 (idx_main_v111 (ix2 r q)) = ix1 q := funext fun a => by match a with | ⟨0, _⟩ => rfl
    rw [e4]
    try rfl
  · have e1 : lidx_main_v113 (ix2 r q) k = ix2 r k := funext fun a => by match a with | ⟨0, _⟩ => rfl | ⟨1, _⟩ => rfl
    have e2 : ridx_main_v113 (ix2 r q) k = ix2 k q := funext fun a => by match a with | ⟨0, _⟩ => rfl | ⟨1, _⟩ => rfl
    rw [e1, e2]
    try rfl

/-- The clamped fourth layer multiplied into the output matrix, at (r, q). -/
theorem proj (x0 : S50000x128.Idx → EReal) (x1 : (⟨S2x800000, .i32⟩ : BufTy).Contents (Elt Ideal)) (x2 : S50000x128.Idx → EReal) (x3 : S128x256.Idx → EReal) (x4 : S256.Idx → EReal) (x5 : S128x256.Idx → EReal) (x6 : S256x256.Idx → EReal) (x7 : S256.Idx → EReal) (x8 : S256x256.Idx → EReal) (x9 : S128x128.Idx → EReal) (x10 : S128.Idx → EReal) (x11 : S128x128.Idx → EReal) (x12 : S128x128.Idx → EReal) (x13 : S128.Idx → EReal) (x14 : S128x128.Idx → EReal) (x15 : S128x64.Idx → EReal) (r : Fin 50000) (q : Fin 64) :
    val_main_v116 (F := Ideal) x0 x1 x2 x3 x4 x5 x6 x7 x8 x9 x10 x11 x12 x13 x14 x15 (ix2 r q) = ∑ k : Fin 128, max (linAt (val_main_v99 (F := Ideal) x0 x1 x2 x3 x4 x5 x6 x7 x8 x9 x10 x11) (val_main_v89 (F := Ideal) x0 x1 x2 x3 x4 x5 x6 x7 x8 x9 x10 x11) x12 x14 (fun j => x13 (ix1 j)) (fun r => val_main_v103 (F := Ideal) x1 (ix1 r)) r k) zero32 * x15 (ix2 k q) := by
  rw [val_main_v116_apply]
  refine Finset.sum_congr rfl fun k _ => ?_
  have e1 : lidx_main_v116 (ix2 r q) k = ix2 r k := funext fun a => by match a with | ⟨0, _⟩ => rfl | ⟨1, _⟩ => rfl
  have e2 : ridx_main_v116 (ix2 r q) k = ix2 k q := funext fun a => by match a with | ⟨0, _⟩ => rfl | ⟨1, _⟩ => rfl
  rw [e1, e2, val_main_v115_apply, val_main_call1_v0_apply, pre x0 x1 x2 x3 x4 x5 x6 x7 x8 x9 x10 x11 x12 x13 x14 r k]
  try rfl

/-- The reference's output array is the final layer. -/
theorem layer (x0 : S50000x128.Idx → EReal) (x1 : (⟨S2x800000, .i32⟩ : BufTy).Contents (Elt Ideal)) (x2 : S50000x128.Idx → EReal) (x3 : S128x256.Idx → EReal) (x4 : S256.Idx → EReal) (x5 : S128x256.Idx → EReal) (x6 : S256x256.Idx → EReal) (x7 : S256.Idx → EReal) (x8 : S256x256.Idx → EReal) (x9 : S128x128.Idx → EReal) (x10 : S128.Idx → EReal) (x11 : S128x128.Idx → EReal) (x12 : S128x128.Idx → EReal) (x13 : S128.Idx → EReal) (x14 : S128x128.Idx → EReal) (x15 : S128x64.Idx → EReal) (x16 : S64.Idx → EReal) :
    val_main_v127 (F := Ideal) x0 x1 x2 x3 x4 x5 x6 x7 x8 x9 x10 x11 x12 x13 x14 x15 x16 = finalLayer (val_main_v99 (F := Ideal) x0 x1 x2 x3 x4 x5 x6 x7 x8 x9 x10 x11) (val_main_v89 (F := Ideal) x0 x1 x2 x3 x4 x5 x6 x7 x8 x9 x10 x11) x12 x14 (fun j => x13 (ix1 j)) (fun r => val_main_v103 (F := Ideal) x1 (ix1 r)) x15 (fun j => x16 (ix1 j)) := by
  funext i
  obtain ⟨r, q, rfl⟩ : ∃ (r : Fin 50000) (q : Fin 64), i = ix2 r q := ⟨i 0, i 1, eq_ix2 i⟩
  rw [val_main_v127_apply, val_main_v125_apply, val_main_v123_apply, val_main_v121_apply, val_main_v120_apply,
    val_main_v119_apply, proj, val_main_v118_apply, val_main_v117_apply, Ideal.hostUnary_exp_def,
    val_main_v124_apply, val_main_v122_apply, val_main_v126_apply]
  have e4 : idx_main_v117 (idx_main_v118 (ix2 r q)) = ix1 q := funext fun a => by match a with | ⟨0, _⟩ => rfl
  rw [e4]
  unfold finalLayer
  rfl

end Cert.ReferenceIdeal.Layer4

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.Bridge.lean ====
/-
  The two programs compute the same three arrays from the same arguments.

  Layer by layer: the tiled program's features, neighbour sums and edge counts are the reference's (the same host
  operations on the same arguments; rounding to a narrower format and widening back change nothing on the extended
  reals), its bias row read at (0, j) is the reference's bias vector at j, and its count column read at (r, 0) is the
  reference's count vector at r. So the layer functions agree on equal inputs, and the equality of one layer's result
  feeds the next layer's neighbour sums.
-/
import proofs.«121309_j7937099563262_2_alg».proof.Proof.KChain
import proofs.«121309_j7937099563262_2_alg».proof.Proof.Ref1
import proofs.«121309_j7937099563262_2_alg».proof.Proof.Ref2
import proofs.«121309_j7937099563262_2_alg».proof.Proof.Ref3
import proofs.«121309_j7937099563262_2_alg».proof.Proof.Ref4
import proofs.«121309_j7937099563262_2_alg».proof.Proof.LibRowCast
import proofs.«121309_j7937099563262_2_alg».proof.Proof.LibColBroadcast

noncomputable section

namespace Cert.Bridge

open Idealize.ShloMosaic Idealize.ShloMosaic.ValueIdx Cert.Sage
open Cert.KernelIdeal (S50000x128 S128x256 S256 S256x256 S128x128 S128 S128x64 S64 S50000x256 S50000x64)

/-! ## The layer functions respect equal inputs -/

theorem sinLayer_congr {n d e : ℕ} {A A' h h' : Arr2 n d} {Wl Wl' Wr Wr' : Arr2 d e} {bl bl' : Fin e → EReal} {cnt cnt' : Fin n → EReal}
    (hA : A = A') (hh : h = h') (hWl : Wl = Wl') (hWr : Wr = Wr') (hb : bl = bl') (hc : cnt = cnt') :
    sinLayer A h Wl Wr bl cnt = sinLayer A' h' Wl' Wr' bl' cnt' := by subst hA hh hWl hWr hb hc; rfl
theorem reluLayer_congr {n d e : ℕ} {A A' h h' : Arr2 n d} {Wl Wl' Wr Wr' : Arr2 d e} {bl bl' : Fin e → EReal} {cnt cnt' : Fin n → EReal}
    (hA : A = A') (hh : h = h') (hWl : Wl = Wl') (hWr : Wr = Wr') (hb : bl = bl') (hc : cnt = cnt') :
    reluLayer A h Wl Wr bl cnt = reluLayer A' h' Wl' Wr' bl' cnt' := by subst hA hh hWl hWr hb hc; rfl
theorem meanPart_congr {n d : ℕ} {A A' h h' : Arr2 n d} {Wl Wl' Wr Wr' : Arr2 d 256} {bl bl' : Fin 256 → EReal} {cnt cnt' : Fin n → EReal}
    (hA : A = A') (hh : h = h') (hWl : Wl = Wl') (hWr : Wr = Wr') (hb : bl = bl') (hc : cnt = cnt') :
    meanPart A h Wl Wr bl cnt = meanPart A' h' Wl' Wr' bl' cnt' := by subst hA hh hWl hWr hb hc; rfl
theorem logvarPart_congr {n d : ℕ} {A A' h h' : Arr2 n d} {Wl Wl' Wr Wr' : Arr2 d 256} {bl bl' : Fin 256 → EReal} {cnt cnt' : Fin n → EReal}
    (hA : A = A') (hh : h = h') (hWl : Wl = Wl') (hWr : Wr = Wr') (hb : bl = bl') (hc : cnt = cnt') :
    logvarPart A h Wl Wr bl cnt = logvarPart A' h' Wl' Wr' bl' cnt' := by subst hA hh hWl hWr hb hc; rfl
theorem drawPart_congr {n d : ℕ} {A A' h h' : Arr2 n d} {Wl Wl' Wr Wr' : Arr2 d 256} {bl bl' : Fin 256 → EReal} {cnt cnt' : Fin n → EReal}
    {z z' : Arr2 n 128}
    (hA : A = A') (hh : h = h') (hWl : Wl = Wl') (hWr : Wr = Wr') (hb : bl = bl') (hc : cnt = cnt') (hz : z = z') :
    drawPart A h Wl Wr bl cnt z = drawPart A' h' Wl' Wr' bl' cnt' z' := by subst hA hh hWl hWr hb hc hz; rfl
theorem finalLayer_congr {n : ℕ} {A A' h h' : Arr2 n 128} {Wl Wl' Wr Wr' : Arr2 128 128} {bl bl' : Fin 128 → EReal} {cnt cnt' : Fin n → EReal}
    {Wo Wo' : Arr2 128 64} {bo bo' : Fin 64 → EReal}
    (hA : A = A') (hh : h = h') (hWl : Wl = Wl') (hWr : Wr = Wr') (hb : bl = bl') (hc : cnt = cnt') (hWo : Wo = Wo') (hbo : bo = bo') :
    finalLayer A h Wl Wr bl cnt Wo bo = finalLayer A' h' Wl' Wr' bl' cnt' Wo' bo' := by subst hA hh hWl hWr hb hc hWo hbo; rfl

section

open Cert.KernelIdeal.Chain Cert.ReferenceIdeal.Read

variable (x0 : S50000x128.Idx → EReal) (e : (⟨Cert.ReferenceIdeal.S2x800000, .i32⟩ : BufTy).Contents (Elt Ideal)) (x2 : S50000x128.Idx → EReal)
    (x3 : S128x256.Idx → EReal) (x4 : S256.Idx → EReal) (x5 : S128x256.Idx → EReal)
    (x6 : S256x256.Idx → EReal) (x7 : S256.Idx → EReal) (x8 : S256x256.Idx → EReal)
    (x9 : S128x128.Idx → EReal) (x10 : S128.Idx → EReal) (x11 : S128x128.Idx → EReal)
    (x12 : S128x128.Idx → EReal) (x13 : S128.Idx → EReal) (x14 : S128x128.Idx → EReal)
    (x15 : S128x64.Idx → EReal) (x16 : S64.Idx → EReal)

/-! ## What the two programs share before the first layer -/

/-- The scaled and shifted features. -/
theorem feat_eq : feat0 x0 = val_main_v7 (F := Ideal) x0 := rfl

/-- A bias vector read as a row, at (0, j), is the vector at j. -/
theorem row256 (x : S256.Idx → EReal) : (fun j : Fin 256 => (shapeCast Cert.KernelIdeal.S1x256 x Cert.KernelIdeal.Gen.shapeCasts_S256_S1x256 : Arr2 1 256) (ix2 (0 : Fin 1) j)) = fun j => x (ix1 j) :=
  funext fun j => Cert.RowCast.shapeCast_row_apply x _ 0 j
theorem row128 (x : S128.Idx → EReal) : (fun j : Fin 128 => (shapeCast Cert.KernelIdeal.S1x128 x Cert.KernelIdeal.Gen.shapeCasts_S128_S1x128 : Arr2 1 128) (ix2 (0 : Fin 1) j)) = fun j => x (ix1 j) :=
  funext fun j => Cert.RowCast.shapeCast_row_apply x _ 0 j
theorem row64 (x : S64.Idx → EReal) : (fun j : Fin 64 => (shapeCast Cert.KernelIdeal.S1x64 x Cert.KernelIdeal.Gen.shapeCasts_S64_S1x64 : Arr2 1 64) (ix2 (0 : Fin 1) j)) = fun j => x (ix1 j) :=
  funext fun j => Cert.RowCast.shapeCast_row_apply x _ 0 j

/-- The count column at (r, 0) is the reference's count vector at r (each of the reference's four copies of it). -/
theorem cnt1 : (fun r : Fin 50000 => (cntCol (dstV e) : Arr2 50000 1) (ix2 r (0 : Fin 1))) = fun r => val_main_v21 (F := Ideal) e (ix1 r) :=
  funext fun r => Cert.ColBroadcast.shapeCast_col_apply _ _ r 0
theorem cnt2 : (fun r : Fin 50000 => (cntCol (dstV e) : Arr2 50000 1) (ix2 r (0 : Fin 1))) = fun r => val_main_v47 (F := Ideal) e (ix1 r) :=
  funext fun r => Cert.ColBroadcast.shapeCast_col_apply _ _ r 0
theorem cnt3 : (fun r : Fin 50000 => (cntCol (dstV e) : Arr2 50000 1) (ix2 r (0 : Fin 1))) = fun r => val_main_v77 (F := Ideal) e (ix1 r) :=
  funext fun r => Cert.ColBroadcast.shapeCast_col_apply _ _ r 0
theorem cnt4 : (fun r : Fin 50000 => (cntCol (dstV e) : Arr2 50000 1) (ix2 r (0 : Fin 1))) = fun r => val_main_v103 (F := Ideal) e (ix1 r) :=
  funext fun r => Cert.ColBroadcast.shapeCast_col_apply _ _ r 0

/-! ## The neighbour sums of equal features are equal

Stated for any feature array, so that nothing about the features is opened: the two programs apply the same gather by
the wrapped source numbers and the same scatter-add by the target numbers. The reference repeats these operations
before each layer under new names; each copy is the same term. -/

theorem agg1_gen (h : FVec Ideal S50000x128 .bf16) :
    agg128 h (srcV e) (dstV e) = Host.scatterAdd (F := Ideal) Cert.ReferenceIdeal.scatter_S50000x128_S800000x1_S800000x128_1_0_0_1
      (val_main_v15 (F := Ideal)) (val_main_v16 (F := Ideal) e)
      (Host.gather Cert.ReferenceIdeal.gather_S50000x128_S800000x1_S800000x128_1_0_n_n_0_1_1128 h (val_main_v13 (F := Ideal) e)) := rfl
theorem agg2_gen (h : FVec Ideal S50000x256 .bf16) :
    agg256 h (srcV e) (dstV e) = Host.scatterAdd (F := Ideal) Cert.ReferenceIdeal.scatter_S50000x256_S800000x1_S800000x256_1_0_0_1
      (val_main_v41 (F := Ideal)) (val_main_v42 (F := Ideal) e)
      (Host.gather Cert.ReferenceIdeal.gather_S50000x256_S800000x1_S800000x256_1_0_n_n_0_1_1256 h (val_main_v39 (F := Ideal) e)) := rfl
theorem agg3_gen (h : FVec Ideal S50000x128 .bf16) :
    agg128 h (srcV e) (dstV e) = Host.scatterAdd (F := Ideal) Cert.ReferenceIdeal.scatter_S50000x128_S800000x1_S800000x128_1_0_0_1
      (val_main_v71 (F := Ideal)) (val_main_v72 (F := Ideal) e)
      (Host.gather Cert.ReferenceIdeal.gather_S50000x128_S800000x1_S800000x128_1_0_n_n_0_1_1128 h (val_main_v69 (F := Ideal) e)) := rfl
theorem agg4_gen (h : FVec Ideal S50000x128 .bf16) :
    agg128 h (srcV e) (dstV e) = Host.scatterAdd (F := Ideal) Cert.ReferenceIdeal.scatter_S50000x128_S800000x1_S800000x128_1_0_0_1
      (val_main_v97 (F := Ideal)) (val_main_v98 (F := Ideal) e)
      (Host.gather Cert.ReferenceIdeal.gather_S50000x128_S800000x1_S800000x128_1_0_n_n_0_1_1128 h (val_main_v95 (F := Ideal) e)) := rfl

/-! ## Layer 1 -/

theorem agg1_eq : agg128 (feat0 x0) (srcV e) (dstV e) = val_main_v17 (F := Ideal) x0 e := by
  rw [agg1_gen]; rfl

theorem h1_eq : h1 x0 e x3 x4 x5 = val_main_v33 (F := Ideal) x0 e x3 x4 x5 := by
  rw [Cert.ReferenceIdeal.Layer1.layer]
  unfold h1 sinLayerK
  rw [agg1_eq, row256, cnt1]
  rfl

/-! ## Layer 2 -/

theorem agg2_eq : agg256 (h1 x0 e x3 x4 x5) (srcV e) (dstV e) = val_main_v43 (F := Ideal) x0 e x3 x4 x5 := by
  rw [h1_eq, agg2_gen]; rfl

theorem mean_eq : mean x0 e x3 x4 x5 x6 x7 x8 = val_main_v59 (F := Ideal) x0 e x3 x4 x5 x6 x7 x8 := by
  rw [Cert.ReferenceIdeal.Layer2.mean_eq]
  unfold mean meanPartK
  rw [agg2_eq, h1_eq, row256, cnt2]
  rfl
theorem logvar_eq : logvar x0 e x3 x4 x5 x6 x7 x8 = val_main_v60 (F := Ideal) x0 e x3 x4 x5 x6 x7 x8 := by
  rw [Cert.ReferenceIdeal.Layer2.logvar_eq]
  unfold logvar logvarPartK
  rw [agg2_eq, h1_eq, row256, cnt2]
  rfl
theorem draw_eq : draw x0 e x2 x3 x4 x5 x6 x7 x8 = val_main_v63 (F := Ideal) x0 e x2 x3 x4 x5 x6 x7 x8 := by
  rw [Cert.ReferenceIdeal.Layer2.draw_eq]
  unfold draw drawPartK
  rw [agg2_eq, h1_eq, row256, cnt2]
  rfl

/-! ## Layer 3 -/

theorem agg3_eq : agg128 (draw x0 e x2 x3 x4 x5 x6 x7 x8) (srcV e) (dstV e) = val_main_v73 (F := Ideal) x0 e x2 x3 x4 x5 x6 x7 x8 := by
  rw [draw_eq, agg3_gen]; rfl

theorem h3_eq : h3 x0 e x2 x3 x4 x5 x6 x7 x8 x9 x10 x11 = val_main_v89 (F := Ideal) x0 e x2 x3 x4 x5 x6 x7 x8 x9 x10 x11 := by
  rw [Cert.ReferenceIdeal.Layer3.layer]
  unfold h3 reluLayerK
  rw [agg3_eq, draw_eq, row128, cnt3]
  rfl

/-! ## Layer 4 and the output -/

theorem agg4_eq : agg128 (h3 x0 e x2 x3 x4 x5 x6 x7 x8 x9 x10 x11) (srcV e) (dstV e)
    = val_main_v99 (F := Ideal) x0 e x2 x3 x4 x5 x6 x7 x8 x9 x10 x11 := by
  rw [h3_eq, agg4_gen]; rfl

theorem out_eq : out x0 e x2 x3 x4 x5 x6 x7 x8 x9 x10 x11 x12 x13 x14 x15 x16
    = val_main_v127 (F := Ideal) x0 e x2 x3 x4 x5 x6 x7 x8 x9 x10 x11 x12 x13 x14 x15 x16 := by
  rw [Cert.ReferenceIdeal.Layer4.layer]
  unfold out finalLayerK
  rw [agg4_eq, h3_eq, row128, row64, cnt4]
  rfl

end

end Cert.Bridge

end
-- ==== Proof.lean ====
/-
  A four-layer graph network (three neighbour-averaging layers with a sine, a draw from a mean and a log-variance, two
  clamped layers and a final logistic projection) written as four tiled regions between stretches of whole-array
  operations, against the same network written with whole-array operations only.

  On the extended reals the two programs are the same function of their seventeen arguments. Each tiled region computes,
  row block by row block, one layer of the arrays it is handed (Pay0-3: what a body stores at an entry; Val0-3: the
  blocks tile the rows, so the result array is one whole-array function). Between the regions both programs sum the
  feature rows of every node's incoming edges with the same gather and scatter-add, and count the edges the same way
  (KChain, KHost: the tiled program's buffers followed from the launch to the return). The reference's stages, read one
  operation at a time, are the same layers (Ref1-4), and layer by layer the inputs agree (Bridge). Sums are compared
  term by term in the same order, the bias is added between the two projections on both sides, and a change of float
  format is the identity, so no law of arithmetic beyond reading both sides is needed and the precondition is not
  opened.

  The three frame claims: the two tiled programs' frames are the generated ones; the reference's is its generated run
  with the results dropped. The idealization rewrote nothing, so the preservation claim is trivial.
-/
import proofs.«121309_j7937099563262_2_alg».proof.Defs
import proofs.«121309_j7937099563262_2_alg».proof.Proof.Gen.Kernel
import proofs.«121309_j7937099563262_2_alg».proof.Proof.Gen.Kernel.Frame
import proofs.«121309_j7937099563262_2_alg».proof.Proof.Gen.KernelIdeal
import proofs.«121309_j7937099563262_2_alg».proof.Proof.Gen.KernelIdeal.Frame
import proofs.«121309_j7937099563262_2_alg».proof.Proof.Gen.ReferenceIdeal
import proofs.«121309_j7937099563262_2_alg».proof.Proof.Gen.Pre_finite_inputs
import proofs.«121309_j7937099563262_2_alg».proof.Proof.Gen.ReferenceIdeal.Run
import proofs.«121309_j7937099563262_2_alg».proof.Proof.Gen.ReferenceIdeal.Read
import proofs.«121309_j7937099563262_2_alg».proof.Proof.KRun
import proofs.«121309_j7937099563262_2_alg».proof.Proof.KHost
import proofs.«121309_j7937099563262_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- From memories that agree on the arguments both programs run; the tiled program's output, mean and log-variance
    arrays at the return are the chain of layers of its arguments, the reference's are its own stages, and these are
    the same functions. -/
theorem algebraic : Cert.algebraic_KernelIdeal_ReferenceIdeal := by
  intro m ρ m' ρ' _ hagree
  refine ⟨fun c => Cert.KernelIdeal.Gen.W8 m ρ c (Proc.devRef .tc Cert.KernelIdeal.main_v75),
    fun c => Cert.KernelIdeal.Gen.W8 m ρ c (Proc.devRef .tc Cert.KernelIdeal.main_v51_1),
    fun c => Cert.KernelIdeal.Gen.W8 m ρ c (Proc.devRef .tc Cert.KernelIdeal.main_v51_2),
    Cert.KernelIdeal.Run.run_W8 (F := Ideal) m ρ, ?_⟩
  refine (θ_run Cert.ReferenceIdeal.defs _ _).mono (fun _ h c => ?_) (Cert.ReferenceIdeal.Value.run (F := Ideal) m' ρ')
  obtain ⟨h0, h1, h2, hargs⟩ := h c
  obtain ⟨a0, a1, a2, a3, a4, a5, a6, a7, a8, a9, a10, a11, a12, a13, a14, a15, a16⟩ := hagree c
  refine ⟨h0.trans ?_, h1.trans ?_, h2.trans ?_, hargs⟩
  · rw [Cert.ReferenceIdeal.Read.val_main_v127_eq, a0, a1, a2, a3, a4, a5, a6, a7, a8, a9, a10, a11, a12, a13, a14, a15, a16]
    exact (Cert.Bridge.out_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).symm.trans
      (Cert.KernelIdeal.Host.out_eq m ρ c).symm
  · rw [Cert.ReferenceIdeal.Read.val_main_v59_eq, a0, a1, a3, a4, a5, a6, a7, a8]
    exact (Cert.Bridge.mean_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).symm.trans
      (Cert.KernelIdeal.Host.mean_eq m ρ c).symm
  · rw [Cert.ReferenceIdeal.Read.val_main_v60_eq, a0, a1, a3, a4, a5, a6, a7, a8]
    exact (Cert.Bridge.logvar_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).symm.trans
      (Cert.KernelIdeal.Host.logvar_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
